-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v182) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x1600000 : Shape := ⟨2, ![2, 1600000]⟩
abbrev S16x128 : Shape := ⟨2, ![16, 128]⟩
abbrev S128 : Shape := ⟨1, ![128]⟩
abbrev S3x128x128 : Shape := ⟨3, ![3, 128, 128]⟩
abbrev S3x128 : Shape := ⟨2, ![3, 128]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_arg5 : FVec F S3x128 .f32) (main_arg6 : FVec F S3x128 .f32) (main_arg7 : FVec F S3x128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg6
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg7
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  main_v33

def fn {F : FTy → Type} [FloatOps F] (main_arg0 : FVec F S100000x16 .f32) (main_arg1 : IVec S2x1600000 32) (main_arg2 : FVec F S16x128 .f32) (main_arg3 : FVec F S128 .f32) (main_arg4 : FVec F S3x128x128 .f32) (main_arg5 : FVec F S3x128 .f32) (main_arg6 : FVec F S3x128 .f32) (main_arg7 : FVec F S3x128 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S16x128 .f32 := Host.absf main_arg2
  let main_cst_0 : FVec F S_ .f32 := constant S_ .f32 0x7F800000#32
  let main_v5 : FVec F S16x128 .f32 := broadcastInDim S16x128 ![] bcast_S_S16x128 main_cst_0
  let main_v6 : IVec S16x128 1 := cmpf .olt main_v4 main_v5
  let main_c_1 : IVec S_ 1 := constantI S_ 1 1#1
  let main_v7 : IVec S_ 1 := (fun x v => Host.reduce IntOp.andi x v reducesTo_S16x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_arg6 main_arg7 main_v13 main_v16
-- ==== Kernel.lean ====
abbrev S100000x16 : Shape := ⟨2, ![100000, 16]⟩
abbrev S2x1600000 : Shape := ⟨2, ![2, 1600000]⟩
abbrev S16x128 : Shape := ⟨2, ![16, 128]⟩
abbrev S128 : Shape := ⟨1, ![128]⟩
abbrev S3x128x128 : Shape := ⟨3, ![3, 128, 128]⟩
abbrev S3x128 : Shape := ⟨2, ![3, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x16 : Shape := ⟨2, ![5000, 16]⟩
abbrev S5000x128 : Shape := ⟨2, ![5000, 128]⟩
abbrev S1x128 : Shape := ⟨2, ![1, 128]⟩
abbrev S1x128x128 : Shape := ⟨3, ![1, 128, 128]⟩
abbrev S128x128 : Shape := ⟨2, ![128, 128]⟩
abbrev S1700000x128 : Shape := ⟨2, ![1700000, 128]⟩
abbrev S5000 : Shape := ⟨1, ![5000]⟩
abbrev S5000x1 : Shape := ⟨2, ![5000, 1]⟩

abbrev nBuf : Space → Nat
  | .hbm => 127
  | .vmem => 49
  | .smem => 0
  | _ => 0

abbrev bufTy : (tb : Table) → Fin (tcTables nBuf tb) → BufTy
  | .hbm, ⟨0, _⟩ => ⟨S100000x16, .f32⟩
  | .hbm, ⟨1, _⟩ => ⟨S2x1600000, .i32⟩
  | .hbm, ⟨2, _⟩ => ⟨S16x128, .f32⟩
  | .hbm, ⟨3, _⟩ => ⟨S128, .f32⟩
  | .hbm, ⟨4, _⟩ => ⟨S3x128x128, .f32⟩
  | .hbm, ⟨5, _⟩ => ⟨S3x128, .f32⟩
  | .hbm, ⟨6, _⟩ => ⟨S3x128, .f32⟩
  | .hbm, ⟨7, _⟩ => ⟨S3x128, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S1700000x1, .f32⟩
  | .hbm, ⟨45, _⟩ => ⟨S100000x128, .f32⟩
  | .hbm, ⟨46, _⟩ => ⟨S1x128x128, .f32⟩
  | .hbm, ⟨47, _⟩ => ⟨S128x128, .f32⟩
  | .hbm, ⟨48, _⟩ => ⟨S_, .f32⟩
  | .hbm, ⟨49, _⟩ => ⟨S128, .f32⟩
  | .hbm, ⟨50, _⟩ => ⟨S100000x128, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x128, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S128, .f32⟩
  | .hbm, ⟨68, _⟩ => ⟨S1x128, .f32⟩
  | .hbm, ⟨69, _⟩ => ⟨S128, .f32⟩
  | .hbm, ⟨70, _⟩ => ⟨S1x128, .f32⟩
  | .hbm, ⟨71, _⟩ => ⟨S128, .f32⟩
  | .hbm, ⟨72, _⟩ => ⟨S100000x128, .f32⟩
  | .hbm, ⟨73, _⟩ => ⟨S1x128x128, .f32⟩
  | .hbm, ⟨74, _⟩ => ⟨S128x128, .f32⟩
  | .hbm, ⟨75, _⟩ => ⟨S_, .f32⟩
  | .hbm, ⟨76, _⟩ => ⟨S128, .f32⟩
  | .hbm, ⟨77, _⟩ => ⟨S100000x128, .f32⟩
  | .hbm, ⟨78, _⟩ => ⟨S_, .i32⟩
  | .hbm, ⟨79, _⟩ => ⟨S1700000, .i32⟩
  | .hbm, ⟨80, _⟩ => ⟨S1700000, .i1⟩
  | .hbm, ⟨81, _⟩ => ⟨S_, .i32⟩
  | .hbm, ⟨82, _⟩ => ⟨S1700000, .i32⟩
  | .hbm, ⟨83, _⟩ => ⟨S1700000, .i32⟩
  | .hbm, ⟨84, _⟩ => ⟨S1700000, .i32⟩
  | .hbm, ⟨85, _⟩ => ⟨S1700000x1, .i32⟩
  | .hbm, ⟨86, _⟩ => ⟨S1700000x128, .f32⟩
  | .hbm, ⟨87, _⟩ => ⟨S1700000x128, .f32⟩
  | .hbm, ⟨88, _⟩ => ⟨S1700000x128, .f32⟩
  | .hbm, ⟨89, _⟩ => ⟨S_, .f32⟩
  | .hbm, ⟨90, _⟩ => ⟨S100000x128, .f32⟩
  | .hbm, ⟨91, _⟩ => ⟨S1700000x1, .i32⟩
  | .hbm, ⟨92, _⟩ => ⟨S100000x128, .f32⟩
  | .hbm, ⟨93, _⟩ => ⟨S1x128, .f32⟩
  | .hbm, ⟨94, _⟩ => ⟨S128, .f32⟩
  | .hbm, ⟨95, _⟩ => ⟨S1x128, .f32⟩
  | .hbm, ⟨96, _⟩ => ⟨S128, .f32⟩
  | .hbm, ⟨97, _⟩ => ⟨S1x128, .f32⟩
  | .hbm, ⟨98, _⟩ => ⟨S128, .f32⟩
  | .hbm, ⟨99, _⟩ => ⟨S100000x128, .f32⟩
  | .hbm, ⟨100, _⟩ => ⟨S1x128x128, .f32⟩
  | .hbm, ⟨101, _⟩ => ⟨S128x128, .f32⟩
  | .hbm, ⟨102, _⟩ => ⟨S_, .f32⟩
  | .hbm, ⟨103, _⟩ => ⟨S128, .f32⟩
  | .hbm, ⟨104, _⟩ => ⟨S100000x128, .f32⟩
  | .hbm, ⟨105, _⟩ => ⟨S_, .i32⟩
  | .hbm, ⟨106, _⟩ => ⟨S1700000, .i32⟩
  | .hbm, ⟨107, _⟩ => ⟨S1700000, .i1⟩
  | .hbm, ⟨108, _⟩ => ⟨S_, .i32⟩
  | .hbm, ⟨109, _⟩ => ⟨S1700000, .i32⟩
  | .hbm, ⟨110, _⟩ => ⟨S1700000, .i32⟩
  | .hbm, ⟨111, _⟩ => ⟨S1700000, .i32⟩
  | .hbm, ⟨112, _⟩ => ⟨S1700000x1, .i32⟩
  | .hbm, ⟨113, _⟩ => ⟨S1700000x128, .f32⟩
  | .hbm, ⟨114, _⟩ => ⟨S1700000x128, .f32⟩
  | .hbm, ⟨115, _⟩ => ⟨S1700000x128, .f32⟩
  | .hbm, ⟨116, _⟩ => ⟨S_, .f32⟩
  | .hbm, ⟨117, _⟩ => ⟨S100000x128, .f32⟩
  | .hbm, ⟨118, _⟩ => ⟨S1700000x1, .i32⟩
  | .hbm, ⟨119, _⟩ => ⟨S100000x128, .f32⟩
  | .hbm, ⟨120, _⟩ => ⟨S1x128, .f32⟩
  | .hbm, ⟨121, _⟩ => ⟨S128, .f32⟩
  | .hbm, ⟨122, _⟩ => ⟨S1x128, .f32⟩
  | .hbm, ⟨123, _⟩ => ⟨S128, .f32⟩
  | .hbm, ⟨124, _⟩ => ⟨S1x128, .f32⟩
  | .hbm, ⟨125, _⟩ => ⟨S128, .f32⟩
  | .hbm, ⟨126, _⟩ => ⟨S100000x128, .f32⟩
  | .local _ .vmem, ⟨0, _⟩ => ⟨S5000x16, .f32⟩
  | .local _ .vmem, ⟨1, _⟩ => ⟨S5000x16, .f32⟩
  | .local _ .vmem, ⟨2, _⟩ => ⟨S16x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128, .f32⟩
  | .local _ .vmem, ⟨15, _⟩ => ⟨S128, .f32⟩
  | .local _ .vmem, ⟨16, _⟩ => ⟨S128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S128x128, .f32⟩
  | .local _ .vmem, ⟨22, _⟩ => ⟨S128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S128, .f32⟩
  | .local _ .vmem, ⟨28, _⟩ => ⟨S128, .f32⟩
  | .local _ .vmem, ⟨29, _⟩ => ⟨S128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S128x128, .f32⟩
  | .local _ .vmem, ⟨37, _⟩ => ⟨S128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S128, .f32⟩
  | .local _ .vmem, ⟨43, _⟩ => ⟨S128, .f32⟩
  | .local _ .vmem, ⟨44, _⟩ => ⟨S128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_c_6 : Ref sig .tc := ⟨.hbm, 51, rfl⟩
abbrev main_v35 : Ref sig .tc := ⟨.hbm, 52, rfl⟩
abbrev main_v36 : Ref sig .tc := ⟨.hbm, 53, rfl⟩
abbrev main_c_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_c_10 : Ref sig .tc := ⟨.hbm, 78, rfl⟩
abbrev main_v58 : Ref sig .tc := ⟨.hbm, 79, rfl⟩
abbrev main_v59 : Ref sig .tc := ⟨.hbm, 80, rfl⟩
abbrev main_c_11 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_12 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_cst_13 : Ref sig .tc := ⟨.hbm, 102, rfl⟩
abbrev main_v79 : Ref sig .tc := ⟨.hbm, 103, rfl⟩
abbrev main_v80 : Ref sig .tc := ⟨.hbm, 104, rfl⟩
abbrev main_c_14 : Ref sig .tc := ⟨.hbm, 105, rfl⟩
abbrev main_v81 : Ref sig .tc := ⟨.hbm, 106, rfl⟩
abbrev main_v82 : Ref sig .tc := ⟨.hbm, 107, rfl⟩
abbrev main_c_15 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_cst_16 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg4_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg3_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg3_0 : Ref sig .tc := ⟨.vmem, 29, rfl⟩
abbrev cc4_stg4_0 : Ref sig .tc := ⟨.vmem, 30, rfl⟩
abbrev cc4_stg4_1 : Ref sig .tc := ⟨.vmem, 31, rfl⟩
abbrev cc4_stg5_0 : Ref sig .tc := ⟨.vmem, 32, rfl⟩
abbrev cc4_stg5_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg3_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg2_0 : Ref sig .tc := ⟨.vmem, 43, rfl⟩
abbrev cc6_stg3_0 : Ref sig .tc := ⟨.vmem, 44, rfl⟩
abbrev cc6_stg4_0 : Ref sig .tc := ⟨.vmem, 45, rfl⟩
abbrev cc6_stg4_1 : Ref sig .tc := ⟨.vmem, 46, rfl⟩
abbrev cc6_stg5_0 : Ref sig .tc := ⟨.vmem, 47, rfl⟩
abbrev cc6_stg5_1 : Ref sig .tc := ⟨.vmem, 48, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem4_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem3_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem3_0 : DmaSem sig := 29
abbrev cc4_sem4_0 : DmaSem sig := 30
abbrev cc4_sem4_1 : DmaSem sig := 31
abbrev cc4_sem5_0 : DmaSem sig := 32
abbrev cc4_sem5_1 : DmaSem sig := 33
abbrev cc5_sem0_0 : DmaSem sig := 34
abbrev cc5_sem0_1 : DmaSem sig := 35
abbrev cc5_sem1_0 : DmaSem sig := 36
abbrev cc5_sem2_0 : DmaSem sig := 37
abbrev cc5_sem3_0 : DmaSem sig := 38
abbrev cc5_sem3_1 : DmaSem sig := 39
abbrev cc6_sem0_0 : DmaSem sig := 40
abbrev cc6_sem0_1 : DmaSem sig := 41
abbrev cc6_sem1_0 : DmaSem sig := 42
abbrev cc6_sem2_0 : DmaSem sig := 43
abbrev cc6_sem3_0 : DmaSem sig := 44
abbrev cc6_sem4_0 : DmaSem sig := 45
abbrev cc6_sem4_1 : DmaSem sig := 46
abbrev cc6_sem5_0 : DmaSem sig := 47
abbrev cc6_sem5_1 : DmaSem sig := 48

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S5000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S5000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x16_S5000x16_0_0 : ∀ a, (![0, 0] : Fin 2 → Nat) a + S5000x16.size a ≤ S5000x16.size a
  h_S5000x16 : 0 < S5000x16.numel
  bitsLt_bf16_f32 : FTy.bits .bf16 < FTy.bits .f32
  inb_S16x128_S16x128_0_0 : ∀ a, (![0, 0] : Fin 2 → Nat) a + S16x128.size a ≤ S16x128.size a
  h_S16x128 : 0 < S16x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  slices_S3x128x128_S1x128x128_0_0_0 : S3x128x128.Slices ![0, 0, 0] S1x128x128
  shapeCasts_S1x128x128_S128x128 : S1x128x128.ShapeCasts S128x128
  bcast_S_S128 : S_.BroadcastsInDim S128 (![] : Fin 0 → Fin S128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128_S128 : S128.ShapeCasts S128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  slices_S3x128_S1x128_0_0 : S3x128.Slices ![0, 0] S1x128
  shapeCasts_S1x128_S128 : S1x128.ShapeCasts S128
  reduces_S5000x128_S5000 : S5000x128.Reduces [1] S5000
  shapeCasts_S5000_S5000x1 : S5000.ShapeCasts S5000x1
  broadcasts_S5000x1_S5000x128 : S5000x1.Broadcasts S5000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x16_S16x128_S5000x128_1_0_0_1_n_n_wf : DotDims.WF S5000x16 S16x128 S5000x128 [1] [0] [0] [1] [] []
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S100000x16.size a
  hwx0_0 : ∀ i : grid0.Coords, EltTy.bits .f32 = 32 ∨ (Rect.block (s := S100000x16) S5000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x128.size a
  hwx0_1 : ∀ i : grid0.Coords, EltTy.bits .f32 = 32 ∨ (Rect.block (s := S16x128) S16x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128.size a ≤ S128.size a
  hwx4_1 : ∀ i : grid4.Coords, EltTy.bits .f32 = 32 ∨ (Rect.block (s := S128) S128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128.size a ≤ S128.size a
  hwx4_2 : ∀ i : grid4.Coords, EltTy.bits .f32 = 32 ∨ (Rect.block (s := S128) S128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128.size a ≤ S128.size a
  hwx4_3 : ∀ i : grid4.Coords, EltTy.bits .f32 = 32 ∨ (Rect.block (s := S128) S128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S100000x128.size a
  hwx4_4 : ∀ i : grid4.Coords, EltTy.bits .f32 = 32 ∨ (Rect.block (s := S100000x128) S5000x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S100000x128.size a
  hwx4_5 : ∀ i : grid4.Coords, EltTy.bits .f32 = 32 ∨ (Rect.block (s := S100000x128) S5000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128.size a ≤ S128.size a
  hwx5_2 : ∀ i : grid5.Coords, EltTy.bits .f32 = 32 ∨ (Rect.block (s := S128) S128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S100000x128.size a
  hwx5_3 : ∀ i : grid5.Coords, EltTy.bits .f32 = 32 ∨ (Rect.block (s := S100000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128.size a ≤ S128.size a
  hwx6_1 : ∀ i : grid6.Coords, EltTy.bits .f32 = 32 ∨ (Rect.block (s := S128) S128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128.size a ≤ S128.size a
  hwx6_2 : ∀ i : grid6.Coords, EltTy.bits .f32 = 32 ∨ (Rect.block (s := S128) S128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128.size a ≤ S128.size a
  hwx6_3 : ∀ i : grid6.Coords, EltTy.bits .f32 = 32 ∨ (Rect.block (s := S128) S128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x128.size a ≤ S100000x128.size a
  hwx6_4 : ∀ i : grid6.Coords, EltTy.bits .f32 = 32 ∨ (Rect.block (s := S100000x128) S5000x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x128.size a ≤ S100000x128.size a
  hwx6_5 : ∀ i : grid6.Coords, EltTy.bits .f32 = 32 ∨ (Rect.block (s := S100000x128) S5000x128.size (cc6_transform_5 i) (hinb6_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x16_S16x128_S5000x128_1_0_0_1_n_n : DotDims S5000x16 S16x128 S5000x128 where
  lhsContracting := [1]
  rhsContracting := [0]
  lhsNonContracting := [0]
  rhsNonContracting := [1]
  lhsBatch := []
  rhsBatch := []
  wf := dot_S5000x16_S16x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v53) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v56) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v57) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v69) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v71) S128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v73) S128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v75) S128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v53) S5000x128.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v76) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v76) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v79) S128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v80) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v92) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v94) S128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v96) S128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v98) S128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v76) S5000x128.size cc6_transform_4 reads6_4 false false 2 stage6_4 sem6_4
    hrank6 hreads6_4 hinb6_4 nbuf6_4 (Memref.isWhole_whole _) hwx6_4 hstage6_4

abbrev win6_5 : Pipeline.Window sig grid6 :=
  Pipeline.Window.ofSpec (Memref.whole main_v99) S5000x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S100000x16 : Shape := ⟨2, ![100000, 16]⟩
abbrev S2x1600000 : Shape := ⟨2, ![2, 1600000]⟩
abbrev S16x128 : Shape := ⟨2, ![16, 128]⟩
abbrev S128 : Shape := ⟨1, ![128]⟩
abbrev S3x128x128 : Shape := ⟨3, ![3, 128, 128]⟩
abbrev S3x128 : Shape := ⟨2, ![3, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1x128 : Shape := ⟨2, ![1, 128]⟩
abbrev S1x128x128 : Shape := ⟨3, ![1, 128, 128]⟩
abbrev S128x128 : Shape := ⟨2, ![128, 128]⟩
abbrev S1700000x128 : Shape := ⟨2, ![1700000, 128]⟩
abbrev S100000x1 : Shape := ⟨2, ![100000, 1]⟩

abbrev nBuf : Space → Nat
  | .hbm => 228
  | .vmem => 0
  | .smem => 0
  | _ => 0

abbrev hbmTy0_0 (i : Nat) : BufTy := match i % 128 with
  | 0 => ⟨S100000x16, .f32⟩
  | 1 => ⟨S2x1600000, .i32⟩
  | 2 => ⟨S16x128, .f32⟩
  | 3 => ⟨S128, .f32⟩
  | 4 => ⟨S3x128x128, .f32⟩
  | 5 => ⟨S3x128, .f32⟩
  | 6 => ⟨S3x128, .f32⟩
  | 7 => ⟨S3x128, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .f32⟩
  | 24 => ⟨S100000, .f32⟩
  | 25 => ⟨S_, .i32⟩
  | 26 => ⟨S1700000, .i32⟩
  | 27 => ⟨S1700000, .i1⟩
  | 28 => ⟨S_, .i32⟩
  | 29 => ⟨S1700000, .i32⟩
  | 30 => ⟨S1700000, .i32⟩
  | 31 => ⟨S1700000, .i32⟩
  | 32 => ⟨S1700000x1, .i32⟩
  | 33 => ⟨S1700000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S1700000, .f32⟩
  | 44 => ⟨S1700000x1, .f32⟩
  | 45 => ⟨S100000x128, .f32⟩
  | 46 => ⟨S1x128, .f32⟩
  | 47 => ⟨S100000x128, .f32⟩
  | 48 => ⟨S100000x128, .f32⟩
  | 49 => ⟨S1x128x128, .f32⟩
  | 50 => ⟨S128x128, .f32⟩
  | 51 => ⟨S100000x128, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x128, .f32⟩
  | 61 => ⟨S1700000x128, .f32⟩
  | 62 => ⟨S1700000x128, .f32⟩
  | 63 => ⟨S_, .f32⟩
  | 64 => ⟨S100000x128, .f32⟩
  | 65 => ⟨S1700000x1, .i32⟩
  | 66 => ⟨S100000x128, .f32⟩
  | 67 => ⟨S1x128, .f32⟩
  | 68 => ⟨S128, .f32⟩
  | 69 => ⟨S1x128, .f32⟩
  | 70 => ⟨S100000x128, .f32⟩
  | 71 => ⟨S100000x128, .f32⟩
  | 72 => ⟨S1x128, .f32⟩
  | 73 => ⟨S128, .f32⟩
  | 74 => ⟨S1x128, .f32⟩
  | 75 => ⟨S128, .f32⟩
  | 76 => ⟨S_, .f32⟩
  | 77 => ⟨S100000, .f32⟩
  | 78 => ⟨S100000x1, .f32⟩
  | 79 => ⟨S_, .f32⟩
  | 80 => ⟨S100000x1, .f32⟩
  | 81 => ⟨S100000x1, .f32⟩
  | 82 => ⟨S100000x128, .f32⟩
  | 83 => ⟨S100000x128, .f32⟩
  | 84 => ⟨S100000x128, .f32⟩
  | 85 => ⟨S_, .f32⟩
  | 86 => ⟨S100000, .f32⟩
  | 87 => ⟨S100000x1, .f32⟩
  | 88 => ⟨S_, .f32⟩
  | 89 => ⟨S100000x1, .f32⟩
  | 90 => ⟨S100000x1, .f32⟩
  | 91 => ⟨S100000x128, .f32⟩
  | 92 => ⟨S100000x128, .f32⟩
  | 93 => ⟨S_, .f32⟩
  | 94 => ⟨S100000x1, .f32⟩
  | 95 => ⟨S100000x1, .f32⟩
  | 96 => ⟨S100000x1, .f32⟩
  | 97 => ⟨S100000x128, .f32⟩
  | 98 => ⟨S100000x128, .f32⟩
  | 99 => ⟨S1x128, .f32⟩
  | 100 => ⟨S100000x128, .f32⟩
  | 101 => ⟨S100000x128, .f32⟩
  | 102 => ⟨S1x128, .f32⟩
  | 103 => ⟨S100000x128, .f32⟩
  | 104 => ⟨S100000x128, .f32⟩
  | 105 => ⟨S_, .f32⟩
  | 106 => ⟨S100000x128, .f32⟩
  | 107 => ⟨S100000x128, .f32⟩
  | 108 => ⟨S1x128x128, .f32⟩
  | 109 => ⟨S128x128, .f32⟩
  | 110 => ⟨S100000x128, .f32⟩
  | 111 => ⟨S_, .i32⟩
  | 112 => ⟨S1700000, .i32⟩
  | 113 => ⟨S1700000, .i1⟩
  | 114 => ⟨S_, .i32⟩
  | 115 => ⟨S1700000, .i32⟩
  | 116 => ⟨S1700000, .i32⟩
  | 117 => ⟨S1700000, .i32⟩
  | 118 => ⟨S1700000x1, .i32⟩
  | 119 => ⟨S1700000x128, .f32⟩
  | 120 => ⟨S1700000x128, .f32⟩
  | 121 => ⟨S1700000x128, .f32⟩
  | 122 => ⟨S_, .f32⟩
  | 123 => ⟨S100000x128, .f32⟩
  | 124 => ⟨S1700000x1, .i32⟩
  | 125 => ⟨S100000x128, .f32⟩
  | 126 => ⟨S1x128, .f32⟩
  | 127 => ⟨S128, .f32⟩
  | _ => ⟨S100000x16, .f32⟩

abbrev hbmTy0_1 (i : Nat) : BufTy := match i % 128 with
  | 0 => ⟨S1x128, .f32⟩
  | 1 => ⟨S100000x128, .f32⟩
  | 2 => ⟨S100000x128, .f32⟩
  | 3 => ⟨S1x128, .f32⟩
  | 4 => ⟨S128, .f32⟩
  | 5 => ⟨S1x128, .f32⟩
  | 6 => ⟨S128, .f32⟩
  | 7 => ⟨S_, .f32⟩
  | 8 => ⟨S100000, .f32⟩
  | 9 => ⟨S100000x1, .f32⟩
  | 10 => ⟨S_, .f32⟩
  | 11 => ⟨S100000x1, .f32⟩
  | 12 => ⟨S100000x1, .f32⟩
  | 13 => ⟨S100000x128, .f32⟩
  | 14 => ⟨S100000x128, .f32⟩
  | 15 => ⟨S100000x128, .f32⟩
  | 16 => ⟨S_, .f32⟩
  | 17 => ⟨S100000, .f32⟩
  | 18 => ⟨S100000x1, .f32⟩
  | 19 => ⟨S_, .f32⟩
  | 20 => ⟨S100000x1, .f32⟩
  | 21 => ⟨S100000x1, .f32⟩
  | 22 => ⟨S100000x128, .f32⟩
  | 23 => ⟨S100000x128, .f32⟩
  | 24 => ⟨S_, .f32⟩
  | 25 => ⟨S100000x1, .f32⟩
  | 26 => ⟨S100000x1, .f32⟩
  | 27 => ⟨S100000x1, .f32⟩
  | 28 => ⟨S100000x128, .f32⟩
  | 29 => ⟨S100000x128, .f32⟩
  | 30 => ⟨S1x128, .f32⟩
  | 31 => ⟨S100000x128, .f32⟩
  | 32 => ⟨S100000x128, .f32⟩
  | 33 => ⟨S1x128, .f32⟩
  | 34 => ⟨S100000x128, .f32⟩
  | 35 => ⟨S100000x128, .f32⟩
  | 36 => ⟨S_, .f32⟩
  | 37 => ⟨S100000x128, .f32⟩
  | 38 => ⟨S100000x128, .f32⟩
  | 39 => ⟨S100000x128, .f32⟩
  | 40 => ⟨S1x128x128, .f32⟩
  | 41 => ⟨S128x128, .f32⟩
  | 42 => ⟨S100000x128, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000x128, .f32⟩
  | 52 => ⟨S1700000x128, .f32⟩
  | 53 => ⟨S1700000x128, .f32⟩
  | 54 => ⟨S_, .f32⟩
  | 55 => ⟨S100000x128, .f32⟩
  | 56 => ⟨S1700000x1, .i32⟩
  | 57 => ⟨S100000x128, .f32⟩
  | 58 => ⟨S1x128, .f32⟩
  | 59 => ⟨S128, .f32⟩
  | 60 => ⟨S1x128, .f32⟩
  | 61 => ⟨S100000x128, .f32⟩
  | 62 => ⟨S100000x128, .f32⟩
  | 63 => ⟨S1x128, .f32⟩
  | 64 => ⟨S128, .f32⟩
  | 65 => ⟨S1x128, .f32⟩
  | 66 => ⟨S128, .f32⟩
  | 67 => ⟨S_, .f32⟩
  | 68 => ⟨S100000, .f32⟩
  | 69 => ⟨S100000x1, .f32⟩
  | 70 => ⟨S_, .f32⟩
  | 71 => ⟨S100000x1, .f32⟩
  | 72 => ⟨S100000x1, .f32⟩
  | 73 => ⟨S100000x128, .f32⟩
  | 74 => ⟨S100000x128, .f32⟩
  | 75 => ⟨S100000x128, .f32⟩
  | 76 => ⟨S_, .f32⟩
  | 77 => ⟨S100000, .f32⟩
  | 78 => ⟨S100000x1, .f32⟩
  | 79 => ⟨S_, .f32⟩
  | 80 => ⟨S100000x1, .f32⟩
  | 81 => ⟨S100000x1, .f32⟩
  | 82 => ⟨S100000x128, .f32⟩
  | 83 => ⟨S100000x128, .f32⟩
  | 84 => ⟨S_, .f32⟩
  | 85 => ⟨S100000x1, .f32⟩
  | 86 => ⟨S100000x1, .f32⟩
  | 87 => ⟨S100000x1, .f32⟩
  | 88 => ⟨S100000x128, .f32⟩
  | 89 => ⟨S100000x128, .f32⟩
  | 90 => ⟨S1x128, .f32⟩
  | 91 => ⟨S100000x128, .f32⟩
  | 92 => ⟨S100000x128, .f32⟩
  | 93 => ⟨S1x128, .f32⟩
  | 94 => ⟨S100000x128, .f32⟩
  | 95 => ⟨S100000x128, .f32⟩
  | 96 => ⟨S_, .f32⟩
  | 97 => ⟨S100000x128, .f32⟩
  | 98 => ⟨S100000x128, .f32⟩
  | 99 => ⟨S100000x128, .f32⟩
  | _ => ⟨S100000x16, .f32⟩

abbrev hbmTy (i : Nat) : BufTy := match i / 128 with
  | 0 => hbmTy0_0 i
  | 1 => hbmTy0_1 i
  | _ => ⟨S100000x16, .f32⟩

abbrev bufTy : (tb : Table) → Fin (tcTables nBuf tb) → BufTy
  | .hbm, ⟨i, _⟩ => hbmTy i
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_5 : Ref sig .tc := ⟨.hbm, 52, rfl⟩
abbrev main_v37 : Ref sig .tc := ⟨.hbm, 53, rfl⟩
abbrev main_v38 : Ref sig .tc := ⟨.hbm, 54, rfl⟩
abbrev main_c_6 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_7 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_8 : Ref sig .tc := ⟨.hbm, 76, rfl⟩
abbrev main_v58 : Ref sig .tc := ⟨.hbm, 77, rfl⟩
abbrev main_v59 : Ref sig .tc := ⟨.hbm, 78, rfl⟩
abbrev main_cst_9 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_10 : Ref sig .tc := ⟨.hbm, 85, rfl⟩
abbrev main_v65 : Ref sig .tc := ⟨.hbm, 86, rfl⟩
abbrev main_v66 : Ref sig .tc := ⟨.hbm, 87, rfl⟩
abbrev main_cst_11 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_12 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_call0_cst : Ref sig .tc := ⟨.hbm, 105, rfl⟩
abbrev main_call0_v0 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_c_13 : Ref sig .tc := ⟨.hbm, 111, rfl⟩
abbrev main_v86 : Ref sig .tc := ⟨.hbm, 112, rfl⟩
abbrev main_v87 : Ref sig .tc := ⟨.hbm, 113, rfl⟩
abbrev main_c_14 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_cst_15 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_cst_16 : Ref sig .tc := ⟨.hbm, 135, rfl⟩
abbrev main_v107 : Ref sig .tc := ⟨.hbm, 136, rfl⟩
abbrev main_v108 : Ref sig .tc := ⟨.hbm, 137, rfl⟩
abbrev main_cst_17 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_cst_18 : Ref sig .tc := ⟨.hbm, 144, rfl⟩
abbrev main_v114 : Ref sig .tc := ⟨.hbm, 145, rfl⟩
abbrev main_v115 : Ref sig .tc := ⟨.hbm, 146, rfl⟩
abbrev main_cst_19 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_cst_20 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_call1_cst : Ref sig .tc := ⟨.hbm, 164, rfl⟩
abbrev main_call1_v0 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_c_21 : Ref sig .tc := ⟨.hbm, 171, rfl⟩
abbrev main_v136 : Ref sig .tc := ⟨.hbm, 172, rfl⟩
abbrev main_v137 : Ref sig .tc := ⟨.hbm, 173, rfl⟩
abbrev main_c_22 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_cst_23 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_cst_24 : Ref sig .tc := ⟨.hbm, 195, rfl⟩
abbrev main_v157 : Ref sig .tc := ⟨.hbm, 196, rfl⟩
abbrev main_v158 : Ref sig .tc := ⟨.hbm, 197, rfl⟩
abbrev main_cst_25 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_cst_26 : Ref sig .tc := ⟨.hbm, 204, rfl⟩
abbrev main_v164 : Ref sig .tc := ⟨.hbm, 205, rfl⟩
abbrev main_v165 : Ref sig .tc := ⟨.hbm, 206, rfl⟩
abbrev main_cst_27 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_cst_28 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_call2_cst : Ref sig .tc := ⟨.hbm, 224, rfl⟩
abbrev main_call2_v0 : Ref sig .tc := ⟨.hbm, 225, rfl⟩
abbrev main_v181 : Ref sig .tc := ⟨.hbm, 226, rfl⟩
abbrev main_v182 : Ref sig .tc := ⟨.hbm, 227, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x128x128_S1x128x128_0_0_0 : S3x128x128.Slices ![0, 0, 0] S1x128x128
  shapeCasts_S1x128x128_S128x128 : S1x128x128.ShapeCasts S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  slices_S3x128_S1x128_0_0 : S3x128.Slices ![0, 0] S1x128
  shapeCasts_S1x128_S128 : S1x128.ShapeCasts S128
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x16_S16x128_S100000x128_1_0_0_1_n_n_wf : DotDims.WF S100000x16 S16x128 S100000x128 [1] [0] [0] [1] [] []
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x16_S16x128_S100000x128_1_0_0_1_n_n : DotDims S100000x16 S16x128 S100000x128 where
  lhsContracting := [1]
  rhsContracting := [0]
  lhsNonContracting := [0]
  rhsNonContracting := [1]
  lhsBatch := []
  rhsBatch := []
  wf := dot_S100000x16_S16x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KernelRun.lean ====
/- The run of @main read at its boundaries.

   `run_main`: every weakly fair execution of @main on the TensorCores terminates, and in every final state the
   result buffer holds the last boundary's contents while each argument array holds its launch contents.

   The "kept" facts: a buffer that no host operation of a stretch writes and that no window of a region writes back
   holds at the later boundary what it held at the earlier one. A stretch's step is proved once per stretch, for any
   buffer outside the stretch's written set; a region's step is the region's exit contents off its arrays, or, for an
   input array of the region, the input's array as entered. -/
import proofs.«158225_j51247549776507_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- At the compiled mesh, from any memory with zero counters, every weakly fair execution of @main on the TensorCores
    terminates, nothing faulting, and every final state has the result buffer at the last boundary's contents and the
    argument arrays as launched: the last thread state holds every unscoped buffer at the last boundary's contents,
    read against the final state. -/
theorem run_main : θ_run defs (onTc (τ := τ) (main (F := F))) ⟨m, fun _ => 0, ρ⟩ (fun r => ∀ c : Dev nD,
      r.2.mem ((c.tc : Thread nD τ).loc main_v99) = W14 m ρ c (Proc.devRef .tc main_v99)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨(h c _ (mem_uc main_v99 (by decide))),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c)⟩)

end Cert.KernelIdeal.Run

end
-- ==== Proof.KernelKeep.lean ====
/- What the run of @main keeps.

   A buffer that no host operation of a stretch writes and that no window of a region writes back holds at the later
   boundary what it held at the earlier one. A stretch's step is proved once per stretch, for any buffer outside the
   list of buffers the stretch's operations write; a region's step is the region's exit contents off its arrays, or,
   for an input array of the region, that array as entered (an input window is never written back). The facts below
   chain these steps: the argument arrays back to the launch memory, the graph's index and weight buffers back to the
   first region's entry, each layer's output across the stretches and regions that only read it. -/
import proofs.«158225_j51247549776507_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## What each stretch of host operations writes -/

/-- The buffers stretch 0's operations write, in order. -/
abbrev wr0 : List (Ref sig .tc) :=
  [main_v0, main_v1, main_v2, main_v3, main_v4, main_v5, main_v6, main_cst, main_v7, main_cst_0, main_v8, main_v9, main_v10, main_cst_1, main_v11, main_v12, main_v13, main_c, main_v14, main_v15, main_c_2, main_v16, main_v17, main_v18, main_v19, main_v20, main_c_3, main_v21, main_v22, main_c_4, main_v23, main_v24, main_v25, main_v26, main_v27, main_v28, main_v29]
/-- Each operation of stretch 0 writes one buffer, a member of `wr0`. -/
theorem hostOps0_writes : (hostOps0 : List (HloOp τ sig (Elt F))).Forall fun op => op.writes ⊆ (wr0.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 0 does not write holds after it what it held before. -/
theorem keep_host0 (c : Dev nD) (b : Ref sig .tc) (hb : b ∉ wr0) :
    W1 m ρ c (Proc.devRef .tc b) = W0 m ρ c (Proc.devRef .tc b) :=
  StableHlo.after_of_writes_sub hostOps0 _ hostOps0_writes hb

/-- The buffers stretch 1's operations write, in order. -/
abbrev wr1 : List (Ref sig .tc) :=
  [main_v31, main_v32, main_cst_5, main_v33]
/-- Each operation of stretch 1 writes one buffer, a member of `wr1`. -/
theorem hostOps1_writes : (hostOps1 : List (HloOp τ sig (Elt F))).Forall fun op => op.writes ⊆ (wr1.map (Proc.devRef (τ := τ) .tc)).toFinset := by
  simp only [List.Forall]
  refine ⟨?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 1 does not write holds after it what it held before. -/
theorem keep_host1 (c : Dev nD) (b : Ref sig .tc) (hb : b ∉ wr1) :
    W3 m ρ c (Proc.devRef .tc b) = W2 m ρ c (Proc.devRef .tc b) :=
  StableHlo.after_of_writes_sub hostOps1 _ hostOps1_writes hb

/-- The buffers stretch 2's operations write, in order. -/
abbrev wr2 : List (Ref sig .tc) :=
  [main_c_6, main_v35, main_v36, main_c_7, main_v37, main_v38, main_v39, main_v40, main_v41, main_v42, main_v43, main_cst_8, main_v44, main_v45, main_v46, main_v47, main_v48, main_v49, main_v50, main_v51, main_v52]
/-- Each operation of stretch 2 writes one buffer, a member of `wr2`. -/
theorem hostOps2_writes : (hostOps2 : List (HloOp τ sig (Elt F))).Forall fun op => op.writes ⊆ (wr2.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 2 does not write holds after it what it held before. -/
theorem keep_host2 (c : Dev nD) (b : Ref sig .tc) (hb : b ∉ wr2) :
    W5 m ρ c (Proc.devRef .tc b) = W4 m ρ c (Proc.devRef .tc b) :=
  StableHlo.after_of_writes_sub hostOps2 _ hostOps2_writes hb

/-- The buffers stretch 3's operations write, in order. -/
abbrev wr3 : List (Ref sig .tc) :=
  [main_v54, main_v55, main_cst_9, main_v56]
/-- Each operation of stretch 3 writes one buffer, a member of `wr3`. -/
theorem hostOps3_writes : (hostOps3 : List (HloOp τ sig (Elt F))).Forall fun op => op.writes ⊆ (wr3.map (Proc.devRef (τ := τ) .tc)).toFinset := by
  simp only [List.Forall]
  refine ⟨?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 3 does not write holds after it what it held before. -/
theorem keep_host3 (c : Dev nD) (b : Ref sig .tc) (hb : b ∉ wr3) :
    W7 m ρ c (Proc.devRef .tc b) = W6 m ρ c (Proc.devRef .tc b) :=
  StableHlo.after_of_writes_sub hostOps3 _ hostOps3_writes hb

/-- The buffers stretch 4's operations write, in order. -/
abbrev wr4 : List (Ref sig .tc) :=
  [main_c_10, main_v58, main_v59, main_c_11, main_v60, main_v61, main_v62, main_v63, main_v64, main_v65, main_v66, main_cst_12, main_v67, main_v68, main_v69, main_v70, main_v71, main_v72, main_v73, main_v74, main_v75]
/-- Each operation of stretch 4 writes one buffer, a member of `wr4`. -/
theorem hostOps4_writes : (hostOps4 : List (HloOp τ sig (Elt F))).Forall fun op => op.writes ⊆ (wr4.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 4 does not write holds after it what it held before. -/
theorem keep_host4 (c : Dev nD) (b : Ref sig .tc) (hb : b ∉ wr4) :
    W9 m ρ c (Proc.devRef .tc b) = W8 m ρ c (Proc.devRef .tc b) :=
  StableHlo.after_of_writes_sub hostOps4 _ hostOps4_writes hb

/-- The buffers stretch 5's operations write, in order. -/
abbrev wr5 : List (Ref sig .tc) :=
  [main_v77, main_v78, main_cst_13, main_v79]
/-- Each operation of stretch 5 writes one buffer, a member of `wr5`. -/
theorem hostOps5_writes : (hostOps5 : List (HloOp τ sig (Elt F))).Forall fun op => op.writes ⊆ (wr5.map (Proc.devRef (τ := τ) .tc)).toFinset := by
  simp only [List.Forall]
  refine ⟨?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 5 does not write holds after it what it held before. -/
theorem keep_host5 (c : Dev nD) (b : Ref sig .tc) (hb : b ∉ wr5) :
    W11 m ρ c (Proc.devRef .tc b) = W10 m ρ c (Proc.devRef .tc b) :=
  StableHlo.after_of_writes_sub hostOps5 _ hostOps5_writes hb

/-- The buffers stretch 6's operations write, in order. -/
abbrev wr6 : List (Ref sig .tc) :=
  [main_c_14, main_v81, main_v82, main_c_15, main_v83, main_v84, main_v85, main_v86, main_v87, main_v88, main_v89, main_cst_16, main_v90, main_v91, main_v92, main_v93, main_v94, main_v95, main_v96, main_v97, main_v98]
/-- Each operation of stretch 6 writes one buffer, a member of `wr6`. -/
theorem hostOps6_writes : (hostOps6 : List (HloOp τ sig (Elt F))).Forall fun op => op.writes ⊆ (wr6.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 6 does not write holds after it what it held before. -/
theorem keep_host6 (c : Dev nD) (b : Ref sig .tc) (hb : b ∉ wr6) :
    W13 m ρ c (Proc.devRef .tc b) = W12 m ρ c (Proc.devRef .tc b) :=
  StableHlo.after_of_writes_sub hostOps6 _ hostOps6_writes hb

/-! ## The argument arrays: as launched at every boundary a region or a stretch reads them at -/

/-- `main_arg0` at region 0's entry is the launch memory's: stretch 0 does not write it. -/
theorem W1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := keep_host0 m ρ c main_arg0 (by decide)
    _ = m ((c : Thread nD τ).loc main_arg0) := rfl

/-- `main_arg2` at region 0's entry is the launch memory's: stretch 0 does not write it. -/
theorem W1_arg2 (c : Dev nD) : W1 m ρ c (Proc.devRef .tc main_arg2) = m ((c : Thread nD τ).loc main_arg2) :=
  calc W1 m ρ c (Proc.devRef .tc main_arg2)
    _ = W0 m ρ c (Proc.devRef .tc main_arg2) := keep_host0 m ρ c main_arg2 (by decide)
    _ = m ((c : Thread nD τ).loc main_arg2) := rfl

/-- `main_arg3` at region 0's entry is the launch memory's: stretch 0 does not write it. -/
theorem W1_arg3 (c : Dev nD) : W1 m ρ c (Proc.devRef .tc main_arg3) = m ((c : Thread nD τ).loc main_arg3) :=
  calc W1 m ρ c (Proc.devRef .tc main_arg3)
    _ = W0 m ρ c (Proc.devRef .tc main_arg3) := keep_host0 m ρ c main_arg3 (by decide)
    _ = m ((c : Thread nD τ).loc main_arg3) := rfl

/-- `main_arg4` at region 0's exit is the launch memory's. -/
theorem W2_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := keep_host0 m ρ c main_arg4 (by decide)
    _ = m ((c : Thread nD τ).loc main_arg4) := rfl

/-- `main_arg4` at region 2's exit is the launch memory's. -/
theorem W6_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := keep_host2 m ρ c main_arg4 (by decide)
    _ = W3 m ρ c (Proc.devRef .tc main_arg4) := W4_of_ne m ρ c main_arg4 (by decide)
    _ = W2 m ρ c (Proc.devRef .tc main_arg4) := keep_host1 m ρ c main_arg4 (by decide)
    _ = m ((c : Thread nD τ).loc main_arg4) := W2_arg4 m ρ c

/-- `main_arg4` at region 4's exit is the launch memory's. -/
theorem W10_arg4 (c : Dev nD) : W10 m ρ c (Proc.devRef .tc main_arg4) = m ((c : Thread nD τ).loc main_arg4) :=
  calc W10 m ρ c (Proc.devRef .tc main_arg4)
    _ = W9 m ρ c (Proc.devRef .tc main_arg4) := W10_of_ne m ρ c main_arg4 (by decide)
    _ = W8 m ρ c (Proc.devRef .tc main_arg4) := keep_host4 m ρ c main_arg4 (by decide)
    _ = W7 m ρ c (Proc.devRef .tc main_arg4) := W8_of_ne m ρ c main_arg4 (by decide)
    _ = W6 m ρ c (Proc.devRef .tc main_arg4) := keep_host3 m ρ c main_arg4 (by decide)
    _ = m ((c : Thread nD τ).loc main_arg4) := W6_arg4 m ρ c

/-- `main_arg5` at region 1's exit is the launch memory's. -/
theorem W4_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := keep_host1 m ρ c main_arg5 (by decide)
    _ = W1 m ρ c (Proc.devRef .tc main_arg5) := W2_of_ne m ρ c main_arg5 (by decide)
    _ = W0 m ρ c (Proc.devRef .tc main_arg5) := keep_host0 m ρ c main_arg5 (by decide)
    _ = m ((c : Thread nD τ).loc main_arg5) := rfl

/-- `main_arg5` at region 3's exit is the launch memory's. -/
theorem W8_arg5 (c : Dev nD) : W8 m ρ c (Proc.devRef .tc main_arg5) = m ((c : Thread nD τ).loc main_arg5) :=
  calc W8 m ρ c (Proc.devRef .tc main_arg5)
    _ = W7 m ρ c (Proc.devRef .tc main_arg5) := W8_of_ne m ρ c main_arg5 (by decide)
    _ = W6 m ρ c (Proc.devRef .tc main_arg5) := keep_host3 m ρ c main_arg5 (by decide)
    _ = W5 m ρ c (Proc.devRef .tc main_arg5) := W6_of_ne m ρ c main_arg5 (by decide)
    _ = W4 m ρ c (Proc.devRef .tc main_arg5) := keep_host2 m ρ c main_arg5 (by decide)
    _ = m ((c : Thread nD τ).loc main_arg5) := W4_arg5 m ρ c

/-- `main_arg5` at region 5's exit is the launch memory's. -/
theorem W12_arg5 (c : Dev nD) : W12 m ρ c (Proc.devRef .tc main_arg5) = m ((c : Thread nD τ).loc main_arg5) :=
  calc W12 m ρ c (Proc.devRef .tc main_arg5)
    _ = W11 m ρ c (Proc.devRef .tc main_arg5) := W12_of_ne m ρ c main_arg5 (by decide)
    _ = W10 m ρ c (Proc.devRef .tc main_arg5) := keep_host5 m ρ c main_arg5 (by decide)
    _ = W9 m ρ c (Proc.devRef .tc main_arg5) := W10_of_ne m ρ c main_arg5 (by decide)
    _ = W8 m ρ c (Proc.devRef .tc main_arg5) := keep_host4 m ρ c main_arg5 (by decide)
    _ = m ((c : Thread nD τ).loc main_arg5) := W8_arg5 m ρ c

/-- `main_arg6` at region 1's exit is the launch memory's. -/
theorem W4_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := keep_host1 m ρ c main_arg6 (by decide)
    _ = W1 m ρ c (Proc.devRef .tc main_arg6) := W2_of_ne m ρ c main_arg6 (by decide)
    _ = W0 m ρ c (Proc.devRef .tc main_arg6) := keep_host0 m ρ c main_arg6 (by decide)
    _ = m ((c : Thread nD τ).loc main_arg6) := rfl

/-- `main_arg6` at region 3's exit is the launch memory's. -/
theorem W8_arg6 (c : Dev nD) : W8 m ρ c (Proc.devRef .tc main_arg6) = m ((c : Thread nD τ).loc main_arg6) :=
  calc W8 m ρ c (Proc.devRef .tc main_arg6)
    _ = W7 m ρ c (Proc.devRef .tc main_arg6) := W8_of_ne m ρ c main_arg6 (by decide)
    _ = W6 m ρ c (Proc.devRef .tc main_arg6) := keep_host3 m ρ c main_arg6 (by decide)
    _ = W5 m ρ c (Proc.devRef .tc main_arg6) := W6_of_ne m ρ c main_arg6 (by decide)
    _ = W4 m ρ c (Proc.devRef .tc main_arg6) := keep_host2 m ρ c main_arg6 (by decide)
    _ = m ((c : Thread nD τ).loc main_arg6) := W4_arg6 m ρ c

/-- `main_arg6` at region 5's exit is the launch memory's. -/
theorem W12_arg6 (c : Dev nD) : W12 m ρ c (Proc.devRef .tc main_arg6) = m ((c : Thread nD τ).loc main_arg6) :=
  calc W12 m ρ c (Proc.devRef .tc main_arg6)
    _ = W11 m ρ c (Proc.devRef .tc main_arg6) := W12_of_ne m ρ c main_arg6 (by decide)
    _ = W10 m ρ c (Proc.devRef .tc main_arg6) := keep_host5 m ρ c main_arg6 (by decide)
    _ = W9 m ρ c (Proc.devRef .tc main_arg6) := W10_of_ne m ρ c main_arg6 (by decide)
    _ = W8 m ρ c (Proc.devRef .tc main_arg6) := keep_host4 m ρ c main_arg6 (by decide)
    _ = m ((c : Thread nD τ).loc main_arg6) := W8_arg6 m ρ c

/-- `main_arg7` at region 1's exit is the launch memory's. -/
theorem W4_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := keep_host1 m ρ c main_arg7 (by decide)
    _ = W1 m ρ c (Proc.devRef .tc main_arg7) := W2_of_ne m ρ c main_arg7 (by decide)
    _ = W0 m ρ c (Proc.devRef .tc main_arg7) := keep_host0 m ρ c main_arg7 (by decide)
    _ = m ((c : Thread nD τ).loc main_arg7) := rfl

/-- `main_arg7` at region 3's exit is the launch memory's. -/
theorem W8_arg7 (c : Dev nD) : W8 m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := keep_host3 m ρ c main_arg7 (by decide)
    _ = W5 m ρ c (Proc.devRef .tc main_arg7) := W6_of_ne m ρ c main_arg7 (by decide)
    _ = W4 m ρ c (Proc.devRef .tc main_arg7) := keep_host2 m ρ c main_arg7 (by decide)
    _ = m ((c : Thread nD τ).loc main_arg7) := W4_arg7 m ρ c

/-- `main_arg7` at region 5's exit is the launch memory's. -/
theorem W12_arg7 (c : Dev nD) : W12 m ρ c (Proc.devRef .tc main_arg7) = m ((c : Thread nD τ).loc main_arg7) :=
  calc W12 m ρ c (Proc.devRef .tc main_arg7)
    _ = W11 m ρ c (Proc.devRef .tc main_arg7) := W12_of_ne m ρ c main_arg7 (by decide)
    _ = W10 m ρ c (Proc.devRef .tc main_arg7) := keep_host5 m ρ c main_arg7 (by decide)
    _ = W9 m ρ c (Proc.devRef .tc main_arg7) := W10_of_ne m ρ c main_arg7 (by decide)
    _ = W8 m ρ c (Proc.devRef .tc main_arg7) := keep_host4 m ρ c main_arg7 (by decide)
    _ = m ((c : Thread nD τ).loc main_arg7) := W8_arg7 m ρ c

/-! ## The graph's buffers: computed by stretch 0, read by stretches 2, 4 and 6, written by nothing after -/

/-- `main_v3` at region 1's exit is what stretch 0 left. -/
theorem W4_v3 (c : Dev nD) : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := keep_host1 m ρ c main_v3 (by decide)
    _ = W1 m ρ c (Proc.devRef .tc main_v3) := W2_of_ne m ρ c main_v3 (by decide)

/-- `main_v3` at region 3's exit is what stretch 0 left. -/
theorem W8_v3 (c : Dev nD) : W8 m ρ c (Proc.devRef .tc main_v3) = W1 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := keep_host3 m ρ c main_v3 (by decide)
    _ = W5 m ρ c (Proc.devRef .tc main_v3) := W6_of_ne m ρ c main_v3 (by decide)
    _ = W4 m ρ c (Proc.devRef .tc main_v3) := keep_host2 m ρ c main_v3 (by decide)
    _ = W1 m ρ c (Proc.devRef .tc main_v3) := W4_v3 m ρ c

/-- `main_v3` at region 5's exit is what stretch 0 left. -/
theorem W12_v3 (c : Dev nD) : W12 m ρ c (Proc.devRef .tc main_v3) = W1 m ρ c (Proc.devRef .tc main_v3) :=
  calc W12 m ρ c (Proc.devRef .tc main_v3)
    _ = W11 m ρ c (Proc.devRef .tc main_v3) := W12_of_ne m ρ c main_v3 (by decide)
    _ = W10 m ρ c (Proc.devRef .tc main_v3) := keep_host5 m ρ c main_v3 (by decide)
    _ = W9 m ρ c (Proc.devRef .tc main_v3) := W10_of_ne m ρ c main_v3 (by decide)
    _ = W8 m ρ c (Proc.devRef .tc main_v3) := keep_host4 m ρ c main_v3 (by decide)
    _ = W1 m ρ c (Proc.devRef .tc main_v3) := W8_v3 m ρ c

/-- `main_v6` at region 1's exit is what stretch 0 left. -/
theorem W4_v6 (c : Dev nD) : W4 m ρ c (Proc.devRef .tc main_v6) = W1 m ρ c (Proc.devRef .tc main_v6) :=
  calc W4 m ρ c (Proc.devRef .tc main_v6)
    _ = W3 m ρ c (Proc.devRef .tc main_v6) := W4_of_ne m ρ c main_v6 (by decide)
    _ = W2 m ρ c (Proc.devRef .tc main_v6) := keep_host1 m ρ c main_v6 (by decide)
    _ = W1 m ρ c (Proc.devRef .tc main_v6) := W2_of_ne m ρ c main_v6 (by decide)

/-- `main_v6` at region 3's exit is what stretch 0 left. -/
theorem W8_v6 (c : Dev nD) : W8 m ρ c (Proc.devRef .tc main_v6) = W1 m ρ c (Proc.devRef .tc main_v6) :=
  calc W8 m ρ c (Proc.devRef .tc main_v6)
    _ = W7 m ρ c (Proc.devRef .tc main_v6) := W8_of_ne m ρ c main_v6 (by decide)
    _ = W6 m ρ c (Proc.devRef .tc main_v6) := keep_host3 m ρ c main_v6 (by decide)
    _ = W5 m ρ c (Proc.devRef .tc main_v6) := W6_of_ne m ρ c main_v6 (by decide)
    _ = W4 m ρ c (Proc.devRef .tc main_v6) := keep_host2 m ρ c main_v6 (by decide)
    _ = W1 m ρ c (Proc.devRef .tc main_v6) := W4_v6 m ρ c

/-- `main_v6` at region 5's exit is what stretch 0 left. -/
theorem W12_v6 (c : Dev nD) : W12 m ρ c (Proc.devRef .tc main_v6) = W1 m ρ c (Proc.devRef .tc main_v6) :=
  calc W12 m ρ c (Proc.devRef .tc main_v6)
    _ = W11 m ρ c (Proc.devRef .tc main_v6) := W12_of_ne m ρ c main_v6 (by decide)
    _ = W10 m ρ c (Proc.devRef .tc main_v6) := keep_host5 m ρ c main_v6 (by decide)
    _ = W9 m ρ c (Proc.devRef .tc main_v6) := W10_of_ne m ρ c main_v6 (by decide)
    _ = W8 m ρ c (Proc.devRef .tc main_v6) := keep_host4 m ρ c main_v6 (by decide)
    _ = W1 m ρ c (Proc.devRef .tc main_v6) := W8_v6 m ρ c

/-- `main_v29` at region 1's exit is what stretch 0 left. -/
theorem W4_v29 (c : Dev nD) : W4 m ρ c (Proc.devRef .tc main_v29) = W1 m ρ c (Proc.devRef .tc main_v29) :=
  calc W4 m ρ c (Proc.devRef .tc main_v29)
    _ = W3 m ρ c (Proc.devRef .tc main_v29) := W4_of_ne m ρ c main_v29 (by decide)
    _ = W2 m ρ c (Proc.devRef .tc main_v29) := keep_host1 m ρ c main_v29 (by decide)
    _ = W1 m ρ c (Proc.devRef .tc main_v29) := W2_of_ne m ρ c main_v29 (by decide)

/-- `main_v29` at region 3's exit is what stretch 0 left. -/
theorem W8_v29 (c : Dev nD) : W8 m ρ c (Proc.devRef .tc main_v29) = W1 m ρ c (Proc.devRef .tc main_v29) :=
  calc W8 m ρ c (Proc.devRef .tc main_v29)
    _ = W7 m ρ c (Proc.devRef .tc main_v29) := W8_of_ne m ρ c main_v29 (by decide)
    _ = W6 m ρ c (Proc.devRef .tc main_v29) := keep_host3 m ρ c main_v29 (by decide)
    _ = W5 m ρ c (Proc.devRef .tc main_v29) := W6_of_ne m ρ c main_v29 (by decide)
    _ = W4 m ρ c (Proc.devRef .tc main_v29) := keep_host2 m ρ c main_v29 (by decide)
    _ = W1 m ρ c (Proc.devRef .tc main_v29) := W4_v29 m ρ c

/-- `main_v29` at region 5's exit is what stretch 0 left. -/
theorem W12_v29 (c : Dev nD) : W12 m ρ c (Proc.devRef .tc main_v29) = W1 m ρ c (Proc.devRef .tc main_v29) :=
  calc W12 m ρ c (Proc.devRef .tc main_v29)
    _ = W11 m ρ c (Proc.devRef .tc main_v29) := W12_of_ne m ρ c main_v29 (by decide)
    _ = W10 m ρ c (Proc.devRef .tc main_v29) := keep_host5 m ρ c main_v29 (by decide)
    _ = W9 m ρ c (Proc.devRef .tc main_v29) := W10_of_ne m ρ c main_v29 (by decide)
    _ = W8 m ρ c (Proc.devRef .tc main_v29) := keep_host4 m ρ c main_v29 (by decide)
    _ = W1 m ρ c (Proc.devRef .tc main_v29) := W8_v29 m ρ c

/-! ## The layers' outputs: each across the stretches and regions that only read it -/

/-- Region 0's output at region 1's entry: stretch 1 does not write it. -/
theorem W3_v30 (c : Dev nD) : W3 m ρ c (Proc.devRef .tc main_v30) = W2 m ρ c (Proc.devRef .tc main_v30) :=
  calc W3 m ρ c (Proc.devRef .tc main_v30)
    _ = W2 m ρ c (Proc.devRef .tc main_v30) := keep_host1 m ρ c main_v30 (by decide)

/-- Region 2's output at region 3's entry: stretch 3 does not write it. -/
theorem W7_v53 (c : Dev nD) : W7 m ρ c (Proc.devRef .tc main_v53) = W6 m ρ c (Proc.devRef .tc main_v53) :=
  calc W7 m ρ c (Proc.devRef .tc main_v53)
    _ = W6 m ρ c (Proc.devRef .tc main_v53) := keep_host3 m ρ c main_v53 (by decide)

/-- Region 2's output at region 4's entry: stretch 3, region 3 (which reads it through an input window) and stretch 4 do not write it. -/
theorem W9_v53 (c : Dev nD) : W9 m ρ c (Proc.devRef .tc main_v53) = W6 m ρ c (Proc.devRef .tc main_v53) :=
  calc W9 m ρ c (Proc.devRef .tc main_v53)
    _ = W8 m ρ c (Proc.devRef .tc main_v53) := keep_host4 m ρ c main_v53 (by decide)
    _ = W7 m ρ c (Proc.devRef .tc main_v53) := (W8_arr m ρ c 0).trans (((dat3 (V7 m ρ) c).arrAt_in 0 rfl _).trans (A_eq3 (V7 m ρ) c 0))
    _ = W6 m ρ c (Proc.devRef .tc main_v53) := keep_host3 m ρ c main_v53 (by decide)

/-- Region 4's output at region 5's entry: stretch 5 does not write it. -/
theorem W11_v76 (c : Dev nD) : W11 m ρ c (Proc.devRef .tc main_v76) = W10 m ρ c (Proc.devRef .tc main_v76) :=
  calc W11 m ρ c (Proc.devRef .tc main_v76)
    _ = W10 m ρ c (Proc.devRef .tc main_v76) := keep_host5 m ρ c main_v76 (by decide)

/-- Region 4's output at region 6's entry: stretch 5, region 5 (which reads it through an input window) and stretch 6 do not write it. -/
theorem W13_v76 (c : Dev nD) : W13 m ρ c (Proc.devRef .tc main_v76) = W10 m ρ c (Proc.devRef .tc main_v76) :=
  calc W13 m ρ c (Proc.devRef .tc main_v76)
    _ = W12 m ρ c (Proc.devRef .tc main_v76) := keep_host6 m ρ c main_v76 (by decide)
    _ = W11 m ρ c (Proc.devRef .tc main_v76) := (W12_arr m ρ c 0).trans (((dat5 (V11 m ρ) c).arrAt_in 0 rfl _).trans (A_eq5 (V11 m ρ) c 0))
    _ = W10 m ρ c (Proc.devRef .tc main_v76) := keep_host5 m ρ c main_v76 (by decide)

end Cert.KernelIdeal.Run

end
-- ==== Proof.LayerSpec.lean ====
/-
  One row of a normalising layer, as a function of the row alone.

  A graph-convolution layer here ends by normalising each 128-entry row r of its aggregated messages: with
  mean μ = (Σ r k) / 128 and variance σ² = (Σ (r k - μ)²) / 128, entry q becomes
  max ((r q - μ) · (σ² + ε)^(-1/2) · γ q + β q, 0), and the later layers add the previous layer's entry to it.
  Everything is on the extended reals with the exact operations; the words for 128, ε and 0 are kept as words (both
  programs spell the same ones). A dense layer's entry is Σ x k · w k plus a bias entry.
-/
import Idealize.ShloMosaic.PureOps.Ideal

noncomputable section

open scoped BigOperators

namespace Cert.LayerSpec

open Idealize.ShloMosaic

/-- The row length, 128, as both programs spell it. -/
def c128 : EReal := Ideal.ofBits .f32 0x43000000#32
/-- The variance floor ε, as both programs spell it. -/
def eps : EReal := Ideal.ofBits .f32 0x3727C5AC#32
/-- The rectifier's threshold, as both programs spell it. -/
def zero : EReal := Ideal.ofBits .f32 0x00000000#32

/-- The mean of a row. -/
def mean (r : Fin 128 → EReal) : EReal := Ideal.div (∑ k : Fin 128, r k) c128

/-- The variance of a row about its mean. -/
def var (r : Fin 128 → EReal) : EReal := Ideal.div (∑ k : Fin 128, (r k - mean r) * (r k - mean r)) c128

/-- Entry q of the normalised, scaled, shifted and rectified row. -/
def lnRelu (r g be : Fin 128 → EReal) (q : Fin 128) : EReal :=
  max ((r q - mean r) * Ideal.rsqrt (var r + eps) * g q + be q) zero

end Cert.LayerSpec

end
-- ==== Proof.ArraySpec.lean ====
/-
  The layers as functions of whole arrays, index by index, on the extended reals.

  With N rows of 128 features: the dense layer sends X [N, K], W [K, 128], b [128] to (Σ_k X(i,k) · W(k,j)) + b(j); the
  normalising layer sends A [N, 128] and the three 128-vectors b, γ, β to the row function of LayerSpec applied to the
  biased row A(i, ·) + b; the later layers add the previous layer's array entrywise.
-/
import proofs.«158225_j51247549776507_1_alg».proof.Proof.LayerSpec
import Idealize.ShloMosaic.Lib.ValueIdx

noncomputable section

open scoped BigOperators

namespace Cert.ArraySpec

open Idealize.ShloMosaic Idealize.ShloMosaic.ValueIdx Cert.LayerSpec

/-- The dense layer. -/
def lin {N K : ℕ} (X : (⟨2, ![N, K]⟩ : Shape).Idx → EReal) (W : (⟨2, ![K, 128]⟩ : Shape).Idx → EReal)
    (b : (⟨1, ![128]⟩ : Shape).Idx → EReal) : (⟨2, ![N, 128]⟩ : Shape).Idx → EReal :=
  fun i => (∑ k : Fin K, X (ix2 (i 0) k) * W (ix2 k (i 1))) + b (ix1 (i 1))

theorem lin_apply {N K : ℕ} (X : (⟨2, ![N, K]⟩ : Shape).Idx → EReal) (W : (⟨2, ![K, 128]⟩ : Shape).Idx → EReal)
    (b : (⟨1, ![128]⟩ : Shape).Idx → EReal) (P : Fin N) (q : Fin 128) :
    lin X W b (ix2 P q) = (∑ k : Fin K, X (ix2 P k) * W (ix2 k q)) + b (ix1 q) := rfl

/-- The normalising layer with the rectifier. -/
def norm {N : ℕ} (A : (⟨2, ![N, 128]⟩ : Shape).Idx → EReal) (b g be : (⟨1, ![128]⟩ : Shape).Idx → EReal) :
    (⟨2, ![N, 128]⟩ : Shape).Idx → EReal :=
  fun i => lnRelu (fun k => A (ix2 (i 0) k) + b (ix1 k)) (fun k => g (ix1 k)) (fun k => be (ix1 k)) (i 1)

theorem norm_apply {N : ℕ} (A : (⟨2, ![N, 128]⟩ : Shape).Idx → EReal) (b g be : (⟨1, ![128]⟩ : Shape).Idx → EReal)
    (P : Fin N) (q : Fin 128) :
    norm A b g be (ix2 P q) = lnRelu (fun k => A (ix2 P k) + b (ix1 k)) (fun k => g (ix1 k)) (fun k => be (ix1 k)) q := rfl

/-- The normalising layer followed by the residual sum. -/
def normRes {N : ℕ} (A : (⟨2, ![N, 128]⟩ : Shape).Idx → EReal) (b g be : (⟨1, ![128]⟩ : Shape).Idx → EReal)
    (H : (⟨2, ![N, 128]⟩ : Shape).Idx → EReal) : (⟨2, ![N, 128]⟩ : Shape).Idx → EReal :=
  fun i => norm A b g be i + H i

theorem normRes_apply {N : ℕ} (A : (⟨2, ![N, 128]⟩ : Shape).Idx → EReal) (b g be : (⟨1, ![128]⟩ : Shape).Idx → EReal)
    (H : (⟨2, ![N, 128]⟩ : Shape).Idx → EReal) (P : Fin N) (q : Fin 128) :
    normRes A b g be H (ix2 P q)
      = lnRelu (fun k => A (ix2 P k) + b (ix1 k)) (fun k => g (ix1 k)) (fun k => be (ix1 k)) q + H (ix2 P q) := rfl

end Cert.ArraySpec

end
-- ==== Proof.Stages.lean ====
/-
  The network as one function of its inputs.

  The graph enters only through three arrays computed once from the edge list: the source and the destination node of
  every edge (self loops appended) and the edge's normalising coefficient. One propagation step gathers the rows of a
  node-feature array at the edges' sources, scales each by its edge's coefficient and sums them at the edges'
  destinations. The network is: a dense input layer; then three times a dense map without bias, a propagation step,
  and the normalising layer with the rectifier, the second and third time with the previous layer's output added.
  Layer l's weight matrix and its three 128-vectors are plane l of the stacked parameters.
-/
import proofs.«158225_j51247549776507_1_alg».proof.Proof.Gen.ReferenceIdeal
import proofs.«158225_j51247549776507_1_alg».proof.Proof.ArraySpec
import Idealize.ShloMosaic.PureOps.Ideal

noncomputable section

namespace Cert.Stages

open Cert.ReferenceIdeal Cert.ReferenceIdeal.Gen Idealize.ShloMosaic Cert.ArraySpec

/-- The source node of every edge, the self loops appended. -/
def src (e : (⟨S2x1600000, .i32⟩ : BufTy).Contents (Elt Ideal)) : (⟨S1700000, .i32⟩ : BufTy).Contents (Elt Ideal) :=
  concatenate S1700000 0 [⟨S1600000, shapeCast _ (extractStridedSlice S1x1600000 ![0, 0] e slices_S2x1600000_S1x1600000_0_0) shapeCasts_S1x1600000_S1600000⟩, ⟨S100000, iotaInDim S100000 32 0⟩] concatenates_S1600000_S100000_S1700000_d0
/-- The destination node of every edge, the self loops appended. -/
def dst (e : (⟨S2x1600000, .i32⟩ : BufTy).Contents (Elt Ideal)) : (⟨S1700000, .i32⟩ : BufTy).Contents (Elt Ideal) :=
  concatenate S1700000 0 [⟨S1600000, shapeCast _ (extractStridedSlice S1x1600000 ![1, 0] e slices_S2x1600000_S1x1600000_1_0) shapeCasts_S1x1600000_S1600000⟩, ⟨S100000, iotaInDim S100000 32 0⟩] concatenates_S1600000_S100000_S1700000_d0
/-- A node-index vector as gather positions: a negative index counted from the end, then a column. -/
def wrap (s : (⟨S1700000, .i32⟩ : BufTy).Contents (Elt Ideal)) : (⟨S1700000x1, .i32⟩ : BufTy).Contents (Elt Ideal) :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)
/-- The inverse square root of each node's degree (at least one). -/
def dis (e : (⟨S2x1600000, .i32⟩ : BufTy).Contents (Elt Ideal)) : (⟨S100000, .f32⟩ : BufTy).Contents (Elt Ideal) :=
  Host.rsqrt (F := Ideal) (φ := .f32) (maximumf (F := Ideal) (φ := .f32)
    (Host.scatterAdd (F := Ideal) scatter_S100000_S1700000x1_S1700000_n_0_0_1
      (broadcastInDim S100000 ![] bcast_S_S100000 (constant (F := Ideal) S_ .f32 0x00000000#32))
      (broadcastInDim S1700000x1 ![0] bcast_S1700000_S1700000x1_0 (dst e))
      (broadcastInDim S1700000 ![] bcast_S_S1700000 (constant (F := Ideal) S_ .f32 0x3F800000#32)))
    (broadcastInDim S100000 ![] bcast_S_S100000 (constant (F := Ideal) S_ .f32 0x3F800000#32)))
/-- Each edge's coefficient: the product of the two end nodes' inverse square root degrees, as a column. -/
def coef (e : (⟨S2x1600000, .i32⟩ : BufTy).Contents (Elt Ideal)) : (⟨S1700000x1, .f32⟩ : BufTy).Contents (Elt Ideal) :=
  broadcastInDim S1700000x1 ![0] bcast_S1700000_S1700000x1_0
    (mulf (F := Ideal) (φ := .f32) (Host.gather gather_S100000_S1700000x1_S1700000_n_0_n_n_0_1_1 (dis e) (wrap (src e)))
      (Host.gather gather_S100000_S1700000x1_S1700000_n_0_n_n_0_1_1 (dis e) (wrap (dst e))))

/-- One propagation step along the edges: gather at the sources, scale by the coefficients, sum at the destinations. -/
def prop (s3 s6 : (⟨S1700000, .i32⟩ : BufTy).Contents (Elt Ideal)) (cf : (⟨S1700000x1, .f32⟩ : BufTy).Contents (Elt Ideal))
    (M : (⟨S100000x128, .f32⟩ : BufTy).Contents (Elt Ideal)) : (⟨S100000x128, .f32⟩ : BufTy).Contents (Elt Ideal) :=
  Host.scatterAdd (F := Ideal) scatter_S100000x128_S1700000x1_S1700000x128_1_0_0_1
    (broadcastInDim S100000x128 ![] bcast_S_S100000x128 (constant (F := Ideal) S_ .f32 0x00000000#32))
    (broadcastInDim S1700000x1 ![0] bcast_S1700000_S1700000x1_0 s6)
    (mulf (F := Ideal) (φ := .f32) (Host.gather gather_S100000x128_S1700000x1_S1700000x128_1_0_n_n_0_1_1128 M (wrap s3))
      (broadcastInDim S1700000x128 ![0, 1] bcast_S1700000x1_S1700000x128_0_1 cf))

/-- Plane 0, 1, 2 of the stacked weight matrices. -/
def plane0 (a4 : (⟨S3x128x128, .f32⟩ : BufTy).Contents (Elt Ideal)) : (⟨S128x128, .f32⟩ : BufTy).Contents (Elt Ideal) :=
  shapeCast _ (extractStridedSlice S1x128x128 ![0, 0, 0] a4 slices_S3x128x128_S1x128x128_0_0_0) shapeCasts_S1x128x128_S128x128
def plane1 (a4 : (⟨S3x128x128, .f32⟩ : BufTy).Contents (Elt Ideal)) : (⟨S128x128, .f32⟩ : BufTy).Contents (Elt Ideal) :=
  shapeCast _ (extractStridedSlice S1x128x128 ![1, 0, 0] a4 slices_S3x128x128_S1x128x128_1_0_0) shapeCasts_S1x128x128_S128x128
def plane2 (a4 : (⟨S3x128x128, .f32⟩ : BufTy).Contents (Elt Ideal)) : (⟨S128x128, .f32⟩ : BufTy).Contents (Elt Ideal) :=
  shapeCast _ (extractStridedSlice S1x128x128 ![2, 0, 0] a4 slices_S3x128x128_S1x128x128_2_0_0) shapeCasts_S1x128x128_S128x128

/-- Row 0, 1, 2 of a stacked family of 128-vectors. -/
def row0 (a : (⟨S3x128, .f32⟩ : BufTy).Contents (Elt Ideal)) : (⟨S128, .f32⟩ : BufTy).Contents (Elt Ideal) :=
  shapeCast _ (extractStridedSlice S1x128 ![0, 0] a slices_S3x128_S1x128_0_0) shapeCasts_S1x128_S128
def row1 (a : (⟨S3x128, .f32⟩ : BufTy).Contents (Elt Ideal)) : (⟨S128, .f32⟩ : BufTy).Contents (Elt Ideal) :=
  shapeCast _ (extractStridedSlice S1x128 ![1, 0] a slices_S3x128_S1x128_1_0) shapeCasts_S1x128_S128
def row2 (a : (⟨S3x128, .f32⟩ : BufTy).Contents (Elt Ideal)) : (⟨S128, .f32⟩ : BufTy).Contents (Elt Ideal) :=
  shapeCast _ (extractStridedSlice S1x128 ![2, 0] a slices_S3x128_S1x128_2_0) shapeCasts_S1x128_S128

/-- The dense map without bias. -/
def mm (X : (⟨S100000x128, .f32⟩ : BufTy).Contents (Elt Ideal)) (W : (⟨S128x128, .f32⟩ : BufTy).Contents (Elt Ideal)) :
    (⟨S100000x128, .f32⟩ : BufTy).Contents (Elt Ideal) :=
  fun i => ∑ k : Fin 128, X (ValueIdx.ix2 (i 0) k) * W (ValueIdx.ix2 k (i 1))

/-- The input layer's output. -/
def h0 (a0 : (⟨S100000x16, .f32⟩ : BufTy).Contents (Elt Ideal)) (a2 : (⟨S16x128, .f32⟩ : BufTy).Contents (Elt Ideal))
    (a3 : (⟨S128, .f32⟩ : BufTy).Contents (Elt Ideal)) : (⟨S100000x128, .f32⟩ : BufTy).Contents (Elt Ideal) :=
  lin a0 a2 a3

section
variable (s3 s6 : (⟨S1700000, .i32⟩ : BufTy).Contents (Elt Ideal)) (cf : (⟨S1700000x1, .f32⟩ : BufTy).Contents (Elt Ideal))
  (a0 : (⟨S100000x16, .f32⟩ : BufTy).Contents (Elt Ideal)) (a2 : (⟨S16x128, .f32⟩ : BufTy).Contents (Elt Ideal))
  (a3 : (⟨S128, .f32⟩ : BufTy).Contents (Elt Ideal)) (a4 : (⟨S3x128x128, .f32⟩ : BufTy).Contents (Elt Ideal))
  (a5 a6 a7 : (⟨S3x128, .f32⟩ : BufTy).Contents (Elt Ideal))

/-- The first layer's output. -/
def h1 : (⟨S100000x128, .f32⟩ : BufTy).Contents (Elt Ideal) :=
  norm (prop s3 s6 cf (mm (h0 a0 a2 a3) (plane0 a4))) (row0 a5) (row0 a6) (row0 a7)
/-- The second layer's output. -/
def h2 : (⟨S100000x128, .f32⟩ : BufTy).Contents (Elt Ideal) :=
  normRes (prop s3 s6 cf (mm (h1 s3 s6 cf a0 a2 a3 a4 a5 a6 a7) (plane1 a4))) (row1 a5) (row1 a6) (row1 a7) (h1 s3 s6 cf a0 a2 a3 a4 a5 a6 a7)
/-- The third layer's output: the network's result. -/
def h3 : (⟨S100000x128, .f32⟩ : BufTy).Contents (Elt Ideal) :=
  normRes (prop s3 s6 cf (mm (h2 s3 s6 cf a0 a2 a3 a4 a5 a6 a7) (plane2 a4))) (row2 a5) (row2 a6) (row2 a7) (h2 s3 s6 cf a0 a2 a3 a4 a5 a6 a7)
end

end Cert.Stages

end
-- ==== Proof.GraphStage.lean ====
/-
  The graph arrays, as the kernel program's first stretch of host operations leaves them.

  Before the first region the program computes, from the edge list alone, the source and destination node of every
  edge (self loops appended) and each edge's coefficient. They are the same operations, in the same order, as the
  reference's: the three arrays are Stages.src, Stages.dst and Stages.coef of the edge list.
-/
import proofs.«158225_j51247549776507_1_alg».proof.Proof.Gen.KernelIdeal.Frame
import proofs.«158225_j51247549776507_1_alg».proof.Proof.Stages
import Idealize.ShloMosaic.Lib.StableHlo.Run

set_option maxRecDepth 16384

noncomputable section

namespace Cert.KernelIdeal.GraphStage

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

theorem W1_v3 : (W1 m ρ c (Proc.devRef .tc main_v3) : (⟨S1700000, .i32⟩ : BufTy).Contents (Elt Ideal))
    = Cert.Stages.src (m ((c : Thread nD τ).loc main_arg1)) := by
  show StableHlo.after hostOps0 (W0 m ρ c) (Proc.devRef .tc main_v3) = _
  after_results_simp
  rfl

theorem W1_v6 : (W1 m ρ c (Proc.devRef .tc main_v6) : (⟨S1700000, .i32⟩ : BufTy).Contents (Elt Ideal))
    = Cert.Stages.dst (m ((c : Thread nD τ).loc main_arg1)) := by
  show StableHlo.after hostOps0 (W0 m ρ c) (Proc.devRef .tc main_v6) = _
  after_results_simp
  rfl

theorem W1_v29 : (W1 m ρ c (Proc.devRef .tc main_v29) : (⟨S1700000x1, .f32⟩ : BufTy).Contents (Elt Ideal))
    = Cert.Stages.coef (m ((c : Thread nD τ).loc main_arg1)) := by
  show StableHlo.after hostOps0 (W0 m ρ c) (Proc.devRef .tc main_v29) = _
  after_results_simp
  rfl

end Cert.KernelIdeal.GraphStage

end
-- ==== Proof.PayFacts.lean ====
/-
  What the seven kernel bodies compute, as one bundle of statements.

  Each body's stored value, read at row p and lane q of its block on the extended reals: a dense body gives
  Σ_k x(p,k) · w(k,q) + b(q); a normalising body gives the row function of LayerSpec at the biased row, the later ones
  plus the residual entry.
-/
import proofs.«158225_j51247549776507_1_alg».proof.Proof.Gen.KernelIdeal.Skeleton
import proofs.«158225_j51247549776507_1_alg».proof.Proof.LayerSpec
import Idealize.ShloMosaic.Lib.ValueIdx

noncomputable section

open scoped BigOperators

namespace Cert.KernelIdeal

open Cert.KernelIdeal.Gen Idealize.ShloMosaic Idealize.ShloMosaic.ValueIdx Cert.LayerSpec

/-- The seven bodies' values at an entry of their block. -/
structure PayFacts : Prop where
  lin0 : ∀ (x0 : Vec Ideal S5000x16 .f32) (x1 : Vec Ideal S16x128 .f32) (x2 : Vec Ideal S128 .f32) (p : Fin 5000) (q : Fin 128),
    k0_pay1 (F := Ideal) x0 x1 x2 (ix2 p q) = (∑ k : Fin 16, x0 (ix2 p k) * x1 (ix2 k q)) + x2 (ix1 q)
  lin1 : ∀ (x0 : Vec Ideal S5000x128 .f32) (x1 : Vec Ideal S128x128 .f32) (x2 : Vec Ideal S128 .f32) (p : Fin 5000) (q : Fin 128),
    k1_pay1 (F := Ideal) x0 x1 x2 (ix2 p q) = (∑ k : Fin 128, x0 (ix2 p k) * x1 (ix2 k q)) + x2 (ix1 q)
  lin3 : ∀ (x0 : Vec Ideal S5000x128 .f32) (x1 : Vec Ideal S128x128 .f32) (x2 : Vec Ideal S128 .f32) (p : Fin 5000) (q : Fin 128),
    k3_pay1 (F := Ideal) x0 x1 x2 (ix2 p q) = (∑ k : Fin 128, x0 (ix2 p k) * x1 (ix2 k q)) + x2 (ix1 q)
  lin5 : ∀ (x0 : Vec Ideal S5000x128 .f32) (x1 : Vec Ideal S128x128 .f32) (x2 : Vec Ideal S128 .f32) (p : Fin 5000) (q : Fin 128),
    k5_pay1 (F := Ideal) x0 x1 x2 (ix2 p q) = (∑ k : Fin 128, x0 (ix2 p k) * x1 (ix2 k q)) + x2 (ix1 q)
  norm2 : ∀ (x0 : Vec Ideal S5000x128 .f32) (x1 x2 x3 : Vec Ideal S128 .f32) (p : Fin 5000) (q : Fin 128),
    k2_pay1 (F := Ideal) x0 x1 x2 x3 (ix2 p q) = lnRelu (fun k => x0 (ix2 p k) + x1 (ix1 k)) (fun k => x2 (ix1 k)) (fun k => x3 (ix1 k)) q
  norm4 : ∀ (x0 : Vec Ideal S5000x128 .f32) (x1 x2 x3 : Vec Ideal S128 .f32) (x4 : Vec Ideal S5000x128 .f32) (p : Fin 5000) (q : Fin 128),
    k4_pay1 (F := Ideal) x0 x1 x2 x3 x4 (ix2 p q) = lnRelu (fun k => x0 (ix2 p k) + x1 (ix1 k)) (fun k => x2 (ix1 k)) (fun k => x3 (ix1 k)) q + x4 (ix2 p q)
  norm6 : ∀ (x0 : Vec Ideal S5000x128 .f32) (x1 x2 x3 : Vec Ideal S128 .f32) (x4 : Vec Ideal S5000x128 .f32) (p : Fin 5000) (q : Fin 128),
    k6_pay1 (F := Ideal) x0 x1 x2 x3 x4 (ix2 p q) = lnRelu (fun k => x0 (ix2 p k) + x1 (ix1 k)) (fun k => x2 (ix1 k)) (fun k => x3 (ix1 k)) q + x4 (ix2 p q)

end Cert.KernelIdeal

end
-- ==== Proof.Blocks0.lean ====
/-
  Region 0 (the dense input layer), from blocks to the array.

  Grid point t handles rows 5000·t … 5000·t + 4999: it reads that block of rows of the left operand, the whole weight
  matrix and the whole bias vector, and writes the same block of rows of the result. A block's row p is the array's row
  5000·t + p, so what the point writes back is the block of the whole-array dense layer; the twenty blocks cover the
  100000 rows.
-/
import proofs.«158225_j51247549776507_1_alg».proof.Proof.Gen.KernelIdeal.Frame
import proofs.«158225_j51247549776507_1_alg».proof.Proof.ArraySpec
import Idealize.ShloMosaic.Lib.Pipeline.Value
import Idealize.ShloMosaic.Lib.ValueIdx

set_option maxRecDepth 16384

noncomputable section

open scoped BigOperators

namespace Cert.KernelIdeal.Blocks0

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.ArraySpec Cert.LayerSpec

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The block index of each window at grid point t: the row windows move with t, the others stay. -/
theorem idx : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

set_option maxHeartbeats 4000000 in
/-- What point t writes back is block t of the dense layer of the arrays the region finds. -/
theorem flushed_eq
    (hpay : ∀ (x0 : Vec Ideal S5000x16 .f32) (x1 : Vec Ideal S16x128 .f32) (x2 : Vec Ideal S128 .f32) (p : Fin 5000) (q : Fin 128),
      k0_pay1 (F := Ideal) x0 x1 x2 (ix2 p q) = (∑ k : Fin 16, x0 (ix2 p k) * x1 (ix2 k q)) + x2 (ix1 q))
    (c : Dev nD) (t : Fin cfg0.N) :
    (dat0 (F := Ideal) V c).flushed 3 t = ((cfg0.win 3).blk t).view.read (Elt Ideal)
      (lin (N := 100000) (K := 16) (V c main_arg0) (V c main_arg2) (V c main_arg3)) := by
  show (cfg0.win 3).cut (grid0.coords t) ((dat0 V c).after 3 t) = _
  rw [after0_3]
  unfold out0_3
  rw [View.canon_unit_zero hz2]
  simp only [View.ld_unit_zero (S := S5000x16) hz2, View.ld_unit_zero (S := S16x128) hz2, View.ld_unit_zero (S := S128) hz1]
  obtain ⟨e00, e01, e10, e11, e20, e30, e31⟩ := idx t
  funext j
  obtain ⟨p, q, rfl⟩ : ∃ (p : Fin 5000) (q : Fin 128), j = ix2 p q := ⟨j 0, j 1, eq_ix2 j⟩
  refine (hpay (iblk0 V c 0 t) (iblk0 V c 1 t) (iblk0 V c 2 t) p q).trans ?_
  have ht : t.val < 20 := by have h : t.val < grid0.N := t.isLt; rw [N_0] at h; exact h
  have hP : t.val * 5000 + p.val < 100000 := by have := p.isLt; omega
  have hE : ((cfg0.win 3).blk t).view.emb (ix2 p q) = (ix2 (⟨t.val * 5000 + p.val, hP⟩ : Fin 100000) q : S100000x128.Idx) := by
    funext a; apply Fin.ext
    match a with
    | ⟨0, _⟩ => show win0_3.index t (0 : Fin 2) * 5000 + 1 * p.val = t.val * 5000 + p.val; omega
    | ⟨1, _⟩ => show win0_3.index t (1 : Fin 2) * 128 + 1 * q.val = q.val; omega
  have hx : ∀ k : Fin 16, iblk0 V c 0 t (ix2 p k)
      = (V c main_arg0 : S100000x16.Idx → EReal) (ix2 (⟨t.val * 5000 + p.val, hP⟩ : Fin 100000) k) := fun k => by
    show V c (Pipeline.arrRef spec0 0) (((cfg0.win 0).blk t).view.emb (ix2 p k)) = _
    refine congrArg (V c main_arg0) ?_
    funext a; apply Fin.ext
    match a with
    | ⟨0, _⟩ => show win0_0.index t (0 : Fin 2) * 5000 + 1 * p.val = t.val * 5000 + p.val; omega
    | ⟨1, _⟩ => show win0_0.index t (1 : Fin 2) * 16 + 1 * k.val = k.val; omega
  have hw : ∀ k : Fin 16, iblk0 V c 1 t (ix2 k q) = (V c main_arg2 : S16x128.Idx → EReal) (ix2 k q) := fun k => by
    show V c (Pipeline.arrRef spec0 1) (((cfg0.win 1).blk t).view.emb (ix2 k q)) = _
    refine congrArg (V c main_arg2) ?_
    funext a; apply Fin.ext
    match a with
    | ⟨0, _⟩ => show win0_1.index t (0 : Fin 2) * 16 + 1 * k.val = k.val; omega
    | ⟨1, _⟩ => show win0_1.index t (1 : Fin 2) * 128 + 1 * q.val = q.val; omega
  have hb : iblk0 V c 2 t (ix1 q) = (V c main_arg3 : S128.Idx → EReal) (ix1 q) := by
    show V c (Pipeline.arrRef spec0 2) (((cfg0.win 2).blk t).view.emb (ix1 q)) = _
    refine congrArg (V c main_arg3) ?_
    funext a; apply Fin.ext
    match a with
    | ⟨0, _⟩ => show win0_2.index t (0 : Fin 1) * 128 + 1 * q.val = q.val; omega
  show _ = lin (N := 100000) (K := 16) (V c main_arg0) (V c main_arg2) (V c main_arg3) (((cfg0.win 3).blk t).view.emb (ix2 p q))
  rw [hE, lin_apply, hb]
  exact congrArg (· + (V c main_arg3 : S128.Idx → EReal) (ix1 q)) (Finset.sum_congr rfl fun k _ => by rw [hx k, hw k])

/-- An index of the array is in point t's block iff each coordinate is in the block's range on its axis. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v30).slice (win0_3.rect t)).set ↔ _
  rw [View.set_slice_whole, Rect.mem_set_unit]
  exact Iff.rfl

/-- Every row lies in the block of the point its number divided by 5000 names. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : (i 0).val / 5000 < grid0.N := by rw [N_0]; omega
  obtain ⟨e00, e01, e10, e11, e20, e30, e31⟩ := idx ⟨(i 0).val / 5000, hN⟩
  have e30' : win0_3.index ⟨(i 0).val / 5000, hN⟩ (0 : Fin 2) = (i 0).val / 5000 := e30
  refine ⟨⟨(i 0).val / 5000, hN⟩, flush0_3 _, ?_⟩
  rw [mem_blk]
  intro a
  match a with
  | ⟨0, _⟩ => show win0_3.index ⟨(i 0).val / 5000, hN⟩ (0 : Fin 2) * 5000 ≤ (i 0).val ∧ (i 0).val < win0_3.index ⟨(i 0).val / 5000, hN⟩ (0 : Fin 2) * 5000 + 5000; omega
  | ⟨1, _⟩ => show win0_3.index ⟨(i 0).val / 5000, hN⟩ (1 : Fin 2) * 128 ≤ (i 1).val ∧ (i 1).val < win0_3.index ⟨(i 0).val / 5000, hN⟩ (1 : Fin 2) * 128 + 128; omega

/-- The region's result array after the region: the dense layer of the arrays the region found. -/
theorem final
    (hpay : ∀ (x0 : Vec Ideal S5000x16 .f32) (x1 : Vec Ideal S16x128 .f32) (x2 : Vec Ideal S128 .f32) (p : Fin 5000) (q : Fin 128),
      k0_pay1 (F := Ideal) x0 x1 x2 (ix2 p q) = (∑ k : Fin 16, x0 (ix2 p k) * x1 (ix2 k q)) + x2 (ix1 q))
    (c : Dev nD) :
    (dat0 (F := Ideal) V c).arrAt 3 cfg0.N = lin (N := 100000) (K := 16) (V c main_arg0) (V c main_arg2) (V c main_arg3) :=
  (dat0 (F := Ideal) V c).arrAt_eq_of_cover 3 _ (fun t _ => flushed_eq V hpay c t) cover

end Cert.KernelIdeal.Blocks0

end
-- ==== Proof.Blocks1.lean ====
/-
  Region 1 (the first layer's dense map), from blocks to the array.

  Grid point t handles rows 5000·t … 5000·t + 4999: it reads that block of rows of the left operand, the whole weight
  matrix and the whole bias vector, and writes the same block of rows of the result. A block's row p is the array's row
  5000·t + p, so what the point writes back is the block of the whole-array dense layer; the twenty blocks cover the
  100000 rows.
-/
import proofs.«158225_j51247549776507_1_alg».proof.Proof.Gen.KernelIdeal.Frame
import proofs.«158225_j51247549776507_1_alg».proof.Proof.ArraySpec
import Idealize.ShloMosaic.Lib.Pipeline.Value
import Idealize.ShloMosaic.Lib.ValueIdx

set_option maxRecDepth 16384

noncomputable section

open scoped BigOperators

namespace Cert.KernelIdeal.Blocks1

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.ArraySpec Cert.LayerSpec

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The block index of each window at grid point t: the row windows move with t, the others stay. -/
theorem idx : ∀ t : Fin cfg1.N, win1_0.index t (0 : Fin 2) = t.val ∧ win1_0.index t (1 : Fin 2) = 0
    ∧ win1_1.index t (0 : Fin 2) = 0 ∧ win1_1.index t (1 : Fin 2) = 0 ∧ win1_2.index t (0 : Fin 1) = 0
    ∧ win1_3.index t (0 : Fin 2) = t.val ∧ win1_3.index t (1 : Fin 2) = 0 :=
  (by decide +kernel : ∀ t : Fin grid1.N, _)

set_option maxHeartbeats 4000000 in
/-- What point t writes back is block t of the dense layer of the arrays the region finds. -/
theorem flushed_eq
    (hpay : ∀ (x0 : Vec Ideal S5000x128 .f32) (x1 : Vec Ideal S128x128 .f32) (x2 : Vec Ideal S128 .f32) (p : Fin 5000) (q : Fin 128),
      k1_pay1 (F := Ideal) x0 x1 x2 (ix2 p q) = (∑ k : Fin 128, x0 (ix2 p k) * x1 (ix2 k q)) + x2 (ix1 q))
    (c : Dev nD) (t : Fin cfg1.N) :
    (dat1 (F := Ideal) V c).flushed 3 t = ((cfg1.win 3).blk t).view.read (Elt Ideal)
      (lin (N := 100000) (K := 128) (V c main_v30) (V c main_v32) (V c main_v33)) := by
  show (cfg1.win 3).cut (grid1.coords t) ((dat1 V c).after 3 t) = _
  rw [after1_3]
  unfold out1_3
  rw [View.canon_unit_zero hz2]
  simp only [View.ld_unit_zero (S := S5000x128) hz2, View.ld_unit_zero (S := S128x128) hz2, View.ld_unit_zero (S := S128) hz1]
  obtain ⟨e00, e01, e10, e11, e20, e30, e31⟩ := idx t
  funext j
  obtain ⟨p, q, rfl⟩ : ∃ (p : Fin 5000) (q : Fin 128), j = ix2 p q := ⟨j 0, j 1, eq_ix2 j⟩
  refine (hpay (iblk1 V c 0 t) (iblk1 V c 1 t) (iblk1 V c 2 t) p q).trans ?_
  have ht : t.val < 20 := by have h : t.val < grid1.N := t.isLt; rw [N_1] at h; exact h
  have hP : t.val * 5000 + p.val < 100000 := by have := p.isLt; omega
  have hE : ((cfg1.win 3).blk t).view.emb (ix2 p q) = (ix2 (⟨t.val * 5000 + p.val, hP⟩ : Fin 100000) q : S100000x128.Idx) := by
    funext a; apply Fin.ext
    match a with
    | ⟨0, _⟩ => show win1_3.index t (0 : Fin 2) * 5000 + 1 * p.val = t.val * 5000 + p.val; omega
    | ⟨1, _⟩ => show win1_3.index t (1 : Fin 2) * 128 + 1 * q.val = q.val; omega
  have hx : ∀ k : Fin 128, iblk1 V c 0 t (ix2 p k)
      = (V c main_v30 : S100000x128.Idx → EReal) (ix2 (⟨t.val * 5000 + p.val, hP⟩ : Fin 100000) k) := fun k => by
    show V c (Pipeline.arrRef spec1 0) (((cfg1.win 0).blk t).view.emb (ix2 p k)) = _
    refine congrArg (V c main_v30) ?_
    funext a; apply Fin.ext
    match a with
    | ⟨0, _⟩ => show win1_0.index t (0 : Fin 2) * 5000 + 1 * p.val = t.val * 5000 + p.val; omega
    | ⟨1, _⟩ => show win1_0.index t (1 : Fin 2) * 128 + 1 * k.val = k.val; omega
  have hw : ∀ k : Fin 128, iblk1 V c 1 t (ix2 k q) = (V c main_v32 : S128x128.Idx → EReal) (ix2 k q) := fun k => by
    show V c (Pipeline.arrRef spec1 1) (((cfg1.win 1).blk t).view.emb (ix2 k q)) = _
    refine congrArg (V c main_v32) ?_
    funext a; apply Fin.ext
    match a with
    | ⟨0, _⟩ => show win1_1.index t (0 : Fin 2) * 128 + 1 * k.val = k.val; omega
    | ⟨1, _⟩ => show win1_1.index t (1 : Fin 2) * 128 + 1 * q.val = q.val; omega
  have hb : iblk1 V c 2 t (ix1 q) = (V c main_v33 : S128.Idx → EReal) (ix1 q) := by
    show V c (Pipeline.arrRef spec1 2) (((cfg1.win 2).blk t).view.emb (ix1 q)) = _
    refine congrArg (V c main_v33) ?_
    funext a; apply Fin.ext
    match a with
    | ⟨0, _⟩ => show win1_2.index t (0 : Fin 1) * 128 + 1 * q.val = q.val; omega
  show _ = lin (N := 100000) (K := 128) (V c main_v30) (V c main_v32) (V c main_v33) (((cfg1.win 3).blk t).view.emb (ix2 p q))
  rw [hE, lin_apply, hb]
  exact congrArg (· + (V c main_v33 : S128.Idx → EReal) (ix1 q)) (Finset.sum_congr rfl fun k _ => by rw [hx k, hw k])

/-- An index of the array is in point t's block iff each coordinate is in the block's range on its axis. -/
theorem mem_blk (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v34).slice (win1_3.rect t)).set ↔ _
  rw [View.set_slice_whole, Rect.mem_set_unit]
  exact Iff.rfl

/-- Every row lies in the block of the point its number divided by 5000 names. -/
theorem cover (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : (i 0).val / 5000 < grid1.N := by rw [N_1]; omega
  obtain ⟨e00, e01, e10, e11, e20, e30, e31⟩ := idx ⟨(i 0).val / 5000, hN⟩
  have e30' : win1_3.index ⟨(i 0).val / 5000, hN⟩ (0 : Fin 2) = (i 0).val / 5000 := e30
  refine ⟨⟨(i 0).val / 5000, hN⟩, flush1_3 _, ?_⟩
  rw [mem_blk]
  intro a
  match a with
  | ⟨0, _⟩ => show win1_3.index ⟨(i 0).val / 5000, hN⟩ (0 : Fin 2) * 5000 ≤ (i 0).val ∧ (i 0).val < win1_3.index ⟨(i 0).val / 5000, hN⟩ (0 : Fin 2) * 5000 + 5000; omega
  | ⟨1, _⟩ => show win1_3.index ⟨(i 0).val / 5000, hN⟩ (1 : Fin 2) * 128 ≤ (i 1).val ∧ (i 1).val < win1_3.index ⟨(i 0).val / 5000, hN⟩ (1 : Fin 2) * 128 + 128; omega

/-- The region's result array after the region: the dense layer of the arrays the region found. -/
theorem final
    (hpay : ∀ (x0 : Vec Ideal S5000x128 .f32) (x1 : Vec Ideal S128x128 .f32) (x2 : Vec Ideal S128 .f32) (p : Fin 5000) (q : Fin 128),
      k1_pay1 (F := Ideal) x0 x1 x2 (ix2 p q) = (∑ k : Fin 128, x0 (ix2 p k) * x1 (ix2 k q)) + x2 (ix1 q))
    (c : Dev nD) :
    (dat1 (F := Ideal) V c).arrAt 3 cfg1.N = lin (N := 100000) (K := 128) (V c main_v30) (V c main_v32) (V c main_v33) :=
  (dat1 (F := Ideal) V c).arrAt_eq_of_cover 3 _ (fun t _ => flushed_eq V hpay c t) cover

end Cert.KernelIdeal.Blocks1

end
-- ==== Proof.Blocks2.lean ====
/-
  Region 2 (the first layer's normalisation and rectifier), from blocks to the array.

  Grid point t handles rows 5000·t … 5000·t + 4999: it reads that block of rows of the aggregated messages, the three
  128-vectors whole, and writes the same block of rows of the result. The normalisation works row by row, and a block's
  row p is the array's row 5000·t + p, so what the point writes back is the block of the whole-array layer; the twenty
  blocks cover the 100000 rows.
-/
import proofs.«158225_j51247549776507_1_alg».proof.Proof.Gen.KernelIdeal.Frame
import proofs.«158225_j51247549776507_1_alg».proof.Proof.ArraySpec
import Idealize.ShloMosaic.Lib.Pipeline.Value
import Idealize.ShloMosaic.Lib.ValueIdx

set_option maxRecDepth 16384

noncomputable section

open scoped BigOperators

namespace Cert.KernelIdeal.Blocks2

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.ArraySpec Cert.LayerSpec

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The block index of each window at grid point t: the row windows move with t, the vectors stay. -/
theorem idx : ∀ t : Fin cfg2.N, win2_0.index t (0 : Fin 2) = t.val ∧ win2_0.index t (1 : Fin 2) = 0
    ∧ win2_1.index t (0 : Fin 1) = 0 ∧ win2_2.index t (0 : Fin 1) = 0 ∧ win2_3.index t (0 : Fin 1) = 0
    ∧ win2_4.index t (0 : Fin 2) = t.val ∧ win2_4.index t (1 : Fin 2) = 0 :=
  (by decide +kernel : ∀ t : Fin grid2.N, _)

set_option maxHeartbeats 4000000 in
/-- What point t writes back is block t of the layer of the arrays the region finds. -/
theorem flushed_eq
    (hpay : ∀ (x0 : Vec Ideal S5000x128 .f32) (x1 x2 x3 : Vec Ideal S128 .f32) (p : Fin 5000) (q : Fin 128),
      k2_pay1 (F := Ideal) x0 x1 x2 x3 (ix2 p q) = lnRelu (fun k => x0 (ix2 p k) + x1 (ix1 k)) (fun k => x2 (ix1 k)) (fun k => x3 (ix1 k)) q)
    (c : Dev nD) (t : Fin cfg2.N) :
    (dat2 (F := Ideal) V c).flushed 4 t = ((cfg2.win 4).blk t).view.read (Elt Ideal)
      (norm (N := 100000) (V c main_v46) (V c main_v48) (V c main_v50) (V c main_v52)) := by
  show (cfg2.win 4).cut (grid2.coords t) ((dat2 V c).after 4 t) = _
  rw [after2_4]
  unfold out2_4
  rw [View.canon_unit_zero hz2]
  simp only [View.ld_unit_zero (S := S5000x128) hz2, View.ld_unit_zero (S := S128) hz1]
  obtain ⟨e00, e01, e1, e2, e3, eo0, eo1⟩ := idx t
  funext j
  obtain ⟨p, q, rfl⟩ : ∃ (p : Fin 5000) (q : Fin 128), j = ix2 p q := ⟨j 0, j 1, eq_ix2 j⟩
  refine (hpay (iblk2 V c 0 t) (iblk2 V c 1 t) (iblk2 V c 2 t) (iblk2 V c 3 t) p q).trans ?_
  have ht : t.val < 20 := by have h : t.val < grid2.N := t.isLt; rw [N_2] at h; exact h
  have hP : t.val * 5000 + p.val < 100000 := by have := p.isLt; omega
  have hE : ((cfg2.win 4).blk t).view.emb (ix2 p q) = (ix2 (⟨t.val * 5000 + p.val, hP⟩ : Fin 100000) q : S100000x128.Idx) := by
    funext a; apply Fin.ext
    match a with
    | ⟨0, _⟩ => show win2_4.index t (0 : Fin 2) * 5000 + 1 * p.val = t.val * 5000 + p.val; omega
    | ⟨1, _⟩ => show win2_4.index t (1 : Fin 2) * 128 + 1 * q.val = q.val; omega
  have hx : ∀ k : Fin 128, iblk2 V c 0 t (ix2 p k)
      = (V c main_v46 : S100000x128.Idx → EReal) (ix2 (⟨t.val * 5000 + p.val, hP⟩ : Fin 100000) k) := fun k => by
    show V c (Pipeline.arrRef spec2 0) (((cfg2.win 0).blk t).view.emb (ix2 p k)) = _
    refine congrArg (V c main_v46) ?_
    funext a; apply Fin.ext
    match a with
    | ⟨0, _⟩ => show win2_0.index t (0 : Fin 2) * 5000 + 1 * p.val = t.val * 5000 + p.val; omega
    | ⟨1, _⟩ => show win2_0.index t (1 : Fin 2) * 128 + 1 * k.val = k.val; omega
  have h1 : ∀ k : Fin 128, iblk2 V c 1 t (ix1 k) = (V c main_v48 : S128.Idx → EReal) (ix1 k) := fun k => by
    show V c (Pipeline.arrRef spec2 1) (((cfg2.win 1).blk t).view.emb (ix1 k)) = _
    refine congrArg (V c main_v48) ?_
    funext a; apply Fin.ext
    match a with
    | ⟨0, _⟩ => show win2_1.index t (0 : Fin 1) * 128 + 1 * k.val = k.val; omega
  have h2 : ∀ k : Fin 128, iblk2 V c 2 t (ix1 k) = (V c main_v50 : S128.Idx → EReal) (ix1 k) := fun k => by
    show V c (Pipeline.arrRef spec2 2) (((cfg2.win 2).blk t).view.emb (ix1 k)) = _
    refine congrArg (V c main_v50) ?_
    funext a; apply Fin.ext
    match a with
    | ⟨0, _⟩ => show win2_2.index t (0 : Fin 1) * 128 + 1 * k.val = k.val; omega
  have h3 : ∀ k : Fin 128, iblk2 V c 3 t (ix1 k) = (V c main_v52 : S128.Idx → EReal) (ix1 k) := fun k => by
    show V c (Pipeline.arrRef spec2 3) (((cfg2.win 3).blk t).view.emb (ix1 k)) = _
    refine congrArg (V c main_v52) ?_
    funext a; apply Fin.ext
    match a with
    | ⟨0, _⟩ => show win2_3.index t (0 : Fin 1) * 128 + 1 * k.val = k.val; omega
  show _ = (norm (N := 100000) (V c main_v46) (V c main_v48) (V c main_v50) (V c main_v52)) (((cfg2.win 4).blk t).view.emb (ix2 p q))
  rw [hE, norm_apply]
  simp only [hx, h1, h2, h3]

/-- An index of the array is in point t's block iff each coordinate is in the block's range on its axis. -/
theorem mem_blk (t : Fin cfg2.N) (i : S100000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v53).slice (win2_4.rect t)).set ↔ _
  rw [View.set_slice_whole, Rect.mem_set_unit]
  exact Iff.rfl

/-- Every row lies in the block of the point its number divided by 5000 names. -/
theorem cover (i : S100000x128.Idx) : ∃ t : Fin cfg2.N, (cfg2.win 4).flush t = true ∧ i ∈ ((cfg2.win 4).blk t).view.set := by
  have hi0 : (i 0).val < 100000 := (i 0).isLt
  have hi1 : (i 1).val < 128 := (i 1).isLt
  have hN : (i 0).val / 5000 < grid2.N := by rw [N_2]; omega
  obtain ⟨e00, e01, e1, e2, e3, eo0, eo1⟩ := idx ⟨(i 0).val / 5000, hN⟩
  have eo0' : win2_4.index ⟨(i 0).val / 5000, hN⟩ (0 : Fin 2) = (i 0).val / 5000 := eo0
  refine ⟨⟨(i 0).val / 5000, hN⟩, flush2_4 _, ?_⟩
  rw [mem_blk]
  intro a
  match a with
  | ⟨0, _⟩ => show win2_4.index ⟨(i 0).val / 5000, hN⟩ (0 : Fin 2) * 5000 ≤ (i 0).val ∧ (i 0).val < win2_4.index ⟨(i 0).val / 5000, hN⟩ (0 : Fin 2) * 5000 + 5000; omega
  | ⟨1, _⟩ => show win2_4.index ⟨(i 0).val / 5000, hN⟩ (1 : Fin 2) * 128 ≤ (i 1).val ∧ (i 1).val < win2_4.index ⟨(i 0).val / 5000, hN⟩ (1 : Fin 2) * 128 + 128; omega

/-- The region's result array after the region: the layer of the arrays the region found. -/
theorem final
    (hpay : ∀ (x0 : Vec Ideal S5000x128 .f32) (x1 x2 x3 : Vec Ideal S128 .f32) (p : Fin 5000) (q : Fin 128),
      k2_pay1 (F := Ideal) x0 x1 x2 x3 (ix2 p q) = lnRelu (fun k => x0 (ix2 p k) + x1 (ix1 k)) (fun k => x2 (ix1 k)) (fun k => x3 (ix1 k)) q)
    (c : Dev nD) :
    (dat2 (F := Ideal) V c).arrAt 4 cfg2.N = norm (N := 100000) (V c main_v46) (V c main_v48) (V c main_v50) (V c main_v52) :=
  (dat2 (F := Ideal) V c).arrAt_eq_of_cover 4 _ (fun t _ => flushed_eq V hpay c t) cover

end Cert.KernelIdeal.Blocks2

end
-- ==== Proof.Blocks3.lean ====
/-
  Region 3 (the second layer's dense map), from blocks to the array.

  Grid point t handles rows 5000·t … 5000·t + 4999: it reads that block of rows of the left operand, the whole weight
  matrix and the whole bias vector, and writes the same block of rows of the result. A block's row p is the array's row
  5000·t + p, so what the point writes back is the block of the whole-array dense layer; the twenty blocks cover the
  100000 rows.
-/
import proofs.«158225_j51247549776507_1_alg».proof.Proof.Gen.KernelIdeal.Frame
import proofs.«158225_j51247549776507_1_alg».proof.Proof.ArraySpec
import Idealize.ShloMosaic.Lib.Pipeline.Value
import Idealize.ShloMosaic.Lib.ValueIdx

set_option maxRecDepth 16384

noncomputable section

open scoped BigOperators

namespace Cert.KernelIdeal.Blocks3

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.ArraySpec Cert.LayerSpec

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The block index of each window at grid point t: the row windows move with t, the others stay. -/
theorem idx : ∀ t : Fin cfg3.N, win3_0.index t (0 : Fin 2) = t.val ∧ win3_0.index t (1 : Fin 2) = 0
    ∧ win3_1.index t (0 : Fin 2) = 0 ∧ win3_1.index t (1 : Fin 2) = 0 ∧ win3_2.index t (0 : Fin 1) = 0
    ∧ win3_3.index t (0 : Fin 2) = t.val ∧ win3_3.index t (1 : Fin 2) = 0 :=
  (by decide +kernel : ∀ t : Fin grid3.N, _)

set_option maxHeartbeats 4000000 in
/-- What point t writes back is block t of the dense layer of the arrays the region finds. -/
theorem flushed_eq
    (hpay : ∀ (x0 : Vec Ideal S5000x128 .f32) (x1 : Vec Ideal S128x128 .f32) (x2 : Vec Ideal S128 .f32) (p : Fin 5000) (q : Fin 128),
      k3_pay1 (F := Ideal) x0 x1 x2 (ix2 p q) = (∑ k : Fin 128, x0 (ix2 p k) * x1 (ix2 k q)) + x2 (ix1 q))
    (c : Dev nD) (t : Fin cfg3.N) :
    (dat3 (F := Ideal) V c).flushed 3 t = ((cfg3.win 3).blk t).view.read (Elt Ideal)
      (lin (N := 100000) (K := 128) (V c main_v53) (V c main_v55) (V c main_v56)) := by
  show (cfg3.win 3).cut (grid3.coords t) ((dat3 V c).after 3 t) = _
  rw [after3_3]
  unfold out3_3
  rw [View.canon_unit_zero hz2]
  simp only [View.ld_unit_zero (S := S5000x128) hz2, View.ld_unit_zero (S := S128x128) hz2, View.ld_unit_zero (S := S128) hz1]
  obtain ⟨e00, e01, e10, e11, e20, e30, e31⟩ := idx t
  funext j
  obtain ⟨p, q, rfl⟩ : ∃ (p : Fin 5000) (q : Fin 128), j = ix2 p q := ⟨j 0, j 1, eq_ix2 j⟩
  refine (hpay (iblk3 V c 0 t) (iblk3 V c 1 t) (iblk3 V c 2 t) p q).trans ?_
  have ht : t.val < 20 := by have h : t.val < grid3.N := t.isLt; rw [N_3] at h; exact h
  have hP : t.val * 5000 + p.val < 100000 := by have := p.isLt; omega
  have hE : ((cfg3.win 3).blk t).view.emb (ix2 p q) = (ix2 (⟨t.val * 5000 + p.val, hP⟩ : Fin 100000) q : S100000x128.Idx) := by
    funext a; apply Fin.ext
    match a with
    | ⟨0, _⟩ => show win3_3.index t (0 : Fin 2) * 5000 + 1 * p.val = t.val * 5000 + p.val; omega
    | ⟨1, _⟩ => show win3_3.index t (1 : Fin 2) * 128 + 1 * q.val = q.val; omega
  have hx : ∀ k : Fin 128, iblk3 V c 0 t (ix2 p k)
      = (V c main_v53 : S100000x128.Idx → EReal) (ix2 (⟨t.val * 5000 + p.val, hP⟩ : Fin 100000) k) := fun k => by
    show V c (Pipeline.arrRef spec3 0) (((cfg3.win 0).blk t).view.emb (ix2 p k)) = _
    refine congrArg (V c main_v53) ?_
    funext a; apply Fin.ext
    match a with
    | ⟨0, _⟩ => show win3_0.index t (0 : Fin 2) * 5000 + 1 * p.val = t.val * 5000 + p.val; omega
    | ⟨1, _⟩ => show win3_0.index t (1 : Fin 2) * 128 + 1 * k.val = k.val; omega
  have hw : ∀ k : Fin 128, iblk3 V c 1 t (ix2 k q) = (V c main_v55 : S128x128.Idx → EReal) (ix2 k q) := fun k => by
    show V c (Pipeline.arrRef spec3 1) (((cfg3.win 1).blk t).view.emb (ix2 k q)) = _
    refine congrArg (V c main_v55) ?_
    funext a; apply Fin.ext
    match a with
    | ⟨0, _⟩ => show win3_1.index t (0 : Fin 2) * 128 + 1 * k.val = k.val; omega
    | ⟨1, _⟩ => show win3_1.index t (1 : Fin 2) * 128 + 1 * q.val = q.val; omega
  have hb : iblk3 V c 2 t (ix1 q) = (V c main_v56 : S128.Idx → EReal) (ix1 q) := by
    show V c (Pipeline.arrRef spec3 2) (((cfg3.win 2).blk t).view.emb (ix1 q)) = _
    refine congrArg (V c main_v56) ?_
    funext a; apply Fin.ext
    match a with
    | ⟨0, _⟩ => show win3_2.index t (0 : Fin 1) * 128 + 1 * q.val = q.val; omega
  show _ = lin (N := 100000) (K := 128) (V c main_v53) (V c main_v55) (V c main_v56) (((cfg3.win 3).blk t).view.emb (ix2 p q))
  rw [hE, lin_apply, hb]
  exact congrArg (· + (V c main_v56 : S128.Idx → EReal) (ix1 q)) (Finset.sum_congr rfl fun k _ => by rw [hx k, hw k])

/-- An index of the array is in point t's block iff each coordinate is in the block's range on its axis. -/
theorem mem_blk (t : Fin cfg3.N) (i : S100000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v57).slice (win3_3.rect t)).set ↔ _
  rw [View.set_slice_whole, Rect.mem_set_unit]
  exact Iff.rfl

/-- Every row lies in the block of the point its number divided by 5000 names. -/
theorem cover (i : S100000x128.Idx) : ∃ t : Fin cfg3.N, (cfg3.win 3).flush t = true ∧ i ∈ ((cfg3.win 3).blk t).view.set := by
  have hi0 : (i 0).val < 100000 := (i 0).isLt
  have hi1 : (i 1).val < 128 := (i 1).isLt
  have hN : (i 0).val / 5000 < grid3.N := by rw [N_3]; omega
  obtain ⟨e00, e01, e10, e11, e20, e30, e31⟩ := idx ⟨(i 0).val / 5000, hN⟩
  have e30' : win3_3.index ⟨(i 0).val / 5000, hN⟩ (0 : Fin 2) = (i 0).val / 5000 := e30
  refine ⟨⟨(i 0).val / 5000, hN⟩, flush3_3 _, ?_⟩
  rw [mem_blk]
  intro a
  match a with
  | ⟨0, _⟩ => show win3_3.index ⟨(i 0).val / 5000, hN⟩ (0 : Fin 2) * 5000 ≤ (i 0).val ∧ (i 0).val < win3_3.index ⟨(i 0).val / 5000, hN⟩ (0 : Fin 2) * 5000 + 5000; omega
  | ⟨1, _⟩ => show win3_3.index ⟨(i 0).val / 5000, hN⟩ (1 : Fin 2) * 128 ≤ (i 1).val ∧ (i 1).val < win3_3.index ⟨(i 0).val / 5000, hN⟩ (1 : Fin 2) * 128 + 128; omega

/-- The region's result array after the region: the dense layer of the arrays the region found. -/
theorem final
    (hpay : ∀ (x0 : Vec Ideal S5000x128 .f32) (x1 : Vec Ideal S128x128 .f32) (x2 : Vec Ideal S128 .f32) (p : Fin 5000) (q : Fin 128),
      k3_pay1 (F := Ideal) x0 x1 x2 (ix2 p q) = (∑ k : Fin 128, x0 (ix2 p k) * x1 (ix2 k q)) + x2 (ix1 q))
    (c : Dev nD) :
    (dat3 (F := Ideal) V c).arrAt 3 cfg3.N = lin (N := 100000) (K := 128) (V c main_v53) (V c main_v55) (V c main_v56) :=
  (dat3 (F := Ideal) V c).arrAt_eq_of_cover 3 _ (fun t _ => flushed_eq V hpay c t) cover

end Cert.KernelIdeal.Blocks3

end
-- ==== Proof.Blocks4.lean ====
/-
  Region 4 (the second layer's normalisation, rectifier and residual sum), from blocks to the array.

  Grid point t handles rows 5000·t … 5000·t + 4999: it reads that block of rows of the aggregated messages and of the previous layer's output, the three
  128-vectors whole, and writes the same block of rows of the result. The normalisation works row by row, and a block's
  row p is the array's row 5000·t + p, so what the point writes back is the block of the whole-array layer; the twenty
  blocks cover the 100000 rows.
-/
import proofs.«158225_j51247549776507_1_alg».proof.Proof.Gen.KernelIdeal.Frame
import proofs.«158225_j51247549776507_1_alg».proof.Proof.ArraySpec
import Idealize.ShloMosaic.Lib.Pipeline.Value
import Idealize.ShloMosaic.Lib.ValueIdx

set_option maxRecDepth 16384

noncomputable section

open scoped BigOperators

namespace Cert.KernelIdeal.Blocks4

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.ArraySpec Cert.LayerSpec

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The block index of each window at grid point t: the row windows move with t, the vectors stay. -/
theorem idx : ∀ t : Fin cfg4.N, win4_0.index t (0 : Fin 2) = t.val ∧ win4_0.index t (1 : Fin 2) = 0
    ∧ win4_1.index t (0 : Fin 1) = 0 ∧ win4_2.index t (0 : Fin 1) = 0 ∧ win4_3.index t (0 : Fin 1) = 0
    ∧ win4_4.index t (0 : Fin 2) = t.val ∧ win4_4.index t (1 : Fin 2) = 0
    ∧ win4_5.index t (0 : Fin 2) = t.val ∧ win4_5.index t (1 : Fin 2) = 0 :=
  (by decide +kernel : ∀ t : Fin grid4.N, _)

set_option maxHeartbeats 4000000 in
/-- What point t writes back is block t of the layer of the arrays the region finds. -/
theorem flushed_eq
    (hpay : ∀ (x0 : Vec Ideal S5000x128 .f32) (x1 x2 x3 : Vec Ideal S128 .f32) (x4 : Vec Ideal S5000x128 .f32) (p : Fin 5000) (q : Fin 128),
      k4_pay1 (F := Ideal) x0 x1 x2 x3 x4 (ix2 p q) = lnRelu (fun k => x0 (ix2 p k) + x1 (ix1 k)) (fun k => x2 (ix1 k)) (fun k => x3 (ix1 k)) q + x4 (ix2 p q))
    (c : Dev nD) (t : Fin cfg4.N) :
    (dat4 (F := Ideal) V c).flushed 5 t = ((cfg4.win 5).blk t).view.read (Elt Ideal)
      (normRes (N := 100000) (V c main_v69) (V c main_v71) (V c main_v73) (V c main_v75) (V c main_v53)) := by
  show (cfg4.win 5).cut (grid4.coords t) ((dat4 V c).after 5 t) = _
  rw [after4_5]
  unfold out4_5
  rw [View.canon_unit_zero hz2]
  simp only [View.ld_unit_zero (S := S5000x128) hz2, View.ld_unit_zero (S := S128) hz1]
  obtain ⟨e00, e01, e1, e2, e3, e40, e41, eo0, eo1⟩ := idx t
  funext j
  obtain ⟨p, q, rfl⟩ : ∃ (p : Fin 5000) (q : Fin 128), j = ix2 p q := ⟨j 0, j 1, eq_ix2 j⟩
  refine (hpay (iblk4 V c 0 t) (iblk4 V c 1 t) (iblk4 V c 2 t) (iblk4 V c 3 t) (iblk4 V c 4 t) p q).trans ?_
  have ht : t.val < 20 := by have h : t.val < grid4.N := t.isLt; rw [N_4] at h; exact h
  have hP : t.val * 5000 + p.val < 100000 := by have := p.isLt; omega
  have hE : ((cfg4.win 5).blk t).view.emb (ix2 p q) = (ix2 (⟨t.val * 5000 + p.val, hP⟩ : Fin 100000) q : S100000x128.Idx) := by
    funext a; apply Fin.ext
    match a with
    | ⟨0, _⟩ => show win4_5.index t (0 : Fin 2) * 5000 + 1 * p.val = t.val * 5000 + p.val; omega
    | ⟨1, _⟩ => show win4_5.index t (1 : Fin 2) * 128 + 1 * q.val = q.val; omega
  have hx : ∀ k : Fin 128, iblk4 V c 0 t (ix2 p k)
      = (V c main_v69 : S100000x128.Idx → EReal) (ix2 (⟨t.val * 5000 + p.val, hP⟩ : Fin 100000) k) := fun k => by
    show V c (Pipeline.arrRef spec4 0) (((cfg4.win 0).blk t).view.emb (ix2 p k)) = _
    refine congrArg (V c main_v69) ?_
    funext a; apply Fin.ext
    match a with
    | ⟨0, _⟩ => show win4_0.index t (0 : Fin 2) * 5000 + 1 * p.val = t.val * 5000 + p.val; omega
    | ⟨1, _⟩ => show win4_0.index t (1 : Fin 2) * 128 + 1 * k.val = k.val; omega
  have h1 : ∀ k : Fin 128, iblk4 V c 1 t (ix1 k) = (V c main_v71 : S128.Idx → EReal) (ix1 k) := fun k => by
    show V c (Pipeline.arrRef spec4 1) (((cfg4.win 1).blk t).view.emb (ix1 k)) = _
    refine congrArg (V c main_v71) ?_
    funext a; apply Fin.ext
    match a with
    | ⟨0, _⟩ => show win4_1.index t (0 : Fin 1) * 128 + 1 * k.val = k.val; omega
  have h2 : ∀ k : Fin 128, iblk4 V c 2 t (ix1 k) = (V c main_v73 : S128.Idx → EReal) (ix1 k) := fun k => by
    show V c (Pipeline.arrRef spec4 2) (((cfg4.win 2).blk t).view.emb (ix1 k)) = _
    refine congrArg (V c main_v73) ?_
    funext a; apply Fin.ext
    match a with
    | ⟨0, _⟩ => show win4_2.index t (0 : Fin 1) * 128 + 1 * k.val = k.val; omega
  have h3 : ∀ k : Fin 128, iblk4 V c 3 t (ix1 k) = (V c main_v75 : S128.Idx → EReal) (ix1 k) := fun k => by
    show V c (Pipeline.arrRef spec4 3) (((cfg4.win 3).blk t).view.emb (ix1 k)) = _
    refine congrArg (V c main_v75) ?_
    funext a; apply Fin.ext
    match a with
    | ⟨0, _⟩ => show win4_3.index t (0 : Fin 1) * 128 + 1 * k.val = k.val; omega
  have h4 : ∀ k : Fin 128, iblk4 V c 4 t (ix2 p k)
      = (V c main_v53 : S100000x128.Idx → EReal) (ix2 (⟨t.val * 5000 + p.val, hP⟩ : Fin 100000) k) := fun k => by
    show V c (Pipeline.arrRef spec4 4) (((cfg4.win 4).blk t).view.emb (ix2 p k)) = _
    refine congrArg (V c main_v53) ?_
    funext a; apply Fin.ext
    match a with
    | ⟨0, _⟩ => show win4_4.index t (0 : Fin 2) * 5000 + 1 * p.val = t.val * 5000 + p.val; omega
    | ⟨1, _⟩ => show win4_4.index t (1 : Fin 2) * 128 + 1 * k.val = k.val; omega
  show _ = (normRes (N := 100000) (V c main_v69) (V c main_v71) (V c main_v73) (V c main_v75) (V c main_v53)) (((cfg4.win 5).blk t).view.emb (ix2 p q))
  rw [hE, normRes_apply]
  simp only [hx, h1, h2, h3, h4]

/-- An index of the array is in point t's block iff each coordinate is in the block's range on its axis. -/
theorem mem_blk (t : Fin cfg4.N) (i : S100000x128.Idx) :
    i ∈ ((cfg4.win 5).blk t).view.set ↔ ∀ a : Fin 2, win4_5.index t a * S5000x128.size a ≤ (i a).val ∧ (i a).val < win4_5.index t a * S5000x128.size a + S5000x128.size a := by
  show i ∈ ((View.whole main_v76).slice (win4_5.rect t)).set ↔ _
  rw [View.set_slice_whole, Rect.mem_set_unit]
  exact Iff.rfl

/-- Every row lies in the block of the point its number divided by 5000 names. -/
theorem cover (i : S100000x128.Idx) : ∃ t : Fin cfg4.N, (cfg4.win 5).flush t = true ∧ i ∈ ((cfg4.win 5).blk t).view.set := by
  have hi0 : (i 0).val < 100000 := (i 0).isLt
  have hi1 : (i 1).val < 128 := (i 1).isLt
  have hN : (i 0).val / 5000 < grid4.N := by rw [N_4]; omega
  obtain ⟨e00, e01, e1, e2, e3, e40, e41, eo0, eo1⟩ := idx ⟨(i 0).val / 5000, hN⟩
  have eo0' : win4_5.index ⟨(i 0).val / 5000, hN⟩ (0 : Fin 2) = (i 0).val / 5000 := eo0
  refine ⟨⟨(i 0).val / 5000, hN⟩, flush4_5 _, ?_⟩
  rw [mem_blk]
  intro a
  match a with
  | ⟨0, _⟩ => show win4_5.index ⟨(i 0).val / 5000, hN⟩ (0 : Fin 2) * 5000 ≤ (i 0).val ∧ (i 0).val < win4_5.index ⟨(i 0).val / 5000, hN⟩ (0 : Fin 2) * 5000 + 5000; omega
  | ⟨1, _⟩ => show win4_5.index ⟨(i 0).val / 5000, hN⟩ (1 : Fin 2) * 128 ≤ (i 1).val ∧ (i 1).val < win4_5.index ⟨(i 0).val / 5000, hN⟩ (1 : Fin 2) * 128 + 128; omega

/-- The region's result array after the region: the layer of the arrays the region found. -/
theorem final
    (hpay : ∀ (x0 : Vec Ideal S5000x128 .f32) (x1 x2 x3 : Vec Ideal S128 .f32) (x4 : Vec Ideal S5000x128 .f32) (p : Fin 5000) (q : Fin 128),
      k4_pay1 (F := Ideal) x0 x1 x2 x3 x4 (ix2 p q) = lnRelu (fun k => x0 (ix2 p k) + x1 (ix1 k)) (fun k => x2 (ix1 k)) (fun k => x3 (ix1 k)) q + x4 (ix2 p q))
    (c : Dev nD) :
    (dat4 (F := Ideal) V c).arrAt 5 cfg4.N = normRes (N := 100000) (V c main_v69) (V c main_v71) (V c main_v73) (V c main_v75) (V c main_v53) :=
  (dat4 (F := Ideal) V c).arrAt_eq_of_cover 5 _ (fun t _ => flushed_eq V hpay c t) cover

end Cert.KernelIdeal.Blocks4

end
-- ==== Proof.Blocks5.lean ====
/-
  Region 5 (the third layer's dense map), from blocks to the array.

  Grid point t handles rows 5000·t … 5000·t + 4999: it reads that block of rows of the left operand, the whole weight
  matrix and the whole bias vector, and writes the same block of rows of the result. A block's row p is the array's row
  5000·t + p, so what the point writes back is the block of the whole-array dense layer; the twenty blocks cover the
  100000 rows.
-/
import proofs.«158225_j51247549776507_1_alg».proof.Proof.Gen.KernelIdeal.Frame
import proofs.«158225_j51247549776507_1_alg».proof.Proof.ArraySpec
import Idealize.ShloMosaic.Lib.Pipeline.Value
import Idealize.ShloMosaic.Lib.ValueIdx

set_option maxRecDepth 16384

noncomputable section

open scoped BigOperators

namespace Cert.KernelIdeal.Blocks5

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.ArraySpec Cert.LayerSpec

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The block index of each window at grid point t: the row windows move with t, the others stay. -/
theorem idx : ∀ t : Fin cfg5.N, win5_0.index t (0 : Fin 2) = t.val ∧ win5_0.index t (1 : Fin 2) = 0
    ∧ win5_1.index t (0 : Fin 2) = 0 ∧ win5_1.index t (1 : Fin 2) = 0 ∧ win5_2.index t (0 : Fin 1) = 0
    ∧ win5_3.index t (0 : Fin 2) = t.val ∧ win5_3.index t (1 : Fin 2) = 0 :=
  (by decide +kernel : ∀ t : Fin grid5.N, _)

set_option maxHeartbeats 4000000 in
/-- What point t writes back is block t of the dense layer of the arrays the region finds. -/
theorem flushed_eq
    (hpay : ∀ (x0 : Vec Ideal S5000x128 .f32) (x1 : Vec Ideal S128x128 .f32) (x2 : Vec Ideal S128 .f32) (p : Fin 5000) (q : Fin 128),
      k5_pay1 (F := Ideal) x0 x1 x2 (ix2 p q) = (∑ k : Fin 128, x0 (ix2 p k) * x1 (ix2 k q)) + x2 (ix1 q))
    (c : Dev nD) (t : Fin cfg5.N) :
    (dat5 (F := Ideal) V c).flushed 3 t = ((cfg5.win 3).blk t).view.read (Elt Ideal)
      (lin (N := 100000) (K := 128) (V c main_v76) (V c main_v78) (V c main_v79)) := by
  show (cfg5.win 3).cut (grid5.coords t) ((dat5 V c).after 3 t) = _
  rw [after5_3]
  unfold out5_3
  rw [View.canon_unit_zero hz2]
  simp only [View.ld_unit_zero (S := S5000x128) hz2, View.ld_unit_zero (S := S128x128) hz2, View.ld_unit_zero (S := S128) hz1]
  obtain ⟨e00, e01, e10, e11, e20, e30, e31⟩ := idx t
  funext j
  obtain ⟨p, q, rfl⟩ : ∃ (p : Fin 5000) (q : Fin 128), j = ix2 p q := ⟨j 0, j 1, eq_ix2 j⟩
  refine (hpay (iblk5 V c 0 t) (iblk5 V c 1 t) (iblk5 V c 2 t) p q).trans ?_
  have ht : t.val < 20 := by have h : t.val < grid5.N := t.isLt; rw [N_5] at h; exact h
  have hP : t.val * 5000 + p.val < 100000 := by have := p.isLt; omega
  have hE : ((cfg5.win 3).blk t).view.emb (ix2 p q) = (ix2 (⟨t.val * 5000 + p.val, hP⟩ : Fin 100000) q : S100000x128.Idx) := by
    funext a; apply Fin.ext
    match a with
    | ⟨0, _⟩ => show win5_3.index t (0 : Fin 2) * 5000 + 1 * p.val = t.val * 5000 + p.val; omega
    | ⟨1, _⟩ => show win5_3.index t (1 : Fin 2) * 128 + 1 * q.val = q.val; omega
  have hx : ∀ k : Fin 128, iblk5 V c 0 t (ix2 p k)
      = (V c main_v76 : S100000x128.Idx → EReal) (ix2 (⟨t.val * 5000 + p.val, hP⟩ : Fin 100000) k) := fun k => by
    show V c (Pipeline.arrRef spec5 0) (((cfg5.win 0).blk t).view.emb (ix2 p k)) = _
    refine congrArg (V c main_v76) ?_
    funext a; apply Fin.ext
    match a with
    | ⟨0, _⟩ => show win5_0.index t (0 : Fin 2) * 5000 + 1 * p.val = t.val * 5000 + p.val; omega
    | ⟨1, _⟩ => show win5_0.index t (1 : Fin 2) * 128 + 1 * k.val = k.val; omega
  have hw : ∀ k : Fin 128, iblk5 V c 1 t (ix2 k q) = (V c main_v78 : S128x128.Idx → EReal) (ix2 k q) := fun k => by
    show V c (Pipeline.arrRef spec5 1) (((cfg5.win 1).blk t).view.emb (ix2 k q)) = _
    refine congrArg (V c main_v78) ?_
    funext a; apply Fin.ext
    match a with
    | ⟨0, _⟩ => show win5_1.index t (0 : Fin 2) * 128 + 1 * k.val = k.val; omega
    | ⟨1, _⟩ => show win5_1.index t (1 : Fin 2) * 128 + 1 * q.val = q.val; omega
  have hb : iblk5 V c 2 t (ix1 q) = (V c main_v79 : S128.Idx → EReal) (ix1 q) := by
    show V c (Pipeline.arrRef spec5 2) (((cfg5.win 2).blk t).view.emb (ix1 q)) = _
    refine congrArg (V c main_v79) ?_
    funext a; apply Fin.ext
    match a with
    | ⟨0, _⟩ => show win5_2.index t (0 : Fin 1) * 128 + 1 * q.val = q.val; omega
  show _ = lin (N := 100000) (K := 128) (V c main_v76) (V c main_v78) (V c main_v79) (((cfg5.win 3).blk t).view.emb (ix2 p q))
  rw [hE, lin_apply, hb]
  exact congrArg (· + (V c main_v79 : S128.Idx → EReal) (ix1 q)) (Finset.sum_congr rfl fun k _ => by rw [hx k, hw k])

/-- An index of the array is in point t's block iff each coordinate is in the block's range on its axis. -/
theorem mem_blk (t : Fin cfg5.N) (i : S100000x128.Idx) :
    i ∈ ((cfg5.win 3).blk t).view.set ↔ ∀ a : Fin 2, win5_3.index t a * S5000x128.size a ≤ (i a).val ∧ (i a).val < win5_3.index t a * S5000x128.size a + S5000x128.size a := by
  show i ∈ ((View.whole main_v80).slice (win5_3.rect t)).set ↔ _
  rw [View.set_slice_whole, Rect.mem_set_unit]
  exact Iff.rfl

/-- Every row lies in the block of the point its number divided by 5000 names. -/
theorem cover (i : S100000x128.Idx) : ∃ t : Fin cfg5.N, (cfg5.win 3).flush t = true ∧ i ∈ ((cfg5.win 3).blk t).view.set := by
  have hi0 : (i 0).val < 100000 := (i 0).isLt
  have hi1 : (i 1).val < 128 := (i 1).isLt
  have hN : (i 0).val / 5000 < grid5.N := by rw [N_5]; omega
  obtain ⟨e00, e01, e10, e11, e20, e30, e31⟩ := idx ⟨(i 0).val / 5000, hN⟩
  have e30' : win5_3.index ⟨(i 0).val / 5000, hN⟩ (0 : Fin 2) = (i 0).val / 5000 := e30
  refine ⟨⟨(i 0).val / 5000, hN⟩, flush5_3 _, ?_⟩
  rw [mem_blk]
  intro a
  match a with
  | ⟨0, _⟩ => show win5_3.index ⟨(i 0).val / 5000, hN⟩ (0 : Fin 2) * 5000 ≤ (i 0).val ∧ (i 0).val < win5_3.index ⟨(i 0).val / 5000, hN⟩ (0 : Fin 2) * 5000 + 5000; omega
  | ⟨1, _⟩ => show win5_3.index ⟨(i 0).val / 5000, hN⟩ (1 : Fin 2) * 128 ≤ (i 1).val ∧ (i 1).val < win5_3.index ⟨(i 0).val / 5000, hN⟩ (1 : Fin 2) * 128 + 128; omega

/-- The region's result array after the region: the dense layer of the arrays the region found. -/
theorem final
    (hpay : ∀ (x0 : Vec Ideal S5000x128 .f32) (x1 : Vec Ideal S128x128 .f32) (x2 : Vec Ideal S128 .f32) (p : Fin 5000) (q : Fin 128),
      k5_pay1 (F := Ideal) x0 x1 x2 (ix2 p q) = (∑ k : Fin 128, x0 (ix2 p k) * x1 (ix2 k q)) + x2 (ix1 q))
    (c : Dev nD) :
    (dat5 (F := Ideal) V c).arrAt 3 cfg5.N = lin (N := 100000) (K := 128) (V c main_v76) (V c main_v78) (V c main_v79) :=
  (dat5 (F := Ideal) V c).arrAt_eq_of_cover 3 _ (fun t _ => flushed_eq V hpay c t) cover

end Cert.KernelIdeal.Blocks5

end
-- ==== Proof.Blocks6.lean ====
/-
  Region 6 (the third layer's normalisation, rectifier and residual sum), from blocks to the array.

  Grid point t handles rows 5000·t … 5000·t + 4999: it reads that block of rows of the aggregated messages and of the previous layer's output, the three
  128-vectors whole, and writes the same block of rows of the result. The normalisation works row by row, and a block's
  row p is the array's row 5000·t + p, so what the point writes back is the block of the whole-array layer; the twenty
  blocks cover the 100000 rows.
-/
import proofs.«158225_j51247549776507_1_alg».proof.Proof.Gen.KernelIdeal.Frame
import proofs.«158225_j51247549776507_1_alg».proof.Proof.ArraySpec
import Idealize.ShloMosaic.Lib.Pipeline.Value
import Idealize.ShloMosaic.Lib.ValueIdx

set_option maxRecDepth 16384

noncomputable section

open scoped BigOperators

namespace Cert.KernelIdeal.Blocks6

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.ArraySpec Cert.LayerSpec

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The block index of each window at grid point t: the row windows move with t, the vectors stay. -/
theorem idx : ∀ t : Fin cfg6.N, win6_0.index t (0 : Fin 2) = t.val ∧ win6_0.index t (1 : Fin 2) = 0
    ∧ win6_1.index t (0 : Fin 1) = 0 ∧ win6_2.index t (0 : Fin 1) = 0 ∧ win6_3.index t (0 : Fin 1) = 0
    ∧ win6_4.index t (0 : Fin 2) = t.val ∧ win6_4.index t (1 : Fin 2) = 0
    ∧ win6_5.index t (0 : Fin 2) = t.val ∧ win6_5.index t (1 : Fin 2) = 0 :=
  (by decide +kernel : ∀ t : Fin grid6.N, _)

set_option maxHeartbeats 4000000 in
/-- What point t writes back is block t of the layer of the arrays the region finds. -/
theorem flushed_eq
    (hpay : ∀ (x0 : Vec Ideal S5000x128 .f32) (x1 x2 x3 : Vec Ideal S128 .f32) (x4 : Vec Ideal S5000x128 .f32) (p : Fin 5000) (q : Fin 128),
      k6_pay1 (F := Ideal) x0 x1 x2 x3 x4 (ix2 p q) = lnRelu (fun k => x0 (ix2 p k) + x1 (ix1 k)) (fun k => x2 (ix1 k)) (fun k => x3 (ix1 k)) q + x4 (ix2 p q))
    (c : Dev nD) (t : Fin cfg6.N) :
    (dat6 (F := Ideal) V c).flushed 5 t = ((cfg6.win 5).blk t).view.read (Elt Ideal)
      (normRes (N := 100000) (V c main_v92) (V c main_v94) (V c main_v96) (V c main_v98) (V c main_v76)) := by
  show (cfg6.win 5).cut (grid6.coords t) ((dat6 V c).after 5 t) = _
  rw [after6_5]
  unfold out6_5
  rw [View.canon_unit_zero hz2]
  simp only [View.ld_unit_zero (S := S5000x128) hz2, View.ld_unit_zero (S := S128) hz1]
  obtain ⟨e00, e01, e1, e2, e3, e40, e41, eo0, eo1⟩ := idx t
  funext j
  obtain ⟨p, q, rfl⟩ : ∃ (p : Fin 5000) (q : Fin 128), j = ix2 p q := ⟨j 0, j 1, eq_ix2 j⟩
  refine (hpay (iblk6 V c 0 t) (iblk6 V c 1 t) (iblk6 V c 2 t) (iblk6 V c 3 t) (iblk6 V c 4 t) p q).trans ?_
  have ht : t.val < 20 := by have h : t.val < grid6.N := t.isLt; rw [N_6] at h; exact h
  have hP : t.val * 5000 + p.val < 100000 := by have := p.isLt; omega
  have hE : ((cfg6.win 5).blk t).view.emb (ix2 p q) = (ix2 (⟨t.val * 5000 + p.val, hP⟩ : Fin 100000) q : S100000x128.Idx) := by
    funext a; apply Fin.ext
    match a with
    | ⟨0, _⟩ => show win6_5.index t (0 : Fin 2) * 5000 + 1 * p.val = t.val * 5000 + p.val; omega
    | ⟨1, _⟩ => show win6_5.index t (1 : Fin 2) * 128 + 1 * q.val = q.val; omega
  have hx : ∀ k : Fin 128, iblk6 V c 0 t (ix2 p k)
      = (V c main_v92 : S100000x128.Idx → EReal) (ix2 (⟨t.val * 5000 + p.val, hP⟩ : Fin 100000) k) := fun k => by
    show V c (Pipeline.arrRef spec6 0) (((cfg6.win 0).blk t).view.emb (ix2 p k)) = _
    refine congrArg (V c main_v92) ?_
    funext a; apply Fin.ext
    match a with
    | ⟨0, _⟩ => show win6_0.index t (0 : Fin 2) * 5000 + 1 * p.val = t.val * 5000 + p.val; omega
    | ⟨1, _⟩ => show win6_0.index t (1 : Fin 2) * 128 + 1 * k.val = k.val; omega
  have h1 : ∀ k : Fin 128, iblk6 V c 1 t (ix1 k) = (V c main_v94 : S128.Idx → EReal) (ix1 k) := fun k => by
    show V c (Pipeline.arrRef spec6 1) (((cfg6.win 1).blk t).view.emb (ix1 k)) = _
    refine congrArg (V c main_v94) ?_
    funext a; apply Fin.ext
    match a with
    | ⟨0, _⟩ => show win6_1.index t (0 : Fin 1) * 128 + 1 * k.val = k.val; omega
  have h2 : ∀ k : Fin 128, iblk6 V c 2 t (ix1 k) = (V c main_v96 : S128.Idx → EReal) (ix1 k) := fun k => by
    show V c (Pipeline.arrRef spec6 2) (((cfg6.win 2).blk t).view.emb (ix1 k)) = _
    refine congrArg (V c main_v96) ?_
    funext a; apply Fin.ext
    match a with
    | ⟨0, _⟩ => show win6_2.index t (0 : Fin 1) * 128 + 1 * k.val = k.val; omega
  have h3 : ∀ k : Fin 128, iblk6 V c 3 t (ix1 k) = (V c main_v98 : S128.Idx → EReal) (ix1 k) := fun k => by
    show V c (Pipeline.arrRef spec6 3) (((cfg6.win 3).blk t).view.emb (ix1 k)) = _
    refine congrArg (V c main_v98) ?_
    funext a; apply Fin.ext
    match a with
    | ⟨0, _⟩ => show win6_3.index t (0 : Fin 1) * 128 + 1 * k.val = k.val; omega
  have h4 : ∀ k : Fin 128, iblk6 V c 4 t (ix2 p k)
      = (V c main_v76 : S100000x128.Idx → EReal) (ix2 (⟨t.val * 5000 + p.val, hP⟩ : Fin 100000) k) := fun k => by
    show V c (Pipeline.arrRef spec6 4) (((cfg6.win 4).blk t).view.emb (ix2 p k)) = _
    refine congrArg (V c main_v76) ?_
    funext a; apply Fin.ext
    match a with
    | ⟨0, _⟩ => show win6_4.index t (0 : Fin 2) * 5000 + 1 * p.val = t.val * 5000 + p.val; omega
    | ⟨1, _⟩ => show win6_4.index t (1 : Fin 2) * 128 + 1 * k.val = k.val; omega
  show _ = (normRes (N := 100000) (V c main_v92) (V c main_v94) (V c main_v96) (V c main_v98) (V c main_v76)) (((cfg6.win 5).blk t).view.emb (ix2 p q))
  rw [hE, normRes_apply]
  simp only [hx, h1, h2, h3, h4]

/-- An index of the array is in point t's block iff each coordinate is in the block's range on its axis. -/
theorem mem_blk (t : Fin cfg6.N) (i : S100000x128.Idx) :
    i ∈ ((cfg6.win 5).blk t).view.set ↔ ∀ a : Fin 2, win6_5.index t a * S5000x128.size a ≤ (i a).val ∧ (i a).val < win6_5.index t a * S5000x128.size a + S5000x128.size a := by
  show i ∈ ((View.whole main_v99).slice (win6_5.rect t)).set ↔ _
  rw [View.set_slice_whole, Rect.mem_set_unit]
  exact Iff.rfl

/-- Every row lies in the block of the point its number divided by 5000 names. -/
theorem cover (i : S100000x128.Idx) : ∃ t : Fin cfg6.N, (cfg6.win 5).flush t = true ∧ i ∈ ((cfg6.win 5).blk t).view.set := by
  have hi0 : (i 0).val < 100000 := (i 0).isLt
  have hi1 : (i 1).val < 128 := (i 1).isLt
  have hN : (i 0).val / 5000 < grid6.N := by rw [N_6]; omega
  obtain ⟨e00, e01, e1, e2, e3, e40, e41, eo0, eo1⟩ := idx ⟨(i 0).val / 5000, hN⟩
  have eo0' : win6_5.index ⟨(i 0).val / 5000, hN⟩ (0 : Fin 2) = (i 0).val / 5000 := eo0
  refine ⟨⟨(i 0).val / 5000, hN⟩, flush6_5 _, ?_⟩
  rw [mem_blk]
  intro a
  match a with
  | ⟨0, _⟩ => show win6_5.index ⟨(i 0).val / 5000, hN⟩ (0 : Fin 2) * 5000 ≤ (i 0).val ∧ (i 0).val < win6_5.index ⟨(i 0).val / 5000, hN⟩ (0 : Fin 2) * 5000 + 5000; omega
  | ⟨1, _⟩ => show win6_5.index ⟨(i 0).val / 5000, hN⟩ (1 : Fin 2) * 128 ≤ (i 1).val ∧ (i 1).val < win6_5.index ⟨(i 0).val / 5000, hN⟩ (1 : Fin 2) * 128 + 128; omega

/-- The region's result array after the region: the layer of the arrays the region found. -/
theorem final
    (hpay : ∀ (x0 : Vec Ideal S5000x128 .f32) (x1 x2 x3 : Vec Ideal S128 .f32) (x4 : Vec Ideal S5000x128 .f32) (p : Fin 5000) (q : Fin 128),
      k6_pay1 (F := Ideal) x0 x1 x2 x3 x4 (ix2 p q) = lnRelu (fun k => x0 (ix2 p k) + x1 (ix1 k)) (fun k => x2 (ix1 k)) (fun k => x3 (ix1 k)) q + x4 (ix2 p q))
    (c : Dev nD) :
    (dat6 (F := Ideal) V c).arrAt 5 cfg6.N = normRes (N := 100000) (V c main_v92) (V c main_v94) (V c main_v96) (V c main_v98) (V c main_v76) :=
  (dat6 (F := Ideal) V c).arrAt_eq_of_cover 5 _ (fun t _ => flushed_eq V hpay c t) cover

end Cert.KernelIdeal.Blocks6

end
-- ==== Proof.KStages.lean ====
/-
  The kernel program's value, boundary by boundary.

  At each boundary between a stretch of host operations and a region, the buffers that matter hold: after the first
  stretch the graph arrays; after region 0 the input layer's output; then for each of the three layers the weight plane
  and a zero bias, the dense map's output, the propagated messages and the layer's three 128-vectors, and the layer's
  output. Each step is one of: a region's array read off its blocks (Blocks0 … Blocks6), a stretch of host operations
  read operation by operation, or a buffer nobody wrote in between. The last one is the network's result, Stages.h3.
-/
import proofs.«158225_j51247549776507_1_alg».proof.Proof.Gen.KernelIdeal.Frame
import proofs.«158225_j51247549776507_1_alg».proof.Proof.KernelKeep
import proofs.«158225_j51247549776507_1_alg».proof.Proof.GraphStage
import proofs.«158225_j51247549776507_1_alg».proof.Proof.PayFacts
import proofs.«158225_j51247549776507_1_alg».proof.Proof.Blocks0
import proofs.«158225_j51247549776507_1_alg».proof.Proof.Blocks1
import proofs.«158225_j51247549776507_1_alg».proof.Proof.Blocks2
import proofs.«158225_j51247549776507_1_alg».proof.Proof.Blocks3
import proofs.«158225_j51247549776507_1_alg».proof.Proof.Blocks4
import proofs.«158225_j51247549776507_1_alg».proof.Proof.Blocks5
import proofs.«158225_j51247549776507_1_alg».proof.Proof.Blocks6
import proofs.«158225_j51247549776507_1_alg».proof.Proof.Stages
import Idealize.ShloMosaic.Lib.StableHlo.Run
import Idealize.ShloMosaic.PureOps.Ideal.Laws

set_option maxRecDepth 16384

noncomputable section

open scoped BigOperators

namespace Cert.KernelIdeal.KStages

open Cert.KernelIdeal Cert.KernelIdeal.Gen Cert.KernelIdeal.Run Idealize.ShloMosaic Idealize.ShloMosaic.TcCoe Idealize.ShloMosaic.ValueIdx Idealize.SL.Sem Idealize.ShloMosaic.StableHlo

/-- A dense layer whose bias is zero everywhere is the dense map without bias. -/
theorem lin_zero (X : (⟨2, ![100000, 128]⟩ : Shape).Idx → EReal) (W : (⟨2, ![128, 128]⟩ : Shape).Idx → EReal)
    (z : (⟨1, ![128]⟩ : Shape).Idx → EReal) (hz : ∀ q : Fin 128, z (ix1 q) = 0) :
    Cert.ArraySpec.lin X W z = Cert.Stages.mm X W := by
  funext i
  exact (congrArg (fun t => (∑ k : Fin 128, X (ix2 (i 0) k) * W (ix2 k (i 1))) + t) (hz (i 1))).trans (add_zero _)

variable (P : PayFacts) (m : (ℓ : Loc nD τ sig) → Buf (Elt Ideal) ℓ) (ρ : Dev nD → PrngReg) (c : Dev nD)
include P

/-! ## The input layer -/

theorem v30 : (W2 m ρ c (Proc.devRef .tc main_v30) : (⟨S100000x128, .f32⟩ : BufTy).Contents (Elt Ideal)) = (Cert.Stages.h0 (m ((c : Thread nD τ).loc main_arg0)) (m ((c : Thread nD τ).loc main_arg2)) (m ((c : Thread nD τ).loc main_arg3))) := by
  refine ((W2_arr m ρ c 3).trans (Cert.KernelIdeal.Blocks0.final (V1 m ρ) P.lin0 c)).trans ?_
  show Cert.ArraySpec.lin (W1 m ρ c (Proc.devRef .tc main_arg0)) (W1 m ρ c (Proc.devRef .tc main_arg2)) (W1 m ρ c (Proc.devRef .tc main_arg3)) = _
  rw [W1_arg0 m ρ c, W1_arg2 m ρ c, W1_arg3 m ρ c]
  rfl

/-! ## Layer 1: the dense map -/

theorem v32 : (W3 m ρ c (Proc.devRef .tc main_v32) : (⟨S128x128, .f32⟩ : BufTy).Contents (Elt Ideal)) = Cert.Stages.plane0 (m ((c : Thread nD τ).loc main_arg4)) := by
  show StableHlo.after hostOps1 (W2 m ρ c) (Proc.devRef .tc main_v32) = _
  after_results_simp
  rw [W2_arg4 m ρ c]
  rfl

theorem v33 (q : Fin 128) : (W3 m ρ c (Proc.devRef .tc main_v33) : S128.Idx → EReal) (ix1 q) = (0 : EReal) := by
  show StableHlo.after hostOps1 (W2 m ρ c) (Proc.devRef .tc main_v33) (ix1 q) = _
  after_results_simp
  exact Ideal.ofBits_zero_f32

theorem v34 : (W4 m ρ c (Proc.devRef .tc main_v34) : (⟨S100000x128, .f32⟩ : BufTy).Contents (Elt Ideal)) = Cert.Stages.mm (Cert.Stages.h0 (m ((c : Thread nD τ).loc main_arg0)) (m ((c : Thread nD τ).loc main_arg2)) (m ((c : Thread nD τ).loc main_arg3))) (Cert.Stages.plane0 (m ((c : Thread nD τ).loc main_arg4))) := by
  refine ((W4_arr m ρ c 3).trans (Cert.KernelIdeal.Blocks1.final (V3 m ρ) P.lin1 c)).trans ?_
  show Cert.ArraySpec.lin (W3 m ρ c (Proc.devRef .tc main_v30)) (W3 m ρ c (Proc.devRef .tc main_v32)) (W3 m ρ c (Proc.devRef .tc main_v33)) = _
  rw [W3_v30 m ρ c, v30 P m ρ c, v32 P m ρ c]
  exact lin_zero _ _ _ (v33 P m ρ c)

/-! ## Layer 1: propagation, normalisation, rectifier -/

theorem v46 : (W5 m ρ c (Proc.devRef .tc main_v46) : (⟨S100000x128, .f32⟩ : BufTy).Contents (Elt Ideal)) = Cert.Stages.prop (Cert.Stages.src (m ((c : Thread nD τ).loc main_arg1))) (Cert.Stages.dst (m ((c : Thread nD τ).loc main_arg1))) (Cert.Stages.coef (m ((c : Thread nD τ).loc main_arg1))) (Cert.Stages.mm (Cert.Stages.h0 (m ((c : Thread nD τ).loc main_arg0)) (m ((c : Thread nD τ).loc main_arg2)) (m ((c : Thread nD τ).loc main_arg3))) (Cert.Stages.plane0 (m ((c : Thread nD τ).loc main_arg4)))) := by
  show StableHlo.after hostOps2 (W4 m ρ c) (Proc.devRef .tc main_v46) = _
  after_results_simp
  rw [W4_v3 m ρ c, W4_v6 m ρ c, W4_v29 m ρ c, Cert.KernelIdeal.GraphStage.W1_v3 m ρ c, Cert.KernelIdeal.GraphStage.W1_v6 m ρ c,
    Cert.KernelIdeal.GraphStage.W1_v29 m ρ c, v34 P m ρ c]
  rfl

theorem v48 : (W5 m ρ c (Proc.devRef .tc main_v48) : (⟨S128, .f32⟩ : BufTy).Contents (Elt Ideal)) = Cert.Stages.row0 (m ((c : Thread nD τ).loc main_arg5)) := by
  show StableHlo.after hostOps2 (W4 m ρ c) (Proc.devRef .tc main_v48) = _
  after_results_simp
  rw [W4_arg5 m ρ c]
  rfl

theorem v50 : (W5 m ρ c (Proc.devRef .tc main_v50) : (⟨S128, .f32⟩ : BufTy).Contents (Elt Ideal)) = Cert.Stages.row0 (m ((c : Thread nD τ).loc main_arg6)) := by
  show StableHlo.after hostOps2 (W4 m ρ c) (Proc.devRef .tc main_v50) = _
  after_results_simp
  rw [W4_arg6 m ρ c]
  rfl

theorem v52 : (W5 m ρ c (Proc.devRef .tc main_v52) : (⟨S128, .f32⟩ : BufTy).Contents (Elt Ideal)) = Cert.Stages.row0 (m ((c : Thread nD τ).loc main_arg7)) := by
  show StableHlo.after hostOps2 (W4 m ρ c) (Proc.devRef .tc main_v52) = _
  after_results_simp
  rw [W4_arg7 m ρ c]
  rfl

theorem v53 : (W6 m ρ c (Proc.devRef .tc main_v53) : (⟨S100000x128, .f32⟩ : BufTy).Contents (Elt Ideal)) = (Cert.Stages.h1 (Cert.Stages.src (m ((c : Thread nD τ).loc main_arg1))) (Cert.Stages.dst (m ((c : Thread nD τ).loc main_arg1))) (Cert.Stages.coef (m ((c : Thread nD τ).loc main_arg1))) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  refine ((W6_arr m ρ c 4).trans (Cert.KernelIdeal.Blocks2.final (V5 m ρ) P.norm2 c)).trans ?_
  show Cert.ArraySpec.norm (W5 m ρ c (Proc.devRef .tc main_v46)) (W5 m ρ c (Proc.devRef .tc main_v48)) (W5 m ρ c (Proc.devRef .tc main_v50)) (W5 m ρ c (Proc.devRef .tc main_v52)) = _
  rw [v46 P m ρ c, v48 P m ρ c, v50 P m ρ c, v52 P m ρ c]
  rfl

/-! ## Layer 2: the dense map -/

theorem v55 : (W7 m ρ c (Proc.devRef .tc main_v55) : (⟨S128x128, .f32⟩ : BufTy).Contents (Elt Ideal)) = Cert.Stages.plane1 (m ((c : Thread nD τ).loc main_arg4)) := by
  show StableHlo.after hostOps3 (W6 m ρ c) (Proc.devRef .tc main_v55) = _
  after_results_simp
  rw [W6_arg4 m ρ c]
  rfl

theorem v56 (q : Fin 128) : (W7 m ρ c (Proc.devRef .tc main_v56) : S128.Idx → EReal) (ix1 q) = (0 : EReal) := by
  show StableHlo.after hostOps3 (W6 m ρ c) (Proc.devRef .tc main_v56) (ix1 q) = _
  after_results_simp
  exact Ideal.ofBits_zero_f32

theorem v57 : (W8 m ρ c (Proc.devRef .tc main_v57) : (⟨S100000x128, .f32⟩ : BufTy).Contents (Elt Ideal)) = Cert.Stages.mm (Cert.Stages.h1 (Cert.Stages.src (m ((c : Thread nD τ).loc main_arg1))) (Cert.Stages.dst (m ((c : Thread nD τ).loc main_arg1))) (Cert.Stages.coef (m ((c : Thread nD τ).loc main_arg1))) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (Cert.Stages.plane1 (m ((c : Thread nD τ).loc main_arg4))) := by
  refine ((W8_arr m ρ c 3).trans (Cert.KernelIdeal.Blocks3.final (V7 m ρ) P.lin3 c)).trans ?_
  show Cert.ArraySpec.lin (W7 m ρ c (Proc.devRef .tc main_v53)) (W7 m ρ c (Proc.devRef .tc main_v55)) (W7 m ρ c (Proc.devRef .tc main_v56)) = _
  rw [W7_v53 m ρ c, v53 P m ρ c, v55 P m ρ c]
  exact lin_zero _ _ _ (v56 P m ρ c)

/-! ## Layer 2: propagation, normalisation, rectifier, residual sum -/

theorem v69 : (W9 m ρ c (Proc.devRef .tc main_v69) : (⟨S100000x128, .f32⟩ : BufTy).Contents (Elt Ideal)) = Cert.Stages.prop (Cert.Stages.src (m ((c : Thread nD τ).loc main_arg1))) (Cert.Stages.dst (m ((c : Thread nD τ).loc main_arg1))) (Cert.Stages.coef (m ((c : Thread nD τ).loc main_arg1))) (Cert.Stages.mm (Cert.Stages.h1 (Cert.Stages.src (m ((c : Thread nD τ).loc main_arg1))) (Cert.Stages.dst (m ((c : Thread nD τ).loc main_arg1))) (Cert.Stages.coef (m ((c : Thread nD τ).loc main_arg1))) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (Cert.Stages.plane1 (m ((c : Thread nD τ).loc main_arg4)))) := by
  show StableHlo.after hostOps4 (W8 m ρ c) (Proc.devRef .tc main_v69) = _
  after_results_simp
  rw [W8_v3 m ρ c, W8_v6 m ρ c, W8_v29 m ρ c, Cert.KernelIdeal.GraphStage.W1_v3 m ρ c, Cert.KernelIdeal.GraphStage.W1_v6 m ρ c,
    Cert.KernelIdeal.GraphStage.W1_v29 m ρ c, v57 P m ρ c]
  rfl

theorem v71 : (W9 m ρ c (Proc.devRef .tc main_v71) : (⟨S128, .f32⟩ : BufTy).Contents (Elt Ideal)) = Cert.Stages.row1 (m ((c : Thread nD τ).loc main_arg5)) := by
  show StableHlo.after hostOps4 (W8 m ρ c) (Proc.devRef .tc main_v71) = _
  after_results_simp
  rw [W8_arg5 m ρ c]
  rfl

theorem v73 : (W9 m ρ c (Proc.devRef .tc main_v73) : (⟨S128, .f32⟩ : BufTy).Contents (Elt Ideal)) = Cert.Stages.row1 (m ((c : Thread nD τ).loc main_arg6)) := by
  show StableHlo.after hostOps4 (W8 m ρ c) (Proc.devRef .tc main_v73) = _
  after_results_simp
  rw [W8_arg6 m ρ c]
  rfl

theorem v75 : (W9 m ρ c (Proc.devRef .tc main_v75) : (⟨S128, .f32⟩ : BufTy).Contents (Elt Ideal)) = Cert.Stages.row1 (m ((c : Thread nD τ).loc main_arg7)) := by
  show StableHlo.after hostOps4 (W8 m ρ c) (Proc.devRef .tc main_v75) = _
  after_results_simp
  rw [W8_arg7 m ρ c]
  rfl

theorem v76 : (W10 m ρ c (Proc.devRef .tc main_v76) : (⟨S100000x128, .f32⟩ : BufTy).Contents (Elt Ideal)) = (Cert.Stages.h2 (Cert.Stages.src (m ((c : Thread nD τ).loc main_arg1))) (Cert.Stages.dst (m ((c : Thread nD τ).loc main_arg1))) (Cert.Stages.coef (m ((c : Thread nD τ).loc main_arg1))) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  refine ((W10_arr m ρ c 5).trans (Cert.KernelIdeal.Blocks4.final (V9 m ρ) P.norm4 c)).trans ?_
  show Cert.ArraySpec.normRes (W9 m ρ c (Proc.devRef .tc main_v69)) (W9 m ρ c (Proc.devRef .tc main_v71)) (W9 m ρ c (Proc.devRef .tc main_v73)) (W9 m ρ c (Proc.devRef .tc main_v75)) (W9 m ρ c (Proc.devRef .tc main_v53)) = _
  rw [v69 P m ρ c, v71 P m ρ c, v73 P m ρ c, v75 P m ρ c, W9_v53 m ρ c, v53 P m ρ c]
  rfl

/-! ## Layer 3: the dense map -/

theorem v78 : (W11 m ρ c (Proc.devRef .tc main_v78) : (⟨S128x128, .f32⟩ : BufTy).Contents (Elt Ideal)) = Cert.Stages.plane2 (m ((c : Thread nD τ).loc main_arg4)) := by
  show StableHlo.after hostOps5 (W10 m ρ c) (Proc.devRef .tc main_v78) = _
  after_results_simp
  rw [W10_arg4 m ρ c]
  rfl

theorem v79 (q : Fin 128) : (W11 m ρ c (Proc.devRef .tc main_v79) : S128.Idx → EReal) (ix1 q) = (0 : EReal) := by
  show StableHlo.after hostOps5 (W10 m ρ c) (Proc.devRef .tc main_v79) (ix1 q) = _
  after_results_simp
  exact Ideal.ofBits_zero_f32

theorem v80 : (W12 m ρ c (Proc.devRef .tc main_v80) : (⟨S100000x128, .f32⟩ : BufTy).Contents (Elt Ideal)) = Cert.Stages.mm (Cert.Stages.h2 (Cert.Stages.src (m ((c : Thread nD τ).loc main_arg1))) (Cert.Stages.dst (m ((c : Thread nD τ).loc main_arg1))) (Cert.Stages.coef (m ((c : Thread nD τ).loc main_arg1))) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (Cert.Stages.plane2 (m ((c : Thread nD τ).loc main_arg4))) := by
  refine ((W12_arr m ρ c 3).trans (Cert.KernelIdeal.Blocks5.final (V11 m ρ) P.lin5 c)).trans ?_
  show Cert.ArraySpec.lin (W11 m ρ c (Proc.devRef .tc main_v76)) (W11 m ρ c (Proc.devRef .tc main_v78)) (W11 m ρ c (Proc.devRef .tc main_v79)) = _
  rw [W11_v76 m ρ c, v76 P m ρ c, v78 P m ρ c]
  exact lin_zero _ _ _ (v79 P m ρ c)

/-! ## Layer 3: propagation, normalisation, rectifier, residual sum -/

theorem v92 : (W13 m ρ c (Proc.devRef .tc main_v92) : (⟨S100000x128, .f32⟩ : BufTy).Contents (Elt Ideal)) = Cert.Stages.prop (Cert.Stages.src (m ((c : Thread nD τ).loc main_arg1))) (Cert.Stages.dst (m ((c : Thread nD τ).loc main_arg1))) (Cert.Stages.coef (m ((c : Thread nD τ).loc main_arg1))) (Cert.Stages.mm (Cert.Stages.h2 (Cert.Stages.src (m ((c : Thread nD τ).loc main_arg1))) (Cert.Stages.dst (m ((c : Thread nD τ).loc main_arg1))) (Cert.Stages.coef (m ((c : Thread nD τ).loc main_arg1))) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (Cert.Stages.plane2 (m ((c : Thread nD τ).loc main_arg4)))) := by
  show StableHlo.after hostOps6 (W12 m ρ c) (Proc.devRef .tc main_v92) = _
  after_results_simp
  rw [W12_v3 m ρ c, W12_v6 m ρ c, W12_v29 m ρ c, Cert.KernelIdeal.GraphStage.W1_v3 m ρ c, Cert.KernelIdeal.GraphStage.W1_v6 m ρ c,
    Cert.KernelIdeal.GraphStage.W1_v29 m ρ c, v80 P m ρ c]
  rfl

theorem v94 : (W13 m ρ c (Proc.devRef .tc main_v94) : (⟨S128, .f32⟩ : BufTy).Contents (Elt Ideal)) = Cert.Stages.row2 (m ((c : Thread nD τ).loc main_arg5)) := by
  show StableHlo.after hostOps6 (W12 m ρ c) (Proc.devRef .tc main_v94) = _
  after_results_simp
  rw [W12_arg5 m ρ c]
  rfl

theorem v96 : (W13 m ρ c (Proc.devRef .tc main_v96) : (⟨S128, .f32⟩ : BufTy).Contents (Elt Ideal)) = Cert.Stages.row2 (m ((c : Thread nD τ).loc main_arg6)) := by
  show StableHlo.after hostOps6 (W12 m ρ c) (Proc.devRef .tc main_v96) = _
  after_results_simp
  rw [W12_arg6 m ρ c]
  rfl

theorem v98 : (W13 m ρ c (Proc.devRef .tc main_v98) : (⟨S128, .f32⟩ : BufTy).Contents (Elt Ideal)) = Cert.Stages.row2 (m ((c : Thread nD τ).loc main_arg7)) := by
  show StableHlo.after hostOps6 (W12 m ρ c) (Proc.devRef .tc main_v98) = _
  after_results_simp
  rw [W12_arg7 m ρ c]
  rfl

theorem v99 : (W14 m ρ c (Proc.devRef .tc main_v99) : (⟨S100000x128, .f32⟩ : BufTy).Contents (Elt Ideal)) = (Cert.Stages.h3 (Cert.Stages.src (m ((c : Thread nD τ).loc main_arg1))) (Cert.Stages.dst (m ((c : Thread nD τ).loc main_arg1))) (Cert.Stages.coef (m ((c : Thread nD τ).loc main_arg1))) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  refine ((W14_arr m ρ c 5).trans (Cert.KernelIdeal.Blocks6.final (V13 m ρ) P.norm6 c)).trans ?_
  show Cert.ArraySpec.normRes (W13 m ρ c (Proc.devRef .tc main_v92)) (W13 m ρ c (Proc.devRef .tc main_v94)) (W13 m ρ c (Proc.devRef .tc main_v96)) (W13 m ρ c (Proc.devRef .tc main_v98)) (W13 m ρ c (Proc.devRef .tc main_v76)) = _
  rw [v92 P m ρ c, v94 P m ρ c, v96 P m ρ c, v98 P m ρ c, W13_v76 m ρ c, v76 P m ρ c]
  rfl

end Cert.KernelIdeal.KStages

end
-- ==== Proof.LibMatmulAt.lean ====
/-
  A plain matrix product read at an element.

  A contraction whose dimension numbers are those of an [R, K] × [K, C] matrix product (the left operand contracted on
  its axis 1, the right on its axis 0, no batch axis), accumulated into the zero splat, read at the element (p, q) is
  ∑ k, l(p, k) * r(k, q) over the extended reals. The statement is over ANY record of dimension numbers with those six
  lists, so that it applies to every record of that kind a program names, whatever its extents.
-/
import Idealize.ShloMosaic.PureOps.Ideal.Laws
import Idealize.ShloMosaic.Lib.ValueIdx

noncomputable section

namespace Cert.LibMatmulAt

open Idealize.ShloMosaic Idealize.ShloMosaic.ValueIdx

/-- The dimension numbers of an [R, K] × [K, C] matrix product, with its well-formedness proof a variable: every record
    with those six lists is this one. -/
abbrev plainOf {R K C : ℕ}
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ :=
  ⟨[1], [0], [0], [1], [], [], wf⟩

/-- The sum over the one-axis contraction index, re-indexed by that axis's coordinate, reads the left operand at (p, k)
    and the right operand at (k, q). -/
theorem plainOf_sum {R K C : ℕ} (wf : DotDims.WF ⟨2, ![R, K]⟩ ⟨2, ![K, C]⟩ ⟨2, ![R, C]⟩ [1] [0] [0] [1] [] [])
    (l : (⟨2, ![R, K]⟩ : Shape).Idx → EReal) (r : (⟨2, ![K, C]⟩ : Shape).Idx → EReal) (p : Fin R) (q : Fin C) :
    (∑ k : (plainOf wf).contr.Idx, l ((plainOf wf).lhsIdx (ix2 p q) k) * r ((plainOf wf).rhsIdx (ix2 p q) k))
      = ∑ k : Fin K, l (ix2 p k) * r (ix2 k q) := by
  have l0 : ∀ kk : (plainOf wf).contr.Idx, ((plainOf wf).lhsIdx (ix2 p q) kk 0).val = p.val := fun kk => by
    unfold DotDims.lhsIdx
    rw [dif_neg (show ¬(0 : Fin (⟨2, ![R, K]⟩ : Shape).rank) ∈ (plainOf wf).lhsBatch from List.not_mem_nil),
      dif_pos (show (0 : Fin (⟨2, ![R, K]⟩ : Shape).rank) ∈ (plainOf wf).lhsNonContracting from List.mem_singleton.mpr rfl)]
    rfl
  have r1 : ∀ kk : (plainOf wf).contr.Idx, ((plainOf wf).rhsIdx (ix2 p q) kk 1).val = q.val := fun kk => by
    unfold DotDims.rhsIdx
    rw [dif_neg (show ¬(1 : Fin (⟨2, ![K, C]⟩ : Shape).rank) ∈ (plainOf wf).rhsBatch from List.not_mem_nil),
      dif_pos (show (1 : Fin (⟨2, ![K, C]⟩ : Shape).rank) ∈ (plainOf wf).rhsNonContracting from List.mem_singleton.mpr rfl)]
    rfl
  rw [← Equiv.sum_comp (contrEquiv1 (plainOf wf) K rfl rfl).symm]
  refine Finset.sum_congr rfl fun k _ => ?_
  have hk := contrEquiv1_symm_val (plainOf wf) K rfl rfl k
  have el : (plainOf wf).lhsIdx (ix2 p q) ((contrEquiv1 (plainOf wf) K rfl rfl).symm k) = ix2 p k :=
    funext fun a => Fin.ext (by
      match a with
      | ⟨0, _⟩ => exact l0 _
      | ⟨1, _⟩ => exact ((plainOf wf).lhsIdx_val_of_single rfl _ _).trans hk)
  have er : (plainOf wf).rhsIdx (ix2 p q) ((contrEquiv1 (plainOf wf) K rfl rfl).symm k) = ix2 k q :=
    funext fun a => Fin.ext (by
      match a with
      | ⟨0, _⟩ => exact ((plainOf wf).rhsIdx_val_of_single rfl _ _).trans hk
      | ⟨1, _⟩ => exact r1 _)
  rw [el, er]

/-- A matrix product into the zero accumulator, for any record of dimension numbers with the six lists of an
    [R, K] × [K, C] product, read at (p, q): the sum over k of the left operand at (p, k) times the right at (k, q). -/
theorem matmul_zero_apply {R K C : ℕ} {φ₁ φ₂ : FTy} (D : DotDims ⟨2, ![R, K]⟩ ⟨2, ![K, C]⟩ ⟨2, ![R, C]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![R, K]⟩ φ₁) (r : FVec Ideal ⟨2, ![K, C]⟩ φ₂)
    (p : Fin R) (q : Fin C) :
    matmul D prec l r (constant (F := Ideal) ⟨2, ![R, C]⟩ .f32 0x00000000#32) (ix2 p q)
      = ∑ k : Fin K, l (ix2 p k) * r (ix2 k q) := by
  obtain ⟨lc, rc, ln, rn, lb, rb, wf⟩ := D
  dsimp only at hlc hrc hln hrn hlb hrb
  subst hlc hrc hln hrn hlb hrb
  exact (Ideal.matmul_constant_zero_apply (plainOf wf) prec l r (ix2 p q)).trans (plainOf_sum wf l r p q)

end Cert.LibMatmulAt

end
-- ==== Proof.KernelPayLin.lean ====
/-
  The dense layers' payloads read at an element.

  Each dense layer's stored value is a matrix product into the zero splat plus the bias vector set up as a row and
  repeated down the rows. Over the extended reals a change of float format is the identity, so entry (p, q) is
  ∑ k, x(p, k) * w(k, q) + b(q).
-/
import proofs.«158225_j51247549776507_1_alg».proof.Proof.Gen.KernelIdeal.Skeleton
import proofs.«158225_j51247549776507_1_alg».proof.Proof.LibMatmulAt
import Idealize.ShloMosaic.Lib.ValueIdx
import Idealize.ShloMosaic.Lib.ValueLayout
import Idealize.ShloMosaic.Lib.Pipeline.Value

noncomputable section

open scoped BigOperators

namespace Cert.KernelIdeal.Pay

open Cert.KernelIdeal Cert.KernelIdeal.Gen Idealize.ShloMosaic Idealize.ShloMosaic.ValueIdx

/-- The first dense layer, [5000, 16] × [16, 128] plus the bias, at (p, q). -/
theorem pay_lin0 (x0 : Vec Ideal S5000x16 .f32) (x1 : Vec Ideal S16x128 .f32) (x2 : Vec Ideal S128 .f32)
    (p : Fin 5000) (q : Fin 128) :
    k0_pay1 (F := Ideal) x0 x1 x2 (ix2 p q) = (∑ k : Fin 16, x0 (ix2 p k) * x1 (ix2 k q)) + x2 (ix1 q) := by
  unfold k0_pay1
  rw [addf_apply, Cert.LibMatmulAt.matmul_zero_apply _ rfl rfl rfl rfl rfl rfl, broadcastTo_1b_ab_apply,
    shapeCast_a_1a_apply]
  rfl

/-- The second dense layer, [5000, 128] × [128, 128] plus the bias, at (p, q); the casts of an array to its own shape are the identity. -/
theorem pay_lin1 (x0 : Vec Ideal S5000x128 .f32) (x1 : Vec Ideal S128x128 .f32) (x2 : Vec Ideal S128 .f32)
    (p : Fin 5000) (q : Fin 128) :
    k1_pay1 (F := Ideal) x0 x1 x2 (ix2 p q) = (∑ k : Fin 128, x0 (ix2 p k) * x1 (ix2 k q)) + x2 (ix1 q) := by
  unfold k1_pay1
  simp only [shapeCast_self]
  rw [addf_apply, Cert.LibMatmulAt.matmul_zero_apply _ rfl rfl rfl rfl rfl rfl, broadcastTo_1b_ab_apply,
    shapeCast_a_1a_apply]
  rfl

/-- The third dense layer at (p, q). -/
theorem pay_lin3 (x0 : Vec Ideal S5000x128 .f32) (x1 : Vec Ideal S128x128 .f32) (x2 : Vec Ideal S128 .f32)
    (p : Fin 5000) (q : Fin 128) :
    k3_pay1 (F := Ideal) x0 x1 x2 (ix2 p q) = (∑ k : Fin 128, x0 (ix2 p k) * x1 (ix2 k q)) + x2 (ix1 q) := by
  unfold k3_pay1
  simp only [shapeCast_self]
  rw [addf_apply, Cert.LibMatmulAt.matmul_zero_apply _ rfl rfl rfl rfl rfl rfl, broadcastTo_1b_ab_apply,
    shapeCast_a_1a_apply]
  rfl

/-- The fourth dense layer at (p, q). -/
theorem pay_lin5 (x0 : Vec Ideal S5000x128 .f32) (x1 : Vec Ideal S128x128 .f32) (x2 : Vec Ideal S128 .f32)
    (p : Fin 5000) (q : Fin 128) :
    k5_pay1 (F := Ideal) x0 x1 x2 (ix2 p q) = (∑ k : Fin 128, x0 (ix2 p k) * x1 (ix2 k q)) + x2 (ix1 q) := by
  unfold k5_pay1
  simp only [shapeCast_self]
  rw [addf_apply, Cert.LibMatmulAt.matmul_zero_apply _ rfl rfl rfl rfl rfl rfl, broadcastTo_1b_ab_apply,
    shapeCast_a_1a_apply]
  rfl

end Cert.KernelIdeal.Pay

end
-- ==== Proof.LibColumn.lean ====
/-
  Columns and rows of small shapes read at an index.

  A column `[a, 1]` stretched along its unit axis to `[a, b]` reads, at `(p, c)`, its entry `(p, 0)`; a row
  `[1, b]` stretched to `[a, b]` reads its entry `(0, c)`; a vector `[a]` set up as a column `[a, 1]` (by a cast, or by
  a broadcast that names its one axis) or as a row `[1, a]` reads its entry `p`; a scalar stretched to any shape reads
  its one entry.  These are the host's `broadcast_in_dim` and the vector unit's `broadcast` / `shape_cast` in the
  forms a "keep the axis" reduction or a bias produces.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A column `[a, 1]` broadcast (vector unit) to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (host) along axes `[0, 1]` to `[a, b]` reads, at `(p, c)`, the column's entry `p`. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (host) along axes `[0, 1]` to `[a, b]` reads, at `(p, c)`, the row's entry `c`. -/
theorem bcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast (host) along axis `[1]` to a row `[1, b]` reads, at `(u, c)`, the vector's entry `c`. -/
theorem bcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[a]` broadcast (host) along axis `[0]` to a column `[a, 1]` reads, at `(p, u)`, the vector's entry `p`. -/
theorem bcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector `[a]` cast to a column `[a, 1]` reads, at `(p, u)`, the vector's entry `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- So the cast of a vector to a column and its broadcast to a column are one array. -/
theorem shapeCast_a_a1_eq_bcastInDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext j
  obtain ⟨p, u, rfl⟩ : ∃ (p : Fin a) (u : Fin 1), j = ix2 p u := ⟨j 0, j 1, eq_ix2 j⟩
  rw [shapeCast_a_a1_apply, bcastInDim_a_a1_apply]

/-- A scalar broadcast (host) to any shape reads its one entry everywhere. -/
theorem bcastInDim_scalar_apply {t : Shape} (v : (⟨0, ![]⟩ : Shape).Idx → α)
    (h : (⟨0, ![]⟩ : Shape).BroadcastsInDim t (![] : Fin 0 → Fin t.rank)) (j : t.Idx) (k : (⟨0, ![]⟩ : Shape).Idx) :
    broadcastInDim t ![] h v j = v k :=
  broadcastInDim_apply ![] h v j k fun ax => ax.elim0

end Cert.LibColumn
-- ==== Proof.LibRowReduce.lean ====
/- Row reductions of a two-axis array kept as a column and repeated along the rows, read at an index over the extended reals:
   the lane sum of row p is the plain sum over the row, the lane maximum the fold of max over the row from the initial word; a
   length-a vector cast to an a × 1 column and broadcast to a × b reads, at (p, q), the vector's entry p; a 1 × 1 array broadcast
   to a × b reads its one entry everywhere. Names no program. -/
import proofs.«158225_j51247549776507_1_alg».proof.Proof.LibColumn
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.LibRowReduce

open Idealize.ShloMosaic Idealize.ShloMosaic.ValueIdx

variable {a b : ℕ}

/-- Result index p of a reduction along the second axis, with the dropped coordinate k put back, is (p, k). -/
theorem lift_row (h : (⟨2, ![a, b]⟩ : Shape).Reduces [(1 : Fin 2)] ⟨1, ![a]⟩) (p : Fin a) (k : Fin b) :
    h.lift (ix1 p) k = ix2 p k := by
  funext c
  apply Fin.ext
  match c with
  | ⟨0, _⟩ => rfl
  | ⟨1, _⟩ => rfl

/-- The lane sum of row p. -/
theorem rowSum_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (p : Fin a) :
    multiReduction .add [(1 : Fin 2)] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The lane maximum of row p: max folded over the row from the initial word. -/
theorem rowMax_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (p : Fin a) :
    multiReduction .maximumf [(1 : Fin 2)] ⟨1, ![a]⟩ src acc h hφ hacc (ix1 p)
      = (Finset.univ : Finset (Fin b)).fold max (FloatOps.ofBits (F := Ideal) φ acc) (fun k => src (ix2 p k)) :=
  (Ideal.multiReduction_maximumf_single src acc h hφ hacc (ix1 p)).trans
    (congrArg (fun f => (Finset.univ : Finset (Fin b)).fold max (FloatOps.ofBits (F := Ideal) φ acc) f)
      (funext fun k => congrArg src (lift_row h p k)))

variable {α : Type}

/-- A vector kept as a column and repeated along the rows reads, at (p, q), its entry p. -/
theorem column_repeat_apply {b' : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b']⟩) (p : Fin a) (q : Fin b') :
    broadcastTo ⟨2, ![a, b']⟩ (shapeCast ⟨2, ![a, 1]⟩ v hc) hb (ix2 p q) = v (ix1 p) :=
  (Cert.LibColumn.broadcastTo_a1_ab_apply _ hb p q).trans (Cert.LibColumn.shapeCast_a_a1_apply v hc p 0)

/-- A 1 × 1 array repeated over a × b reads its one entry everywhere. -/
theorem broadcastTo_11_ab_apply (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

end Cert.LibRowReduce

end
-- ==== Proof.KernelPayRow.lean ====
/-
  The pieces of a row normalisation read at an element.

  For a block v of 5000 rows of 128 lanes over the extended reals: the lane sum of row p is ∑ k, v(p, k); kept as a
  column, divided entrywise by a constant column and repeated along the lanes it reads, at (p, q), that sum over the
  constant; the same column with a second constant added and the reciprocal square root taken reads the reciprocal
  square root of (the sum over the first constant, plus the second); and a vector of 128 set up as a row and repeated
  down the rows reads, at (p, q), its entry q.
-/
import proofs.«158225_j51247549776507_1_alg».proof.Proof.Gen.KernelIdeal.Skeleton
import proofs.«158225_j51247549776507_1_alg».proof.Proof.LayerSpec
import proofs.«158225_j51247549776507_1_alg».proof.Proof.LibColumn
import proofs.«158225_j51247549776507_1_alg».proof.Proof.LibRowReduce
import Idealize.ShloMosaic.Lib.ValueIdx
import Idealize.ShloMosaic.Lib.ValueLayout
import Idealize.ShloMosaic.Lib.Pipeline.Value

noncomputable section

open scoped BigOperators

namespace Cert.KernelIdeal.Pay

open Cert.KernelIdeal Cert.KernelIdeal.Gen Idealize.ShloMosaic Idealize.ShloMosaic.ValueIdx

/-- A vector of 128 set up as a row and repeated down the 5000 rows reads, at (p, q), its entry q. -/
theorem row_repeat_apply {α : Type} (b : S128.Idx → α) (p : Fin 5000) (q : Fin 128) :
    broadcastTo S5000x128 (shapeCast S1x128 b shapeCasts_S128_S1x128) broadcasts_S1x128_S5000x128 (ix2 p q)
      = b (ix1 q) :=
  (broadcastTo_1b_ab_apply _ _ p q).trans (shapeCast_a_1a_apply b _ 0 q)

/-- The lane sum of row p. The two side conditions of the reduction (the format admits a sum; the initial word is the
    sum's neutral word, here literally the zero word) are variables, so that the statement applies whatever proofs
    of them a program carries. -/
theorem laneSum_apply (v : FVec Ideal S5000x128 .f32) (hφ : FKind.Formats .f32)
    (hacc : (0x00000000#32 : BitVec 32) = 0x00000000#32) (p : Fin 5000) :
    multiReduction .add [1] S5000 v 0x00000000#32 reduces_S5000x128_S5000 hφ hacc (ix1 p)
      = ∑ k : Fin 128, v (ix2 p k) :=
  Cert.LibRowReduce.rowSum_apply v _ _ _ _ p

/-- The column of lane sums over a constant, at (p, 0). -/
theorem meanCol_apply (v : FVec Ideal S5000x128 .f32) (hφ : FKind.Formats .f32)
    (hacc : (0x00000000#32 : BitVec 32) = 0x00000000#32) (c : Ideal .f32) (p : Fin 5000) :
    divf (shapeCast S5000x1 (multiReduction .add [1] S5000 v 0x00000000#32 reduces_S5000x128_S5000 hφ hacc)
        shapeCasts_S5000_S5000x1) (broadcast S5000x1 c) (ix2 p (0 : Fin 1))
      = Ideal.div (∑ k : Fin 128, v (ix2 p k)) c := by
  rw [divf_apply, Cert.LibColumn.shapeCast_a_a1_apply, laneSum_apply, broadcast_apply]

/-- That column repeated along the lanes, at (p, q). -/
theorem meanBlock_apply (v : FVec Ideal S5000x128 .f32) (hφ : FKind.Formats .f32)
    (hacc : (0x00000000#32 : BitVec 32) = 0x00000000#32) (c : Ideal .f32) (p : Fin 5000) (q : Fin 128) :
    broadcastTo S5000x128
        (divf (shapeCast S5000x1 (multiReduction .add [1] S5000 v 0x00000000#32 reduces_S5000x128_S5000 hφ hacc)
          shapeCasts_S5000_S5000x1) (broadcast S5000x1 c)) broadcasts_S5000x1_S5000x128 (ix2 p q)
      = Ideal.div (∑ k : Fin 128, v (ix2 p k)) c :=
  (Cert.LibColumn.broadcastTo_a1_ab_apply _ _ p q).trans (meanCol_apply v hφ hacc c p)

/-- The column of lane sums over a constant, plus a second constant, under the reciprocal square root, repeated along
    the lanes, at (p, q). -/
theorem scaleBlock_apply (w : FVec Ideal S5000x128 .f32) (hφ : FKind.Formats .f32)
    (hacc : (0x00000000#32 : BitVec 32) = 0x00000000#32) (c e : Ideal .f32) (p : Fin 5000) (q : Fin 128) :
    broadcastTo S5000x128
        (rsqrt (addf
          (divf (shapeCast S5000x1 (multiReduction .add [1] S5000 w 0x00000000#32 reduces_S5000x128_S5000 hφ hacc)
            shapeCasts_S5000_S5000x1) (broadcast S5000x1 c))
          (broadcast S5000x1 e))) broadcasts_S5000x1_S5000x128 (ix2 p q)
      = Ideal.rsqrt (Ideal.div (∑ k : Fin 128, w (ix2 p k)) c + e) := by
  refine (Cert.LibColumn.broadcastTo_a1_ab_apply _ _ p q).trans ?_
  exact congrArg (fun t : EReal => Ideal.rsqrt (t + e)) (meanCol_apply w hφ hacc c p)

/-! ## A row of the block against the row function

Below, row p of the block v is the function r of the lane, and the constants are the words for 128 and ε that the
layer specification names. -/

/-- The block minus its rows' means, at (p, q): the entry minus the row's mean. -/
theorem centred_apply (v : FVec Ideal S5000x128 .f32) (hφ : FKind.Formats .f32)
    (hacc : (0x00000000#32 : BitVec 32) = 0x00000000#32) (r : Fin 128 → EReal) (p : Fin 5000)
    (hr : ∀ k : Fin 128, v (ix2 p k) = r k) (q : Fin 128) :
    subf v (broadcastTo S5000x128
        (divf (shapeCast S5000x1 (multiReduction .add [1] S5000 v 0x00000000#32 reduces_S5000x128_S5000 hφ hacc)
          shapeCasts_S5000_S5000x1) (broadcast S5000x1 (Scalar.ofBits .f32 0x43000000#32)))
        broadcasts_S5000x1_S5000x128) (ix2 p q)
      = r q - Cert.LayerSpec.mean r := by
  rw [subf_apply, meanBlock_apply, hr q, Finset.sum_congr rfl fun k _ => hr k]
  rfl

/-- The reciprocal square root of the rows' variances plus ε, repeated along the lanes, at (p, q), where the
    variance is the lane sum of the squared centred block over 128. -/
theorem scale_apply (hφ : FKind.Formats .f32)
    (hacc : (0x00000000#32 : BitVec 32) = 0x00000000#32) (C : FVec Ideal S5000x128 .f32) (r : Fin 128 → EReal)
    (p : Fin 5000) (q : Fin 128) (hC : ∀ k : Fin 128, C (ix2 p k) = r k - Cert.LayerSpec.mean r) :
    broadcastTo S5000x128
        (rsqrt (addf
          (divf (shapeCast S5000x1 (multiReduction .add [1] S5000 (mulf C C) 0x00000000#32 reduces_S5000x128_S5000 hφ hacc)
            shapeCasts_S5000_S5000x1) (broadcast S5000x1 (Scalar.ofBits .f32 0x43000000#32)))
          (broadcast S5000x1 (Scalar.ofBits .f32 0x3727C5AC#32)))) broadcasts_S5000x1_S5000x128 (ix2 p q)
      = Ideal.rsqrt (Cert.LayerSpec.var r + Cert.LayerSpec.eps) := by
  rw [scaleBlock_apply, Finset.sum_congr rfl fun k _ => show mulf C C (ix2 p k) = _ from by rw [mulf_apply, hC k]]
  rfl

end Cert.KernelIdeal.Pay

end
-- ==== Proof.KernelPayNorm.lean ====
/-
  The normalising layers' payloads read at an element.

  Each normalising layer adds a bias row to its block, subtracts from every row its mean over the 128 lanes, scales by
  the reciprocal square root of the row's variance plus ε, multiplies by a scale row, adds a shift row and takes the
  maximum with zero; the later two add the previous layer's block. At (p, q) that is the row function of the layer
  specification at the biased row p, entry q.
-/
import proofs.«158225_j51247549776507_1_alg».proof.Proof.Gen.KernelIdeal.Skeleton
import proofs.«158225_j51247549776507_1_alg».proof.Proof.LayerSpec
import proofs.«158225_j51247549776507_1_alg».proof.Proof.KernelPayRow
import Idealize.ShloMosaic.Lib.ValueIdx
import Idealize.ShloMosaic.Lib.Pipeline.Value

noncomputable section

open scoped BigOperators

namespace Cert.KernelIdeal.Pay

open Cert.KernelIdeal Cert.KernelIdeal.Gen Idealize.ShloMosaic Idealize.ShloMosaic.ValueIdx

/-- The first normalising layer at (p, q). -/
theorem pay_norm2 (x0 : Vec Ideal S5000x128 .f32) (x1 x2 x3 : Vec Ideal S128 .f32) (p : Fin 5000) (q : Fin 128) :
    k2_pay1 (F := Ideal) x0 x1 x2 x3 (ix2 p q)
      = Cert.LayerSpec.lnRelu (fun k => x0 (ix2 p k) + x1 (ix1 k)) (fun k => x2 (ix1 k)) (fun k => x3 (ix1 k)) q := by
  have hr : ∀ k : Fin 128,
      addf (F := Ideal) (s := S5000x128) (φ := .f32) x0
          (broadcastTo S5000x128 (shapeCast S1x128 x1 shapeCasts_S128_S1x128) broadcasts_S1x128_S5000x128) (ix2 p k)
        = x0 (ix2 p k) + x1 (ix1 k) := fun k => by rw [addf_apply, row_repeat_apply]
  unfold k2_pay1
  simp only [shapeCast_self]
  rw [maximumf_apply, addf_apply, mulf_apply, mulf_apply,
    centred_apply _ _ _ (fun k => x0 (ix2 p k) + x1 (ix1 k)) p hr q,
    scale_apply _ _ _ (fun k => x0 (ix2 p k) + x1 (ix1 k)) p q,
    row_repeat_apply, row_repeat_apply, broadcast_apply]
  · rfl
  · exact fun k => centred_apply _ _ _ _ p hr k

/-- The second normalising layer at (p, q): the same row function plus the previous layer's entry. -/
theorem pay_norm4 (x0 : Vec Ideal S5000x128 .f32) (x1 x2 x3 : Vec Ideal S128 .f32) (x4 : Vec Ideal S5000x128 .f32)
    (p : Fin 5000) (q : Fin 128) :
    k4_pay1 (F := Ideal) x0 x1 x2 x3 x4 (ix2 p q)
      = Cert.LayerSpec.lnRelu (fun k => x0 (ix2 p k) + x1 (ix1 k)) (fun k => x2 (ix1 k)) (fun k => x3 (ix1 k)) q
        + x4 (ix2 p q) := by
  have hr : ∀ k : Fin 128,
      addf (F := Ideal) (s := S5000x128) (φ := .f32) x0
          (broadcastTo S5000x128 (shapeCast S1x128 x1 shapeCasts_S128_S1x128) broadcasts_S1x128_S5000x128) (ix2 p k)
        = x0 (ix2 p k) + x1 (ix1 k) := fun k => by rw [addf_apply, row_repeat_apply]
  unfold k4_pay1
  simp only [shapeCast_self]
  rw [addf_apply, maximumf_apply, addf_apply, mulf_apply, mulf_apply,
    centred_apply _ _ _ (fun k => x0 (ix2 p k) + x1 (ix1 k)) p hr q,
    scale_apply _ _ _ (fun k => x0 (ix2 p k) + x1 (ix1 k)) p q,
    row_repeat_apply, row_repeat_apply, broadcast_apply]
  · rfl
  · exact fun k => centred_apply _ _ _ _ p hr k

/-- The third normalising layer at (p, q). -/
theorem pay_norm6 (x0 : Vec Ideal S5000x128 .f32) (x1 x2 x3 : Vec Ideal S128 .f32) (x4 : Vec Ideal S5000x128 .f32)
    (p : Fin 5000) (q : Fin 128) :
    k6_pay1 (F := Ideal) x0 x1 x2 x3 x4 (ix2 p q)
      = Cert.LayerSpec.lnRelu (fun k => x0 (ix2 p k) + x1 (ix1 k)) (fun k => x2 (ix1 k)) (fun k => x3 (ix1 k)) q
        + x4 (ix2 p q) := by
  have hr : ∀ k : Fin 128,
      addf (F := Ideal) (s := S5000x128) (φ := .f32) x0
          (broadcastTo S5000x128 (shapeCast S1x128 x1 shapeCasts_S128_S1x128) broadcasts_S1x128_S5000x128) (ix2 p k)
        = x0 (ix2 p k) + x1 (ix1 k) := fun k => by rw [addf_apply, row_repeat_apply]
  unfold k6_pay1
  simp only [shapeCast_self]
  rw [addf_apply, maximumf_apply, addf_apply, mulf_apply, mulf_apply,
    centred_apply _ _ _ (fun k => x0 (ix2 p k) + x1 (ix1 k)) p hr q,
    scale_apply _ _ _ (fun k => x0 (ix2 p k) + x1 (ix1 k)) p q,
    row_repeat_apply, row_repeat_apply, broadcast_apply]
  · rfl
  · exact fun k => centred_apply _ _ _ _ p hr k

end Cert.KernelIdeal.Pay

end
-- ==== Proof.KernelPay.lean ====
/-
  The seven payloads of the layer kernels read at an element (p, q), over the extended reals.

  The four dense layers: ∑ k, x(p, k) * w(k, q) + b(q)  (`pay_lin0`, `pay_lin1`, `pay_lin3`, `pay_lin5`).
  The three normalising layers: the layer specification's row function at the biased row p, entry q, the later two
  plus the previous layer's entry  (`pay_norm2`, `pay_norm4`, `pay_norm6`).
-/
import proofs.«158225_j51247549776507_1_alg».proof.Proof.KernelPayLin
import proofs.«158225_j51247549776507_1_alg».proof.Proof.KernelPayNorm
-- ==== Proof.RefStages.lean ====
/- The reference's @main cut into eleven consecutive stretches of its operations, and what each stretch leaves alone.

   The reference's operations are in static single assignment form: each buffer is written by exactly one operation. So
   the fold of all 220 operations over the launch contents can be read stretch by stretch: the contents after stretch j
   are the fold of stretch j over the contents after stretch j - 1, and a buffer that stretch j does not write holds after
   it what it held before. The stretches are: the graph's index and coefficient arrays; the input layer; then, three
   times, a dense map, a propagation step and a normalising layer. -/
import proofs.«158225_j51247549776507_1_alg».proof.Proof.RefRun

noncomputable section

namespace Cert.ReferenceIdeal.RefStages

open Cert.ReferenceIdeal Cert.ReferenceIdeal.Gen Idealize.ShloMosaic Idealize.ShloMosaic.TcCoe Idealize.SL.Sem Idealize.ShloMosaic.StableHlo

variable {F : FTy → Type} [FloatOps F]

/-- The fold over two lists run one after the other is the second's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## The eleven stretches -/

/-- Operations 0 … 36: the graph's arrays (`main_v0` … `main_v29`). -/
abbrev T0 : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x3F800000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (maximumf : (⟨S100000, .f32⟩ : BufTy).Contents (Elt F) → (⟨S100000, .f32⟩ : BufTy).Contents (Elt F) → (⟨S100000, .f32⟩ : BufTy).Contents (Elt F)),
    unary main_v12 main_v13 (Host.rsqrt : (⟨S100000, .f32⟩ : BufTy).Contents (Elt F) → (⟨S100000, .f32⟩ : BufTy).Contents (Elt F)),
    nullary main_c (constantI S_ 32 0#32),
    unary main_c main_v14 (broadcastInDim S1700000 ![] bcast_S_S1700000 : (⟨S_, .i32⟩ : BufTy).Contents (Elt F) → (⟨S1700000, .i32⟩ : BufTy).Contents (Elt F)),
    binary main_v3 main_v14 main_v15 (cmpi .slt : (⟨S1700000, .i32⟩ : BufTy).Contents (Elt F) → (⟨S1700000, .i32⟩ : BufTy).Contents (Elt F) → (⟨S1700000, .i1⟩ : BufTy).Contents (Elt F)),
    nullary main_c_2 (constantI S_ 32 100000#32),
    unary main_c_2 main_v16 (broadcastInDim S1700000 ![] bcast_S_S1700000 : (⟨S_, .i32⟩ : BufTy).Contents (Elt F) → (⟨S1700000, .i32⟩ : BufTy).Contents (Elt F)),
    binary main_v3 main_v16 main_v17 (addi : (⟨S1700000, .i32⟩ : BufTy).Contents (Elt F) → (⟨S1700000, .i32⟩ : BufTy).Contents (Elt F) → (⟨S1700000, .i32⟩ : BufTy).Contents (Elt F)),
    ternary main_v15 main_v17 main_v3 main_v18 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v18 main_v19 (broadcastInDim S1700000x1 ![0] bcast_S1700000_S1700000x1_0 : (⟨S1700000, .i32⟩ : BufTy).Contents (Elt F) → (⟨S1700000x1, .i32⟩ : BufTy).Contents (Elt F)),
    binary main_v13 main_v19 main_v20 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_3 (constantI S_ 32 0#32),
    unary main_c_3 main_v21 (broadcastInDim S1700000 ![] bcast_S_S1700000 : (⟨S_, .i32⟩ : BufTy).Contents (Elt F) → (⟨S1700000, .i32⟩ : BufTy).Contents (Elt F)),
    binary main_v6 main_v21 main_v22 (cmpi .slt : (⟨S1700000, .i32⟩ : BufTy).Contents (Elt F) → (⟨S1700000, .i32⟩ : BufTy).Contents (Elt F) → (⟨S1700000, .i1⟩ : BufTy).Contents (Elt F)),
    nullary main_c_4 (constantI S_ 32 100000#32),
    unary main_c_4 main_v23 (broadcastInDim S1700000 ![] bcast_S_S1700000 : (⟨S_, .i32⟩ : BufTy).Contents (Elt F) → (⟨S1700000, .i32⟩ : BufTy).Contents (Elt F)),
    binary main_v6 main_v23 main_v24 (addi : (⟨S1700000, .i32⟩ : BufTy).Contents (Elt F) → (⟨S1700000, .i32⟩ : BufTy).Contents (Elt F) → (⟨S1700000, .i32⟩ : BufTy).Contents (Elt F)),
    ternary main_v22 main_v24 main_v6 main_v25 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v25 main_v26 (broadcastInDim S1700000x1 ![0] bcast_S1700000_S1700000x1_0 : (⟨S1700000, .i32⟩ : BufTy).Contents (Elt F) → (⟨S1700000x1, .i32⟩ : BufTy).Contents (Elt F)),
    binary main_v13 main_v26 main_v27 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v20 main_v27 main_v28 (mulf : (⟨S1700000, .f32⟩ : BufTy).Contents (Elt F) → (⟨S1700000, .f32⟩ : BufTy).Contents (Elt F) → (⟨S1700000, .f32⟩ : BufTy).Contents (Elt F)),
    unary main_v28 main_v29 (broadcastInDim S1700000x1 ![0] bcast_S1700000_S1700000x1_0 : (⟨S1700000, .f32⟩ : BufTy).Contents (Elt F) → (⟨S1700000x1, .f32⟩ : BufTy).Contents (Elt F)) ]

/-- Operations 37 … 40: the input layer (`main_v30` … `main_v33`). -/
abbrev T1 : List (HloOp τ sig (Elt F)) :=
  [ binary main_arg0 main_arg2 main_v30 ((fun l r => Host.dotGeneral dot_S100000x16_S16x128_S100000x128_1_0_0_1_n_n none l r) : (⟨S100000x16, .f32⟩ : BufTy).Contents (Elt F) → (⟨S16x128, .f32⟩ : BufTy).Contents (Elt F) → (⟨S100000x128, .f32⟩ : BufTy).Contents (Elt F)),
    unary main_arg3 main_v31 (broadcastInDim S1x128 ![1] bcast_S128_S1x128_1 : (⟨S128, .f32⟩ : BufTy).Contents (Elt F) → (⟨S1x128, .f32⟩ : BufTy).Contents (Elt F)),
    unary main_v31 main_v32 (broadcastInDim S100000x128 ![0, 1] bcast_S1x128_S100000x128_0_1 : (⟨S1x128, .f32⟩ : BufTy).Contents (Elt F) → (⟨S100000x128, .f32⟩ : BufTy).Contents (Elt F)),
    binary main_v30 main_v32 main_v33 (addf : (⟨S100000x128, .f32⟩ : BufTy).Contents (Elt F) → (⟨S100000x128, .f32⟩ : BufTy).Contents (Elt F) → (⟨S100000x128, .f32⟩ : BufTy).Contents (Elt F)) ]

/-- Operations 41 … 43: the first dense map (`main_v34` … `main_v36`). -/
abbrev T2 : List (HloOp τ sig (Elt F)) :=
  [ unary main_arg4 main_v34 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v34 main_v35 rfl shapeCasts_S1x128x128_S128x128,
    binary main_v33 main_v35 main_v36 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- Operations 44 … 58: the first propagation step (`main_c_5` … `main_v48`). -/
abbrev T3 : List (HloOp τ sig (Elt F)) :=
  [ nullary main_c_5 (constantI S_ 32 0#32),
    unary main_c_5 main_v37 (broadcastInDim S1700000 ![] bcast_S_S1700000 : (⟨S_, .i32⟩ : BufTy).Contents (Elt F) → (⟨S1700000, .i32⟩ : BufTy).Contents (Elt F)),
    binary main_v3 main_v37 main_v38 (cmpi .slt : (⟨S1700000, .i32⟩ : BufTy).Contents (Elt F) → (⟨S1700000, .i32⟩ : BufTy).Contents (Elt F) → (⟨S1700000, .i1⟩ : BufTy).Contents (Elt F)),
    nullary main_c_6 (constantI S_ 32 100000#32),
    unary main_c_6 main_v39 (broadcastInDim S1700000 ![] bcast_S_S1700000 : (⟨S_, .i32⟩ : BufTy).Contents (Elt F) → (⟨S1700000, .i32⟩ : BufTy).Contents (Elt F)),
    binary main_v3 main_v39 main_v40 (addi : (⟨S1700000, .i32⟩ : BufTy).Contents (Elt F) → (⟨S1700000, .i32⟩ : BufTy).Contents (Elt F) → (⟨S1700000, .i32⟩ : BufTy).Contents (Elt F)),
    ternary main_v38 main_v40 main_v3 main_v41 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v41 main_v42 (broadcastInDim S1700000x1 ![0] bcast_S1700000_S1700000x1_0 : (⟨S1700000, .i32⟩ : BufTy).Contents (Elt F) → (⟨S1700000x1, .i32⟩ : BufTy).Contents (Elt F)),
    binary main_v36 main_v42 main_v43 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v44 (broadcastInDim S1700000x128 ![0, 1] bcast_S1700000x1_S1700000x128_0_1 : (⟨S1700000x1, .f32⟩ : BufTy).Contents (Elt F) → (⟨S1700000x128, .f32⟩ : BufTy).Contents (Elt F)),
    binary main_v43 main_v44 main_v45 (mulf : (⟨S1700000x128, .f32⟩ : BufTy).Contents (Elt F) → (⟨S1700000x128, .f32⟩ : BufTy).Contents (Elt F) → (⟨S1700000x128, .f32⟩ : BufTy).Contents (Elt F)),
    nullary main_cst_7 (constant S_ .f32 0x00000000#32),
    unary main_cst_7 main_v46 (broadcastInDim S100000x128 ![] bcast_S_S100000x128 : (⟨S_, .f32⟩ : BufTy).Contents (Elt F) → (⟨S100000x128, .f32⟩ : BufTy).Contents (Elt F)),
    unary main_v6 main_v47 (broadcastInDim S1700000x1 ![0] bcast_S1700000_S1700000x1_0 : (⟨S1700000, .i32⟩ : BufTy).Contents (Elt F) → (⟨S1700000x1, .i32⟩ : BufTy).Contents (Elt F)),
    ternary main_v46 main_v47 main_v45 main_v48 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]

/-- Operations 59 … 99: the first normalising layer (`main_v49` … `main_v82`). -/
abbrev T4 : List (HloOp τ sig (Elt F)) :=
  [ unary main_arg5 main_v49 ((extractStridedSlice S1x128 ![0, 0] · slices_S3x128_S1x128_0_0) : (⟨S3x128, .f32⟩ : BufTy).Contents (Elt F) → (⟨S1x128, .f32⟩ : BufTy).Contents (Elt F)),
    reshape main_v49 main_v50 rfl shapeCasts_S1x128_S128,
    unary main_v50 main_v51 (broadcastInDim S1x128 ![1] bcast_S128_S1x128_1 : (⟨S128, .f32⟩ : BufTy).Contents (Elt F) → (⟨S1x128, .f32⟩ : BufTy).Contents (Elt F)),
    unary main_v51 main_v52 (broadcastInDim S100000x128 ![0, 1] bcast_S1x128_S100000x128_0_1 : (⟨S1x128, .f32⟩ : BufTy).Contents (Elt F) → (⟨S100000x128, .f32⟩ : BufTy).Contents (Elt F)),
    binary main_v48 main_v52 main_v53 (addf : (⟨S100000x128, .f32⟩ : BufTy).Contents (Elt F) → (⟨S100000x128, .f32⟩ : BufTy).Contents (Elt F) → (⟨S100000x128, .f32⟩ : BufTy).Contents (Elt F)),
    unary main_arg6 main_v54 ((extractStridedSlice S1x128 ![0, 0] · slices_S3x128_S1x128_0_0) : (⟨S3x128, .f32⟩ : BufTy).Contents (Elt F) → (⟨S1x128, .f32⟩ : BufTy).Contents (Elt F)),
    reshape main_v54 main_v55 rfl shapeCasts_S1x128_S128,
    unary main_arg7 main_v56 ((extractStridedSlice S1x128 ![0, 0] · slices_S3x128_S1x128_0_0) : (⟨S3x128, .f32⟩ : BufTy).Contents (Elt F) → (⟨S1x128, .f32⟩ : BufTy).Contents (Elt F)),
    reshape main_v56 main_v57 rfl shapeCasts_S1x128_S128,
    nullary main_cst_8 (constant S_ .f32 0x00000000#32),
    binary main_v53 main_cst_8 main_v58 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v58 main_v59 (broadcastInDim S100000x1 ![0] bcast_S100000_S100000x1_0 : (⟨S100000, .f32⟩ : BufTy).Contents (Elt F) → (⟨S100000x1, .f32⟩ : BufTy).Contents (Elt F)),
    nullary main_cst_9 (constant S_ .f32 0x43000000#32),
    unary main_cst_9 main_v60 (broadcastInDim S100000x1 ![] bcast_S_S100000x1 : (⟨S_, .f32⟩ : BufTy).Contents (Elt F) → (⟨S100000x1, .f32⟩ : BufTy).Contents (Elt F)),
    binary main_v59 main_v60 main_v61 (Host.divf : (⟨S100000x1, .f32⟩ : BufTy).Contents (Elt F) → (⟨S100000x1, .f32⟩ : BufTy).Contents (Elt F) → (⟨S100000x1, .f32⟩ : BufTy).Contents (Elt F)),
    unary main_v61 main_v62 (broadcastInDim S100000x128 ![0, 1] bcast_S100000x1_S100000x128_0_1 : (⟨S100000x1, .f32⟩ : BufTy).Contents (Elt F) → (⟨S100000x128, .f32⟩ : BufTy).Contents (Elt F)),
    binary main_v53 main_v62 main_v63 (subf : (⟨S100000x128, .f32⟩ : BufTy).Contents (Elt F) → (⟨S100000x128, .f32⟩ : BufTy).Contents (Elt F) → (⟨S100000x128, .f32⟩ : BufTy).Contents (Elt F)),
    binary main_v63 main_v63 main_v64 (mulf : (⟨S100000x128, .f32⟩ : BufTy).Contents (Elt F) → (⟨S100000x128, .f32⟩ : BufTy).Contents (Elt F) → (⟨S100000x128, .f32⟩ : BufTy).Contents (Elt F)),
    nullary main_cst_10 (constant S_ .f32 0x00000000#32),
    binary main_v64 main_cst_10 main_v65 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v65 main_v66 (broadcastInDim S100000x1 ![0] bcast_S100000_S100000x1_0 : (⟨S100000, .f32⟩ : BufTy).Contents (Elt F) → (⟨S100000x1, .f32⟩ : BufTy).Contents (Elt F)),
    nullary main_cst_11 (constant S_ .f32 0x43000000#32),
    unary main_cst_11 main_v67 (broadcastInDim S100000x1 ![] bcast_S_S100000x1 : (⟨S_, .f32⟩ : BufTy).Contents (Elt F) → (⟨S100000x1, .f32⟩ : BufTy).Contents (Elt F)),
    binary main_v66 main_v67 main_v68 (Host.divf : (⟨S100000x1, .f32⟩ : BufTy).Contents (Elt F) → (⟨S100000x1, .f32⟩ : BufTy).Contents (Elt F) → (⟨S100000x1, .f32⟩ : BufTy).Contents (Elt F)),
    unary main_v61 main_v69 (broadcastInDim S100000x128 ![0, 1] bcast_S100000x1_S100000x128_0_1 : (⟨S100000x1, .f32⟩ : BufTy).Contents (Elt F) → (⟨S100000x128, .f32⟩ : BufTy).Contents (Elt F)),
    binary main_v53 main_v69 main_v70 (subf : (⟨S100000x128, .f32⟩ : BufTy).Contents (Elt F) → (⟨S100000x128, .f32⟩ : BufTy).Contents (Elt F) → (⟨S100000x128, .f32⟩ : BufTy).Contents (Elt F)),
    nullary main_cst_12 (constant S_ .f32 0x3727C5AC#32),
    unary main_cst_12 main_v71 (broadcastInDim S100000x1 ![] bcast_S_S100000x1 : (⟨S_, .f32⟩ : BufTy).Contents (Elt F) → (⟨S100000x1, .f32⟩ : BufTy).Contents (Elt F)),
    binary main_v68 main_v71 main_v72 (addf : (⟨S100000x1, .f32⟩ : BufTy).Contents (Elt F) → (⟨S100000x1, .f32⟩ : BufTy).Contents (Elt F) → (⟨S100000x1, .f32⟩ : BufTy).Contents (Elt F)),
    unary main_v72 main_v73 (Host.rsqrt : (⟨S100000x1, .f32⟩ : BufTy).Contents (Elt F) → (⟨S100000x1, .f32⟩ : BufTy).Contents (Elt F)),
    unary main_v73 main_v74 (broadcastInDim S100000x128 ![0, 1] bcast_S100000x1_S100000x128_0_1 : (⟨S100000x1, .f32⟩ : BufTy).Contents (Elt F) → (⟨S100000x128, .f32⟩ : BufTy).Contents (Elt F)),
    binary main_v70 main_v74 main_v75 (mulf : (⟨S100000x128, .f32⟩ : BufTy).Contents (Elt F) → (⟨S100000x128, .f32⟩ : BufTy).Contents (Elt F) → (⟨S100000x128, .f32⟩ : BufTy).Contents (Elt F)),
    unary main_v55 main_v76 (broadcastInDim S1x128 ![1] bcast_S128_S1x128_1 : (⟨S128, .f32⟩ : BufTy).Contents (Elt F) → (⟨S1x128, .f32⟩ : BufTy).Contents (Elt F)),
    unary main_v76 main_v77 (broadcastInDim S100000x128 ![0, 1] bcast_S1x128_S100000x128_0_1 : (⟨S1x128, .f32⟩ : BufTy).Contents (Elt F) → (⟨S100000x128, .f32⟩ : BufTy).Contents (Elt F)),
    binary main_v75 main_v77 main_v78 (mulf : (⟨S100000x128, .f32⟩ : BufTy).Contents (Elt F) → (⟨S100000x128, .f32⟩ : BufTy).Contents (Elt F) → (⟨S100000x128, .f32⟩ : BufTy).Contents (Elt F)),
    unary main_v57 main_v79 (broadcastInDim S1x128 ![1] bcast_S128_S1x128_1 : (⟨S128, .f32⟩ : BufTy).Contents (Elt F) → (⟨S1x128, .f32⟩ : BufTy).Contents (Elt F)),
    unary main_v79 main_v80 (broadcastInDim S100000x128 ![0, 1] bcast_S1x128_S100000x128_0_1 : (⟨S1x128, .f32⟩ : BufTy).Contents (Elt F) → (⟨S100000x128, .f32⟩ : BufTy).Contents (Elt F)),
    binary main_v78 main_v80 main_v81 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v81) (TRef.of (T := ⟨S100000x128, .f32⟩) main_call0_v0) (TRef.of (T := ⟨S100000x128, .f32⟩) main_v82) maximumf ]

/-- Operations 100 … 102: the second dense map (`main_v83` … `main_v85`). -/
abbrev T5 : List (HloOp τ sig (Elt F)) :=
  [ unary main_arg4 main_v83 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v83 main_v84 rfl shapeCasts_S1x128x128_S128x128,
    binary main_v82 main_v84 main_v85 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- Operations 103 … 117: the second propagation step (`main_c_13` … `main_v97`). -/
abbrev T6 : List (HloOp τ sig (Elt F)) :=
  [ nullary main_c_13 (constantI S_ 32 0#32),
    unary main_c_13 main_v86 (broadcastInDim S1700000 ![] bcast_S_S1700000 : (⟨S_, .i32⟩ : BufTy).Contents (Elt F) → (⟨S1700000, .i32⟩ : BufTy).Contents (Elt F)),
    binary main_v3 main_v86 main_v87 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v88 (broadcastInDim S1700000 ![] bcast_S_S1700000 : (⟨S_, .i32⟩ : BufTy).Contents (Elt F) → (⟨S1700000, .i32⟩ : BufTy).Contents (Elt F)),
    binary main_v3 main_v88 main_v89 (addi : (⟨S1700000, .i32⟩ : BufTy).Contents (Elt F) → (⟨S1700000, .i32⟩ : BufTy).Contents (Elt F) → (⟨S1700000, .i32⟩ : BufTy).Contents (Elt F)),
    ternary main_v87 main_v89 main_v3 main_v90 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v90 main_v91 (broadcastInDim S1700000x1 ![0] bcast_S1700000_S1700000x1_0 : (⟨S1700000, .i32⟩ : BufTy).Contents (Elt F) → (⟨S1700000x1, .i32⟩ : BufTy).Contents (Elt F)),
    binary main_v85 main_v91 main_v92 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v93 (broadcastInDim S1700000x128 ![0, 1] bcast_S1700000x1_S1700000x128_0_1 : (⟨S1700000x1, .f32⟩ : BufTy).Contents (Elt F) → (⟨S1700000x128, .f32⟩ : BufTy).Contents (Elt F)),
    binary main_v92 main_v93 main_v94 (mulf : (⟨S1700000x128, .f32⟩ : BufTy).Contents (Elt F) → (⟨S1700000x128, .f32⟩ : BufTy).Contents (Elt F) → (⟨S1700000x128, .f32⟩ : BufTy).Contents (Elt F)),
    nullary main_cst_15 (constant S_ .f32 0x00000000#32),
    unary main_cst_15 main_v95 (broadcastInDim S100000x128 ![] bcast_S_S100000x128 : (⟨S_, .f32⟩ : BufTy).Contents (Elt F) → (⟨S100000x128, .f32⟩ : BufTy).Contents (Elt F)),
    unary main_v6 main_v96 (broadcastInDim S1700000x1 ![0] bcast_S1700000_S1700000x1_0 : (⟨S1700000, .i32⟩ : BufTy).Contents (Elt F) → (⟨S1700000x1, .i32⟩ : BufTy).Contents (Elt F)),
    ternary main_v95 main_v96 main_v94 main_v97 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]

/-- Operations 118 … 159: the second normalising layer and its residual sum (`main_v98` … `main_v132`). -/
abbrev T7 : List (HloOp τ sig (Elt F)) :=
  [ unary main_arg5 main_v98 ((extractStridedSlice S1x128 ![1, 0] · slices_S3x128_S1x128_1_0) : (⟨S3x128, .f32⟩ : BufTy).Contents (Elt F) → (⟨S1x128, .f32⟩ : BufTy).Contents (Elt F)),
    reshape main_v98 main_v99 rfl shapeCasts_S1x128_S128,
    unary main_v99 main_v100 (broadcastInDim S1x128 ![1] bcast_S128_S1x128_1 : (⟨S128, .f32⟩ : BufTy).Contents (Elt F) → (⟨S1x128, .f32⟩ : BufTy).Contents (Elt F)),
    unary main_v100 main_v101 (broadcastInDim S100000x128 ![0, 1] bcast_S1x128_S100000x128_0_1 : (⟨S1x128, .f32⟩ : BufTy).Contents (Elt F) → (⟨S100000x128, .f32⟩ : BufTy).Contents (Elt F)),
    binary main_v97 main_v101 main_v102 (addf : (⟨S100000x128, .f32⟩ : BufTy).Contents (Elt F) → (⟨S100000x128, .f32⟩ : BufTy).Contents (Elt F) → (⟨S100000x128, .f32⟩ : BufTy).Contents (Elt F)),
    unary main_arg6 main_v103 ((extractStridedSlice S1x128 ![1, 0] · slices_S3x128_S1x128_1_0) : (⟨S3x128, .f32⟩ : BufTy).Contents (Elt F) → (⟨S1x128, .f32⟩ : BufTy).Contents (Elt F)),
    reshape main_v103 main_v104 rfl shapeCasts_S1x128_S128,
    unary main_arg7 main_v105 ((extractStridedSlice S1x128 ![1, 0] · slices_S3x128_S1x128_1_0) : (⟨S3x128, .f32⟩ : BufTy).Contents (Elt F) → (⟨S1x128, .f32⟩ : BufTy).Contents (Elt F)),
    reshape main_v105 main_v106 rfl shapeCasts_S1x128_S128,
    nullary main_cst_16 (constant S_ .f32 0x00000000#32),
    binary main_v102 main_cst_16 main_v107 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v107 main_v108 (broadcastInDim S100000x1 ![0] bcast_S100000_S100000x1_0 : (⟨S100000, .f32⟩ : BufTy).Contents (Elt F) → (⟨S100000x1, .f32⟩ : BufTy).Contents (Elt F)),
    nullary main_cst_17 (constant S_ .f32 0x43000000#32),
    unary main_cst_17 main_v109 (broadcastInDim S100000x1 ![] bcast_S_S100000x1 : (⟨S_, .f32⟩ : BufTy).Contents (Elt F) → (⟨S100000x1, .f32⟩ : BufTy).Contents (Elt F)),
    binary main_v108 main_v109 main_v110 (Host.divf : (⟨S100000x1, .f32⟩ : BufTy).Contents (Elt F) → (⟨S100000x1, .f32⟩ : BufTy).Contents (Elt F) → (⟨S100000x1, .f32⟩ : BufTy).Contents (Elt F)),
    unary main_v110 main_v111 (broadcastInDim S100000x128 ![0, 1] bcast_S100000x1_S100000x128_0_1 : (⟨S100000x1, .f32⟩ : BufTy).Contents (Elt F) → (⟨S100000x128, .f32⟩ : BufTy).Contents (Elt F)),
    binary main_v102 main_v111 main_v112 (subf : (⟨S100000x128, .f32⟩ : BufTy).Contents (Elt F) → (⟨S100000x128, .f32⟩ : BufTy).Contents (Elt F) → (⟨S100000x128, .f32⟩ : BufTy).Contents (Elt F)),
    binary main_v112 main_v112 main_v113 (mulf : (⟨S100000x128, .f32⟩ : BufTy).Contents (Elt F) → (⟨S100000x128, .f32⟩ : BufTy).Contents (Elt F) → (⟨S100000x128, .f32⟩ : BufTy).Contents (Elt F)),
    nullary main_cst_18 (constant S_ .f32 0x00000000#32),
    binary main_v113 main_cst_18 main_v114 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v114 main_v115 (broadcastInDim S100000x1 ![0] bcast_S100000_S100000x1_0 : (⟨S100000, .f32⟩ : BufTy).Contents (Elt F) → (⟨S100000x1, .f32⟩ : BufTy).Contents (Elt F)),
    nullary main_cst_19 (constant S_ .f32 0x43000000#32),
    unary main_cst_19 main_v116 (broadcastInDim S100000x1 ![] bcast_S_S100000x1 : (⟨S_, .f32⟩ : BufTy).Contents (Elt F) → (⟨S100000x1, .f32⟩ : BufTy).Contents (Elt F)),
    binary main_v115 main_v116 main_v117 (Host.divf : (⟨S100000x1, .f32⟩ : BufTy).Contents (Elt F) → (⟨S100000x1, .f32⟩ : BufTy).Contents (Elt F) → (⟨S100000x1, .f32⟩ : BufTy).Contents (Elt F)),
    unary main_v110 main_v118 (broadcastInDim S100000x128 ![0, 1] bcast_S100000x1_S100000x128_0_1 : (⟨S100000x1, .f32⟩ : BufTy).Contents (Elt F) → (⟨S100000x128, .f32⟩ : BufTy).Contents (Elt F)),
    binary main_v102 main_v118 main_v119 (subf : (⟨S100000x128, .f32⟩ : BufTy).Contents (Elt F) → (⟨S100000x128, .f32⟩ : BufTy).Contents (Elt F) → (⟨S100000x128, .f32⟩ : BufTy).Contents (Elt F)),
    nullary main_cst_20 (constant S_ .f32 0x3727C5AC#32),
    unary main_cst_20 main_v120 (broadcastInDim S100000x1 ![] bcast_S_S100000x1 : (⟨S_, .f32⟩ : BufTy).Contents (Elt F) → (⟨S100000x1, .f32⟩ : BufTy).Contents (Elt F)),
    binary main_v117 main_v120 main_v121 (addf : (⟨S100000x1, .f32⟩ : BufTy).Contents (Elt F) → (⟨S100000x1, .f32⟩ : BufTy).Contents (Elt F) → (⟨S100000x1, .f32⟩ : BufTy).Contents (Elt F)),
    unary main_v121 main_v122 (Host.rsqrt : (⟨S100000x1, .f32⟩ : BufTy).Contents (Elt F) → (⟨S100000x1, .f32⟩ : BufTy).Contents (Elt F)),
    unary main_v122 main_v123 (broadcastInDim S100000x128 ![0, 1] bcast_S100000x1_S100000x128_0_1 : (⟨S100000x1, .f32⟩ : BufTy).Contents (Elt F) → (⟨S100000x128, .f32⟩ : BufTy).Contents (Elt F)),
    binary main_v119 main_v123 main_v124 (mulf : (⟨S100000x128, .f32⟩ : BufTy).Contents (Elt F) → (⟨S100000x128, .f32⟩ : BufTy).Contents (Elt F) → (⟨S100000x128, .f32⟩ : BufTy).Contents (Elt F)),
    unary main_v104 main_v125 (broadcastInDim S1x128 ![1] bcast_S128_S1x128_1 : (⟨S128, .f32⟩ : BufTy).Contents (Elt F) → (⟨S1x128, .f32⟩ : BufTy).Contents (Elt F)),
    unary main_v125 main_v126 (broadcastInDim S100000x128 ![0, 1] bcast_S1x128_S100000x128_0_1 : (⟨S1x128, .f32⟩ : BufTy).Contents (Elt F) → (⟨S100000x128, .f32⟩ : BufTy).Contents (Elt F)),
    binary main_v124 main_v126 main_v127 (mulf : (⟨S100000x128, .f32⟩ : BufTy).Contents (Elt F) → (⟨S100000x128, .f32⟩ : BufTy).Contents (Elt F) → (⟨S100000x128, .f32⟩ : BufTy).Contents (Elt F)),
    unary main_v106 main_v128 (broadcastInDim S1x128 ![1] bcast_S128_S1x128_1 : (⟨S128, .f32⟩ : BufTy).Contents (Elt F) → (⟨S1x128, .f32⟩ : BufTy).Contents (Elt F)),
    unary main_v128 main_v129 (broadcastInDim S100000x128 ![0, 1] bcast_S1x128_S100000x128_0_1 : (⟨S1x128, .f32⟩ : BufTy).Contents (Elt F) → (⟨S100000x128, .f32⟩ : BufTy).Contents (Elt F)),
    binary main_v127 main_v129 main_v130 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v130) (TRef.of (T := ⟨S100000x128, .f32⟩) main_call1_v0) (TRef.of (T := ⟨S100000x128, .f32⟩) main_v131) maximumf,
    binary main_v131 main_v82 main_v132 (addf : (⟨S100000x128, .f32⟩ : BufTy).Contents (Elt F) → (⟨S100000x128, .f32⟩ : BufTy).Contents (Elt F) → (⟨S100000x128, .f32⟩ : BufTy).Contents (Elt F)) ]

/-- Operations 160 … 162: the third dense map (`main_v133` … `main_v135`). -/
abbrev T8 : List (HloOp τ sig (Elt F)) :=
  [ unary main_arg4 main_v133 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v133 main_v134 rfl shapeCasts_S1x128x128_S128x128,
    binary main_v132 main_v134 main_v135 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- Operations 163 … 177: the third propagation step (`main_c_21` … `main_v147`). -/
abbrev T9 : List (HloOp τ sig (Elt F)) :=
  [ nullary main_c_21 (constantI S_ 32 0#32),
    unary main_c_21 main_v136 (broadcastInDim S1700000 ![] bcast_S_S1700000 : (⟨S_, .i32⟩ : BufTy).Contents (Elt F) → (⟨S1700000, .i32⟩ : BufTy).Contents (Elt F)),
    binary main_v3 main_v136 main_v137 (cmpi .slt : (⟨S1700000, .i32⟩ : BufTy).Contents (Elt F) → (⟨S1700000, .i32⟩ : BufTy).Contents (Elt F) → (⟨S1700000, .i1⟩ : BufTy).Contents (Elt F)),
    nullary main_c_22 (constantI S_ 32 100000#32),
    unary main_c_22 main_v138 (broadcastInDim S1700000 ![] bcast_S_S1700000 : (⟨S_, .i32⟩ : BufTy).Contents (Elt F) → (⟨S1700000, .i32⟩ : BufTy).Contents (Elt F)),
    binary main_v3 main_v138 main_v139 (addi : (⟨S1700000, .i32⟩ : BufTy).Contents (Elt F) → (⟨S1700000, .i32⟩ : BufTy).Contents (Elt F) → (⟨S1700000, .i32⟩ : BufTy).Contents (Elt F)),
    ternary main_v137 main_v139 main_v3 main_v140 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v140 main_v141 (broadcastInDim S1700000x1 ![0] bcast_S1700000_S1700000x1_0 : (⟨S1700000, .i32⟩ : BufTy).Contents (Elt F) → (⟨S1700000x1, .i32⟩ : BufTy).Contents (Elt F)),
    binary main_v135 main_v141 main_v142 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v143 (broadcastInDim S1700000x128 ![0, 1] bcast_S1700000x1_S1700000x128_0_1 : (⟨S1700000x1, .f32⟩ : BufTy).Contents (Elt F) → (⟨S1700000x128, .f32⟩ : BufTy).Contents (Elt F)),
    binary main_v142 main_v143 main_v144 (mulf : (⟨S1700000x128, .f32⟩ : BufTy).Contents (Elt F) → (⟨S1700000x128, .f32⟩ : BufTy).Contents (Elt F) → (⟨S1700000x128, .f32⟩ : BufTy).Contents (Elt F)),
    nullary main_cst_23 (constant S_ .f32 0x00000000#32),
    unary main_cst_23 main_v145 (broadcastInDim S100000x128 ![] bcast_S_S100000x128 : (⟨S_, .f32⟩ : BufTy).Contents (Elt F) → (⟨S100000x128, .f32⟩ : BufTy).Contents (Elt F)),
    unary main_v6 main_v146 (broadcastInDim S1700000x1 ![0] bcast_S1700000_S1700000x1_0 : (⟨S1700000, .i32⟩ : BufTy).Contents (Elt F) → (⟨S1700000x1, .i32⟩ : BufTy).Contents (Elt F)),
    ternary main_v145 main_v146 main_v144 main_v147 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]

/-- Operations 178 … 219: the third normalising layer and its residual sum (`main_v148` … `main_v182`). -/
abbrev T10 : List (HloOp τ sig (Elt F)) :=
  [ unary main_arg5 main_v148 ((extractStridedSlice S1x128 ![2, 0] · slices_S3x128_S1x128_2_0) : (⟨S3x128, .f32⟩ : BufTy).Contents (Elt F) → (⟨S1x128, .f32⟩ : BufTy).Contents (Elt F)),
    reshape main_v148 main_v149 rfl shapeCasts_S1x128_S128,
    unary main_v149 main_v150 (broadcastInDim S1x128 ![1] bcast_S128_S1x128_1 : (⟨S128, .f32⟩ : BufTy).Contents (Elt F) → (⟨S1x128, .f32⟩ : BufTy).Contents (Elt F)),
    unary main_v150 main_v151 (broadcastInDim S100000x128 ![0, 1] bcast_S1x128_S100000x128_0_1 : (⟨S1x128, .f32⟩ : BufTy).Contents (Elt F) → (⟨S100000x128, .f32⟩ : BufTy).Contents (Elt F)),
    binary main_v147 main_v151 main_v152 (addf : (⟨S100000x128, .f32⟩ : BufTy).Contents (Elt F) → (⟨S100000x128, .f32⟩ : BufTy).Contents (Elt F) → (⟨S100000x128, .f32⟩ : BufTy).Contents (Elt F)),
    unary main_arg6 main_v153 ((extractStridedSlice S1x128 ![2, 0] · slices_S3x128_S1x128_2_0) : (⟨S3x128, .f32⟩ : BufTy).Contents (Elt F) → (⟨S1x128, .f32⟩ : BufTy).Contents (Elt F)),
    reshape main_v153 main_v154 rfl shapeCasts_S1x128_S128,
    unary main_arg7 main_v155 ((extractStridedSlice S1x128 ![2, 0] · slices_S3x128_S1x128_2_0) : (⟨S3x128, .f32⟩ : BufTy).Contents (Elt F) → (⟨S1x128, .f32⟩ : BufTy).Contents (Elt F)),
    reshape main_v155 main_v156 rfl shapeCasts_S1x128_S128,
    nullary main_cst_24 (constant S_ .f32 0x00000000#32),
    binary main_v152 main_cst_24 main_v157 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v157 main_v158 (broadcastInDim S100000x1 ![0] bcast_S100000_S100000x1_0 : (⟨S100000, .f32⟩ : BufTy).Contents (Elt F) → (⟨S100000x1, .f32⟩ : BufTy).Contents (Elt F)),
    nullary main_cst_25 (constant S_ .f32 0x43000000#32),
    unary main_cst_25 main_v159 (broadcastInDim S100000x1 ![] bcast_S_S100000x1 : (⟨S_, .f32⟩ : BufTy).Contents (Elt F) → (⟨S100000x1, .f32⟩ : BufTy).Contents (Elt F)),
    binary main_v158 main_v159 main_v160 (Host.divf : (⟨S100000x1, .f32⟩ : BufTy).Contents (Elt F) → (⟨S100000x1, .f32⟩ : BufTy).Contents (Elt F) → (⟨S100000x1, .f32⟩ : BufTy).Contents (Elt F)),
    unary main_v160 main_v161 (broadcastInDim S100000x128 ![0, 1] bcast_S100000x1_S100000x128_0_1 : (⟨S100000x1, .f32⟩ : BufTy).Contents (Elt F) → (⟨S100000x128, .f32⟩ : BufTy).Contents (Elt F)),
    binary main_v152 main_v161 main_v162 (subf : (⟨S100000x128, .f32⟩ : BufTy).Contents (Elt F) → (⟨S100000x128, .f32⟩ : BufTy).Contents (Elt F) → (⟨S100000x128, .f32⟩ : BufTy).Contents (Elt F)),
    binary main_v162 main_v162 main_v163 (mulf : (⟨S100000x128, .f32⟩ : BufTy).Contents (Elt F) → (⟨S100000x128, .f32⟩ : BufTy).Contents (Elt F) → (⟨S100000x128, .f32⟩ : BufTy).Contents (Elt F)),
    nullary main_cst_26 (constant S_ .f32 0x00000000#32),
    binary main_v163 main_cst_26 main_v164 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v164 main_v165 (broadcastInDim S100000x1 ![0] bcast_S100000_S100000x1_0 : (⟨S100000, .f32⟩ : BufTy).Contents (Elt F) → (⟨S100000x1, .f32⟩ : BufTy).Contents (Elt F)),
    nullary main_cst_27 (constant S_ .f32 0x43000000#32),
    unary main_cst_27 main_v166 (broadcastInDim S100000x1 ![] bcast_S_S100000x1 : (⟨S_, .f32⟩ : BufTy).Contents (Elt F) → (⟨S100000x1, .f32⟩ : BufTy).Contents (Elt F)),
    binary main_v165 main_v166 main_v167 (Host.divf : (⟨S100000x1, .f32⟩ : BufTy).Contents (Elt F) → (⟨S100000x1, .f32⟩ : BufTy).Contents (Elt F) → (⟨S100000x1, .f32⟩ : BufTy).Contents (Elt F)),
    unary main_v160 main_v168 (broadcastInDim S100000x128 ![0, 1] bcast_S100000x1_S100000x128_0_1 : (⟨S100000x1, .f32⟩ : BufTy).Contents (Elt F) → (⟨S100000x128, .f32⟩ : BufTy).Contents (Elt F)),
    binary main_v152 main_v168 main_v169 (subf : (⟨S100000x128, .f32⟩ : BufTy).Contents (Elt F) → (⟨S100000x128, .f32⟩ : BufTy).Contents (Elt F) → (⟨S100000x128, .f32⟩ : BufTy).Contents (Elt F)),
    nullary main_cst_28 (constant S_ .f32 0x3727C5AC#32),
    unary main_cst_28 main_v170 (broadcastInDim S100000x1 ![] bcast_S_S100000x1 : (⟨S_, .f32⟩ : BufTy).Contents (Elt F) → (⟨S100000x1, .f32⟩ : BufTy).Contents (Elt F)),
    binary main_v167 main_v170 main_v171 (addf : (⟨S100000x1, .f32⟩ : BufTy).Contents (Elt F) → (⟨S100000x1, .f32⟩ : BufTy).Contents (Elt F) → (⟨S100000x1, .f32⟩ : BufTy).Contents (Elt F)),
    unary main_v171 main_v172 (Host.rsqrt : (⟨S100000x1, .f32⟩ : BufTy).Contents (Elt F) → (⟨S100000x1, .f32⟩ : BufTy).Contents (Elt F)),
    unary main_v172 main_v173 (broadcastInDim S100000x128 ![0, 1] bcast_S100000x1_S100000x128_0_1 : (⟨S100000x1, .f32⟩ : BufTy).Contents (Elt F) → (⟨S100000x128, .f32⟩ : BufTy).Contents (Elt F)),
    binary main_v169 main_v173 main_v174 (mulf : (⟨S100000x128, .f32⟩ : BufTy).Contents (Elt F) → (⟨S100000x128, .f32⟩ : BufTy).Contents (Elt F) → (⟨S100000x128, .f32⟩ : BufTy).Contents (Elt F)),
    unary main_v154 main_v175 (broadcastInDim S1x128 ![1] bcast_S128_S1x128_1 : (⟨S128, .f32⟩ : BufTy).Contents (Elt F) → (⟨S1x128, .f32⟩ : BufTy).Contents (Elt F)),
    unary main_v175 main_v176 (broadcastInDim S100000x128 ![0, 1] bcast_S1x128_S100000x128_0_1 : (⟨S1x128, .f32⟩ : BufTy).Contents (Elt F) → (⟨S100000x128, .f32⟩ : BufTy).Contents (Elt F)),
    binary main_v174 main_v176 main_v177 (mulf : (⟨S100000x128, .f32⟩ : BufTy).Contents (Elt F) → (⟨S100000x128, .f32⟩ : BufTy).Contents (Elt F) → (⟨S100000x128, .f32⟩ : BufTy).Contents (Elt F)),
    unary main_v156 main_v178 (broadcastInDim S1x128 ![1] bcast_S128_S1x128_1 : (⟨S128, .f32⟩ : BufTy).Contents (Elt F) → (⟨S1x128, .f32⟩ : BufTy).Contents (Elt F)),
    unary main_v178 main_v179 (broadcastInDim S100000x128 ![0, 1] bcast_S1x128_S100000x128_0_1 : (⟨S1x128, .f32⟩ : BufTy).Contents (Elt F) → (⟨S100000x128, .f32⟩ : BufTy).Contents (Elt F)),
    binary main_v177 main_v179 main_v180 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v180) (TRef.of (T := ⟨S100000x128, .f32⟩) main_call2_v0) (TRef.of (T := ⟨S100000x128, .f32⟩) main_v181) maximumf,
    binary main_v181 main_v132 main_v182 (addf : (⟨S100000x128, .f32⟩ : BufTy).Contents (Elt F) → (⟨S100000x128, .f32⟩ : BufTy).Contents (Elt F) → (⟨S100000x128, .f32⟩ : BufTy).Contents (Elt F)) ]

set_option maxRecDepth 8192 in
/-- @main's operations are the stretches, in order. -/
theorem ops_split : (RefRun.ops (F := F)) = T0 ++ (T1 ++ (T2 ++ (T3 ++ (T4 ++ (T5 ++ (T6 ++ (T7 ++ (T8 ++ (T9 ++ T10))))))))) := rfl

/-! ## The contents after each stretch -/

section
variable (V : Valuation τ sig (Elt F))

/-- The contents after stretch 0, from the contents `V`. -/
def S0 : Valuation τ sig (Elt F) := after T0 V
/-- The contents after stretch 1. -/
def S1 : Valuation τ sig (Elt F) := after T1 (S0 V)
/-- The contents after stretch 2. -/
def S2 : Valuation τ sig (Elt F) := after T2 (S1 V)
/-- The contents after stretch 3. -/
def S3 : Valuation τ sig (Elt F) := after T3 (S2 V)
/-- The contents after stretch 4. -/
def S4 : Valuation τ sig (Elt F) := after T4 (S3 V)
/-- The contents after stretch 5. -/
def S5 : Valuation τ sig (Elt F) := after T5 (S4 V)
/-- The contents after stretch 6. -/
def S6 : Valuation τ sig (Elt F) := after T6 (S5 V)
/-- The contents after stretch 7. -/
def S7 : Valuation τ sig (Elt F) := after T7 (S6 V)
/-- The contents after stretch 8. -/
def S8 : Valuation τ sig (Elt F) := after T8 (S7 V)
/-- The contents after stretch 9. -/
def S9 : Valuation τ sig (Elt F) := after T9 (S8 V)
/-- The contents after stretch 10. -/
def S10 : Valuation τ sig (Elt F) := after T10 (S9 V)

theorem S0_eq : S0 V = after T0 V := rfl
theorem S1_eq : S1 V = after T1 (S0 V) := rfl
theorem S2_eq : S2 V = after T2 (S1 V) := rfl
theorem S3_eq : S3 V = after T3 (S2 V) := rfl
theorem S4_eq : S4 V = after T4 (S3 V) := rfl
theorem S5_eq : S5 V = after T5 (S4 V) := rfl
theorem S6_eq : S6 V = after T6 (S5 V) := rfl
theorem S7_eq : S7 V = after T7 (S6 V) := rfl
theorem S8_eq : S8 V = after T8 (S7 V) := rfl
theorem S9_eq : S9 V = after T9 (S8 V) := rfl
theorem S10_eq : S10 V = after T10 (S9 V) := rfl

/-- The fold of all of @main's operations is the contents after the last stretch. -/
theorem after_ops : after (RefRun.ops (F := F)) V = S10 V := by
  rw [ops_split]
  simp only [after_append]
  rfl

end

/-! ## What each stretch writes, and that it leaves every other buffer alone -/

/-- The buffers stretch 0's operations write, in order. -/
abbrev wr0 : List (Ref sig .tc) :=
  [main_v0, main_v1, main_v2, main_v3, main_v4, main_v5, main_v6, main_cst, main_v7, main_cst_0, main_v8, main_v9, main_v10, main_cst_1, main_v11, main_v12, main_v13, main_c, main_v14, main_v15, main_c_2, main_v16, main_v17, main_v18, main_v19, main_v20, main_c_3, main_v21, main_v22, main_c_4, main_v23, main_v24, main_v25, main_v26, main_v27, main_v28, main_v29]
theorem T0_writes : (T0 : List (HloOp τ sig (Elt F))).Forall fun op => op.writes ⊆ (wr0.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, unaryIndexed_writes, nary_writes, Finset.singleton_subset_iff, List.mem_toFinset]; exact List.mem_map_of_mem (by decide))
/-- A buffer stretch 0 does not write holds after it what it held before. -/
theorem keep0 (V : Valuation τ sig (Elt F)) (b : Ref sig .tc) (hb : b ∉ wr0) :
    S0 V (Proc.devRef .tc b) = V (Proc.devRef .tc b) :=
  after_of_writes_sub T0 _ T0_writes hb

/-- The buffers stretch 1's operations write, in order. -/
abbrev wr1 : List (Ref sig .tc) :=
  [main_v30, main_v31, main_v32, main_v33]
theorem T1_writes : (T1 : List (HloOp τ sig (Elt F))).Forall fun op => op.writes ⊆ (wr1.map (Proc.devRef (τ := τ) .tc)).toFinset := by
  simp only [List.Forall]
  refine ⟨?_, ?_, ?_, ?_⟩ <;>
    (simp only [nullary_writes, unary_writes, binary_writes, ternary_writes, quaternary_writes, reshape_writes, binaryIndexed_writes, unaryIndexed_writes, nary_writes, Finset.singleton_subset_iff, List.mem_toFinset]; exact List.mem_map_of_mem (by decide))
/-- A buffer stretch 1 does not write holds after it what it held before. -/
theorem keep1 (V : Valuation τ sig (Elt F)) (b : Ref sig .tc) (hb : b ∉ wr1) :
    S1 V (Proc.devRef .tc b) = S0 V (Proc.devRef .tc b) :=
  after_of_writes_sub T1 _ T1_writes hb

/-- The buffers stretch 2's operations write, in order. -/
abbrev wr2 : List (Ref sig .tc) :=
  [main_v34, main_v35, main_v36]
theorem T2_writes : (T2 : List (HloOp τ sig (Elt F))).Forall fun op => op.writes ⊆ (wr2.map (Proc.devRef (τ := τ) .tc)).toFinset := by
  simp only [List.Forall]
  refine ⟨?_, ?_, ?_⟩ <;>
    (simp only [nullary_writes, unary_writes, binary_writes, ternary_writes, quaternary_writes, reshape_writes, binaryIndexed_writes, unaryIndexed_writes, nary_writes, Finset.singleton_subset_iff, List.mem_toFinset]; exact List.mem_map_of_mem (by decide))
/-- A buffer stretch 2 does not write holds after it what it held before. -/
theorem keep2 (V : Valuation τ sig (Elt F)) (b : Ref sig .tc) (hb : b ∉ wr2) :
    S2 V (Proc.devRef .tc b) = S1 V (Proc.devRef .tc b) :=
  after_of_writes_sub T2 _ T2_writes hb

/-- The buffers stretch 3's operations write, in order. -/
abbrev wr3 : List (Ref sig .tc) :=
  [main_c_5, main_v37, main_v38, main_c_6, main_v39, main_v40, main_v41, main_v42, main_v43, main_v44, main_v45, main_cst_7, main_v46, main_v47, main_v48]
theorem T3_writes : (T3 : List (HloOp τ sig (Elt F))).Forall fun op => op.writes ⊆ (wr3.map (Proc.devRef (τ := τ) .tc)).toFinset := by
  simp only [List.Forall]
  refine ⟨?_, ?_, ?_, ?_, ?_, ?_, ?_, ?_, ?_, ?_, ?_, ?_, ?_, ?_, ?_⟩ <;>
    (simp only [nullary_writes, unary_writes, binary_writes, ternary_writes, quaternary_writes, reshape_writes, binaryIndexed_writes, unaryIndexed_writes, nary_writes, Finset.singleton_subset_iff, List.mem_toFinset]; exact List.mem_map_of_mem (by decide))
/-- A buffer stretch 3 does not write holds after it what it held before. -/
theorem keep3 (V : Valuation τ sig (Elt F)) (b : Ref sig .tc) (hb : b ∉ wr3) :
    S3 V (Proc.devRef .tc b) = S2 V (Proc.devRef .tc b) :=
  after_of_writes_sub T3 _ T3_writes hb

/-- The buffers stretch 4's operations write, in order. -/
abbrev wr4 : List (Ref sig .tc) :=
  [main_v49, main_v50, main_v51, main_v52, main_v53, main_v54, main_v55, main_v56, main_v57, main_cst_8, main_v58, main_v59, main_cst_9, main_v60, main_v61, main_v62, main_v63, main_v64, main_cst_10, main_v65, main_v66, main_cst_11, main_v67, main_v68, main_v69, main_v70, main_cst_12, main_v71, main_v72, main_v73, main_v74, main_v75, main_v76, main_v77, main_v78, main_v79, main_v80, main_v81, main_call0_cst, main_call0_v0, main_v82]
theorem T4_writes : (T4 : List (HloOp τ sig (Elt F))).Forall fun op => op.writes ⊆ (wr4.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, unaryIndexed_writes, nary_writes, Finset.singleton_subset_iff, List.mem_toFinset]; exact List.mem_map_of_mem (by decide))
/-- A buffer stretch 4 does not write holds after it what it held before. -/
theorem keep4 (V : Valuation τ sig (Elt F)) (b : Ref sig .tc) (hb : b ∉ wr4) :
    S4 V (Proc.devRef .tc b) = S3 V (Proc.devRef .tc b) :=
  after_of_writes_sub T4 _ T4_writes hb

/-- The buffers stretch 5's operations write, in order. -/
abbrev wr5 : List (Ref sig .tc) :=
  [main_v83, main_v84, main_v85]
theorem T5_writes : (T5 : List (HloOp τ sig (Elt F))).Forall fun op => op.writes ⊆ (wr5.map (Proc.devRef (τ := τ) .tc)).toFinset := by
  simp only [List.Forall]
  refine ⟨?_, ?_, ?_⟩ <;>
    (simp only [nullary_writes, unary_writes, binary_writes, ternary_writes, quaternary_writes, reshape_writes, binaryIndexed_writes, unaryIndexed_writes, nary_writes, Finset.singleton_subset_iff, List.mem_toFinset]; exact List.mem_map_of_mem (by decide))
/-- A buffer stretch 5 does not write holds after it what it held before. -/
theorem keep5 (V : Valuation τ sig (Elt F)) (b : Ref sig .tc) (hb : b ∉ wr5) :
    S5 V (Proc.devRef .tc b) = S4 V (Proc.devRef .tc b) :=
  after_of_writes_sub T5 _ T5_writes hb

/-- The buffers stretch 6's operations write, in order. -/
abbrev wr6 : List (Ref sig .tc) :=
  [main_c_13, main_v86, main_v87, main_c_14, main_v88, main_v89, main_v90, main_v91, main_v92, main_v93, main_v94, main_cst_15, main_v95, main_v96, main_v97]
theorem T6_writes : (T6 : List (HloOp τ sig (Elt F))).Forall fun op => op.writes ⊆ (wr6.map (Proc.devRef (τ := τ) .tc)).toFinset := by
  simp only [List.Forall]
  refine ⟨?_, ?_, ?_, ?_, ?_, ?_, ?_, ?_, ?_, ?_, ?_, ?_, ?_, ?_, ?_⟩ <;>
    (simp only [nullary_writes, unary_writes, binary_writes, ternary_writes, quaternary_writes, reshape_writes, binaryIndexed_writes, unaryIndexed_writes, nary_writes, Finset.singleton_subset_iff, List.mem_toFinset]; exact List.mem_map_of_mem (by decide))
/-- A buffer stretch 6 does not write holds after it what it held before. -/
theorem keep6 (V : Valuation τ sig (Elt F)) (b : Ref sig .tc) (hb : b ∉ wr6) :
    S6 V (Proc.devRef .tc b) = S5 V (Proc.devRef .tc b) :=
  after_of_writes_sub T6 _ T6_writes hb

/-- The buffers stretch 7's operations write, in order. -/
abbrev wr7 : List (Ref sig .tc) :=
  [main_v98, main_v99, main_v100, main_v101, main_v102, main_v103, main_v104, main_v105, main_v106, main_cst_16, main_v107, main_v108, main_cst_17, main_v109, main_v110, main_v111, main_v112, main_v113, main_cst_18, main_v114, main_v115, main_cst_19, main_v116, main_v117, main_v118, main_v119, main_cst_20, main_v120, main_v121, main_v122, main_v123, main_v124, main_v125, main_v126, main_v127, main_v128, main_v129, main_v130, main_call1_cst, main_call1_v0, main_v131, main_v132]
theorem T7_writes : (T7 : List (HloOp τ sig (Elt F))).Forall fun op => op.writes ⊆ (wr7.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, unaryIndexed_writes, nary_writes, Finset.singleton_subset_iff, List.mem_toFinset]; exact List.mem_map_of_mem (by decide))
/-- A buffer stretch 7 does not write holds after it what it held before. -/
theorem keep7 (V : Valuation τ sig (Elt F)) (b : Ref sig .tc) (hb : b ∉ wr7) :
    S7 V (Proc.devRef .tc b) = S6 V (Proc.devRef .tc b) :=
  after_of_writes_sub T7 _ T7_writes hb

/-- The buffers stretch 8's operations write, in order. -/
abbrev wr8 : List (Ref sig .tc) :=
  [main_v133, main_v134, main_v135]
theorem T8_writes : (T8 : List (HloOp τ sig (Elt F))).Forall fun op => op.writes ⊆ (wr8.map (Proc.devRef (τ := τ) .tc)).toFinset := by
  simp only [List.Forall]
  refine ⟨?_, ?_, ?_⟩ <;>
    (simp only [nullary_writes, unary_writes, binary_writes, ternary_writes, quaternary_writes, reshape_writes, binaryIndexed_writes, unaryIndexed_writes, nary_writes, Finset.singleton_subset_iff, List.mem_toFinset]; exact List.mem_map_of_mem (by decide))
/-- A buffer stretch 8 does not write holds after it what it held before. -/
theorem keep8 (V : Valuation τ sig (Elt F)) (b : Ref sig .tc) (hb : b ∉ wr8) :
    S8 V (Proc.devRef .tc b) = S7 V (Proc.devRef .tc b) :=
  after_of_writes_sub T8 _ T8_writes hb

/-- The buffers stretch 9's operations write, in order. -/
abbrev wr9 : List (Ref sig .tc) :=
  [main_c_21, main_v136, main_v137, main_c_22, main_v138, main_v139, main_v140, main_v141, main_v142, main_v143, main_v144, main_cst_23, main_v145, main_v146, main_v147]
theorem T9_writes : (T9 : List (HloOp τ sig (Elt F))).Forall fun op => op.writes ⊆ (wr9.map (Proc.devRef (τ := τ) .tc)).toFinset := by
  simp only [List.Forall]
  refine ⟨?_, ?_, ?_, ?_, ?_, ?_, ?_, ?_, ?_, ?_, ?_, ?_, ?_, ?_, ?_⟩ <;>
    (simp only [nullary_writes, unary_writes, binary_writes, ternary_writes, quaternary_writes, reshape_writes, binaryIndexed_writes, unaryIndexed_writes, nary_writes, Finset.singleton_subset_iff, List.mem_toFinset]; exact List.mem_map_of_mem (by decide))
/-- A buffer stretch 9 does not write holds after it what it held before. -/
theorem keep9 (V : Valuation τ sig (Elt F)) (b : Ref sig .tc) (hb : b ∉ wr9) :
    S9 V (Proc.devRef .tc b) = S8 V (Proc.devRef .tc b) :=
  after_of_writes_sub T9 _ T9_writes hb

/-- The buffers stretch 10's operations write, in order. -/
abbrev wr10 : List (Ref sig .tc) :=
  [main_v148, main_v149, main_v150, main_v151, main_v152, main_v153, main_v154, main_v155, main_v156, main_cst_24, main_v157, main_v158, main_cst_25, main_v159, main_v160, main_v161, main_v162, main_v163, main_cst_26, main_v164, main_v165, main_cst_27, main_v166, main_v167, main_v168, main_v169, main_cst_28, main_v170, main_v171, main_v172, main_v173, main_v174, main_v175, main_v176, main_v177, main_v178, main_v179, main_v180, main_call2_cst, main_call2_v0, main_v181, main_v182]
theorem T10_writes : (T10 : List (HloOp τ sig (Elt F))).Forall fun op => op.writes ⊆ (wr10.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, unaryIndexed_writes, nary_writes, Finset.singleton_subset_iff, List.mem_toFinset]; exact List.mem_map_of_mem (by decide))
/-- A buffer stretch 10 does not write holds after it what it held before. -/
theorem keep10 (V : Valuation τ sig (Elt F)) (b : Ref sig .tc) (hb : b ∉ wr10) :
    S10 V (Proc.devRef .tc b) = S9 V (Proc.devRef .tc b) :=
  after_of_writes_sub T10 _ T10_writes hb

/-! ## Buffers read back through the stretches that do not write them

Each buffer below is written by one stretch (an argument by none). After any later stretch it holds what its own
stretch left (an argument: what it held at the start). -/

theorem S10_arg0 (V : Valuation τ sig (Elt F)) : S10 V (Proc.devRef .tc main_arg0) = V (Proc.devRef .tc main_arg0) :=
  calc S10 V (Proc.devRef .tc main_arg0)
    _ = S9 V (Proc.devRef .tc main_arg0) := keep10 V main_arg0 (by decide)
    _ = S8 V (Proc.devRef .tc main_arg0) := keep9 V main_arg0 (by decide)
    _ = S7 V (Proc.devRef .tc main_arg0) := keep8 V main_arg0 (by decide)
    _ = S6 V (Proc.devRef .tc main_arg0) := keep7 V main_arg0 (by decide)
    _ = S5 V (Proc.devRef .tc main_arg0) := keep6 V main_arg0 (by decide)
    _ = S4 V (Proc.devRef .tc main_arg0) := keep5 V main_arg0 (by decide)
    _ = S3 V (Proc.devRef .tc main_arg0) := keep4 V main_arg0 (by decide)
    _ = S2 V (Proc.devRef .tc main_arg0) := keep3 V main_arg0 (by decide)
    _ = S1 V (Proc.devRef .tc main_arg0) := keep2 V main_arg0 (by decide)
    _ = S0 V (Proc.devRef .tc main_arg0) := keep1 V main_arg0 (by decide)
    _ = V (Proc.devRef .tc main_arg0) := keep0 V main_arg0 (by decide)

theorem S10_arg1 (V : Valuation τ sig (Elt F)) : S10 V (Proc.devRef .tc main_arg1) = V (Proc.devRef .tc main_arg1) :=
  calc S10 V (Proc.devRef .tc main_arg1)
    _ = S9 V (Proc.devRef .tc main_arg1) := keep10 V main_arg1 (by decide)
    _ = S8 V (Proc.devRef .tc main_arg1) := keep9 V main_arg1 (by decide)
    _ = S7 V (Proc.devRef .tc main_arg1) := keep8 V main_arg1 (by decide)
    _ = S6 V (Proc.devRef .tc main_arg1) := keep7 V main_arg1 (by decide)
    _ = S5 V (Proc.devRef .tc main_arg1) := keep6 V main_arg1 (by decide)
    _ = S4 V (Proc.devRef .tc main_arg1) := keep5 V main_arg1 (by decide)
    _ = S3 V (Proc.devRef .tc main_arg1) := keep4 V main_arg1 (by decide)
    _ = S2 V (Proc.devRef .tc main_arg1) := keep3 V main_arg1 (by decide)
    _ = S1 V (Proc.devRef .tc main_arg1) := keep2 V main_arg1 (by decide)
    _ = S0 V (Proc.devRef .tc main_arg1) := keep1 V main_arg1 (by decide)
    _ = V (Proc.devRef .tc main_arg1) := keep0 V main_arg1 (by decide)

theorem S10_arg2 (V : Valuation τ sig (Elt F)) : S10 V (Proc.devRef .tc main_arg2) = V (Proc.devRef .tc main_arg2) :=
  calc S10 V (Proc.devRef .tc main_arg2)
    _ = S9 V (Proc.devRef .tc main_arg2) := keep10 V main_arg2 (by decide)
    _ = S8 V (Proc.devRef .tc main_arg2) := keep9 V main_arg2 (by decide)
    _ = S7 V (Proc.devRef .tc main_arg2) := keep8 V main_arg2 (by decide)
    _ = S6 V (Proc.devRef .tc main_arg2) := keep7 V main_arg2 (by decide)
    _ = S5 V (Proc.devRef .tc main_arg2) := keep6 V main_arg2 (by decide)
    _ = S4 V (Proc.devRef .tc main_arg2) := keep5 V main_arg2 (by decide)
    _ = S3 V (Proc.devRef .tc main_arg2) := keep4 V main_arg2 (by decide)
    _ = S2 V (Proc.devRef .tc main_arg2) := keep3 V main_arg2 (by decide)
    _ = S1 V (Proc.devRef .tc main_arg2) := keep2 V main_arg2 (by decide)
    _ = S0 V (Proc.devRef .tc main_arg2) := keep1 V main_arg2 (by decide)
    _ = V (Proc.devRef .tc main_arg2) := keep0 V main_arg2 (by decide)

theorem S10_arg3 (V : Valuation τ sig (Elt F)) : S10 V (Proc.devRef .tc main_arg3) = V (Proc.devRef .tc main_arg3) :=
  calc S10 V (Proc.devRef .tc main_arg3)
    _ = S9 V (Proc.devRef .tc main_arg3) := keep10 V main_arg3 (by decide)
    _ = S8 V (Proc.devRef .tc main_arg3) := keep9 V main_arg3 (by decide)
    _ = S7 V (Proc.devRef .tc main_arg3) := keep8 V main_arg3 (by decide)
    _ = S6 V (Proc.devRef .tc main_arg3) := keep7 V main_arg3 (by decide)
    _ = S5 V (Proc.devRef .tc main_arg3) := keep6 V main_arg3 (by decide)
    _ = S4 V (Proc.devRef .tc main_arg3) := keep5 V main_arg3 (by decide)
    _ = S3 V (Proc.devRef .tc main_arg3) := keep4 V main_arg3 (by decide)
    _ = S2 V (Proc.devRef .tc main_arg3) := keep3 V main_arg3 (by decide)
    _ = S1 V (Proc.devRef .tc main_arg3) := keep2 V main_arg3 (by decide)
    _ = S0 V (Proc.devRef .tc main_arg3) := keep1 V main_arg3 (by decide)
    _ = V (Proc.devRef .tc main_arg3) := keep0 V main_arg3 (by decide)

theorem S10_arg4 (V : Valuation τ sig (Elt F)) : S10 V (Proc.devRef .tc main_arg4) = V (Proc.devRef .tc main_arg4) :=
  calc S10 V (Proc.devRef .tc main_arg4)
    _ = S9 V (Proc.devRef .tc main_arg4) := keep10 V main_arg4 (by decide)
    _ = S8 V (Proc.devRef .tc main_arg4) := keep9 V main_arg4 (by decide)
    _ = S7 V (Proc.devRef .tc main_arg4) := keep8 V main_arg4 (by decide)
    _ = S6 V (Proc.devRef .tc main_arg4) := keep7 V main_arg4 (by decide)
    _ = S5 V (Proc.devRef .tc main_arg4) := keep6 V main_arg4 (by decide)
    _ = S4 V (Proc.devRef .tc main_arg4) := keep5 V main_arg4 (by decide)
    _ = S3 V (Proc.devRef .tc main_arg4) := keep4 V main_arg4 (by decide)
    _ = S2 V (Proc.devRef .tc main_arg4) := keep3 V main_arg4 (by decide)
    _ = S1 V (Proc.devRef .tc main_arg4) := keep2 V main_arg4 (by decide)
    _ = S0 V (Proc.devRef .tc main_arg4) := keep1 V main_arg4 (by decide)
    _ = V (Proc.devRef .tc main_arg4) := keep0 V main_arg4 (by decide)

theorem S10_arg5 (V : Valuation τ sig (Elt F)) : S10 V (Proc.devRef .tc main_arg5) = V (Proc.devRef .tc main_arg5) :=
  calc S10 V (Proc.devRef .tc main_arg5)
    _ = S9 V (Proc.devRef .tc main_arg5) := keep10 V main_arg5 (by decide)
    _ = S8 V (Proc.devRef .tc main_arg5) := keep9 V main_arg5 (by decide)
    _ = S7 V (Proc.devRef .tc main_arg5) := keep8 V main_arg5 (by decide)
    _ = S6 V (Proc.devRef .tc main_arg5) := keep7 V main_arg5 (by decide)
    _ = S5 V (Proc.devRef .tc main_arg5) := keep6 V main_arg5 (by decide)
    _ = S4 V (Proc.devRef .tc main_arg5) := keep5 V main_arg5 (by decide)
    _ = S3 V (Proc.devRef .tc main_arg5) := keep4 V main_arg5 (by decide)
    _ = S2 V (Proc.devRef .tc main_arg5) := keep3 V main_arg5 (by decide)
    _ = S1 V (Proc.devRef .tc main_arg5) := keep2 V main_arg5 (by decide)
    _ = S0 V (Proc.devRef .tc main_arg5) := keep1 V main_arg5 (by decide)
    _ = V (Proc.devRef .tc main_arg5) := keep0 V main_arg5 (by decide)

theorem S10_arg6 (V : Valuation τ sig (Elt F)) : S10 V (Proc.devRef .tc main_arg6) = V (Proc.devRef .tc main_arg6) :=
  calc S10 V (Proc.devRef .tc main_arg6)
    _ = S9 V (Proc.devRef .tc main_arg6) := keep10 V main_arg6 (by decide)
    _ = S8 V (Proc.devRef .tc main_arg6) := keep9 V main_arg6 (by decide)
    _ = S7 V (Proc.devRef .tc main_arg6) := keep8 V main_arg6 (by decide)
    _ = S6 V (Proc.devRef .tc main_arg6) := keep7 V main_arg6 (by decide)
    _ = S5 V (Proc.devRef .tc main_arg6) := keep6 V main_arg6 (by decide)
    _ = S4 V (Proc.devRef .tc main_arg6) := keep5 V main_arg6 (by decide)
    _ = S3 V (Proc.devRef .tc main_arg6) := keep4 V main_arg6 (by decide)
    _ = S2 V (Proc.devRef .tc main_arg6) := keep3 V main_arg6 (by decide)
    _ = S1 V (Proc.devRef .tc main_arg6) := keep2 V main_arg6 (by decide)
    _ = S0 V (Proc.devRef .tc main_arg6) := keep1 V main_arg6 (by decide)
    _ = V (Proc.devRef .tc main_arg6) := keep0 V main_arg6 (by decide)

theorem S10_arg7 (V : Valuation τ sig (Elt F)) : S10 V (Proc.devRef .tc main_arg7) = V (Proc.devRef .tc main_arg7) :=
  calc S10 V (Proc.devRef .tc main_arg7)
    _ = S9 V (Proc.devRef .tc main_arg7) := keep10 V main_arg7 (by decide)
    _ = S8 V (Proc.devRef .tc main_arg7) := keep9 V main_arg7 (by decide)
    _ = S7 V (Proc.devRef .tc main_arg7) := keep8 V main_arg7 (by decide)
    _ = S6 V (Proc.devRef .tc main_arg7) := keep7 V main_arg7 (by decide)
    _ = S5 V (Proc.devRef .tc main_arg7) := keep6 V main_arg7 (by decide)
    _ = S4 V (Proc.devRef .tc main_arg7) := keep5 V main_arg7 (by decide)
    _ = S3 V (Proc.devRef .tc main_arg7) := keep4 V main_arg7 (by decide)
    _ = S2 V (Proc.devRef .tc main_arg7) := keep3 V main_arg7 (by decide)
    _ = S1 V (Proc.devRef .tc main_arg7) := keep2 V main_arg7 (by decide)
    _ = S0 V (Proc.devRef .tc main_arg7) := keep1 V main_arg7 (by decide)
    _ = V (Proc.devRef .tc main_arg7) := keep0 V main_arg7 (by decide)

theorem S10_v3 (V : Valuation τ sig (Elt F)) : S10 V (Proc.devRef .tc main_v3) = S0 V (Proc.devRef .tc main_v3) :=
  calc S10 V (Proc.devRef .tc main_v3)
    _ = S9 V (Proc.devRef .tc main_v3) := keep10 V main_v3 (by decide)
    _ = S8 V (Proc.devRef .tc main_v3) := keep9 V main_v3 (by decide)
    _ = S7 V (Proc.devRef .tc main_v3) := keep8 V main_v3 (by decide)
    _ = S6 V (Proc.devRef .tc main_v3) := keep7 V main_v3 (by decide)
    _ = S5 V (Proc.devRef .tc main_v3) := keep6 V main_v3 (by decide)
    _ = S4 V (Proc.devRef .tc main_v3) := keep5 V main_v3 (by decide)
    _ = S3 V (Proc.devRef .tc main_v3) := keep4 V main_v3 (by decide)
    _ = S2 V (Proc.devRef .tc main_v3) := keep3 V main_v3 (by decide)
    _ = S1 V (Proc.devRef .tc main_v3) := keep2 V main_v3 (by decide)
    _ = S0 V (Proc.devRef .tc main_v3) := keep1 V main_v3 (by decide)

theorem S10_v6 (V : Valuation τ sig (Elt F)) : S10 V (Proc.devRef .tc main_v6) = S0 V (Proc.devRef .tc main_v6) :=
  calc S10 V (Proc.devRef .tc main_v6)
    _ = S9 V (Proc.devRef .tc main_v6) := keep10 V main_v6 (by decide)
    _ = S8 V (Proc.devRef .tc main_v6) := keep9 V main_v6 (by decide)
    _ = S7 V (Proc.devRef .tc main_v6) := keep8 V main_v6 (by decide)
    _ = S6 V (Proc.devRef .tc main_v6) := keep7 V main_v6 (by decide)
    _ = S5 V (Proc.devRef .tc main_v6) := keep6 V main_v6 (by decide)
    _ = S4 V (Proc.devRef .tc main_v6) := keep5 V main_v6 (by decide)
    _ = S3 V (Proc.devRef .tc main_v6) := keep4 V main_v6 (by decide)
    _ = S2 V (Proc.devRef .tc main_v6) := keep3 V main_v6 (by decide)
    _ = S1 V (Proc.devRef .tc main_v6) := keep2 V main_v6 (by decide)
    _ = S0 V (Proc.devRef .tc main_v6) := keep1 V main_v6 (by decide)

theorem S10_v29 (V : Valuation τ sig (Elt F)) : S10 V (Proc.devRef .tc main_v29) = S0 V (Proc.devRef .tc main_v29) :=
  calc S10 V (Proc.devRef .tc main_v29)
    _ = S9 V (Proc.devRef .tc main_v29) := keep10 V main_v29 (by decide)
    _ = S8 V (Proc.devRef .tc main_v29) := keep9 V main_v29 (by decide)
    _ = S7 V (Proc.devRef .tc main_v29) := keep8 V main_v29 (by decide)
    _ = S6 V (Proc.devRef .tc main_v29) := keep7 V main_v29 (by decide)
    _ = S5 V (Proc.devRef .tc main_v29) := keep6 V main_v29 (by decide)
    _ = S4 V (Proc.devRef .tc main_v29) := keep5 V main_v29 (by decide)
    _ = S3 V (Proc.devRef .tc main_v29) := keep4 V main_v29 (by decide)
    _ = S2 V (Proc.devRef .tc main_v29) := keep3 V main_v29 (by decide)
    _ = S1 V (Proc.devRef .tc main_v29) := keep2 V main_v29 (by decide)
    _ = S0 V (Proc.devRef .tc main_v29) := keep1 V main_v29 (by decide)

theorem S10_v33 (V : Valuation τ sig (Elt F)) : S10 V (Proc.devRef .tc main_v33) = S1 V (Proc.devRef .tc main_v33) :=
  calc S10 V (Proc.devRef .tc main_v33)
    _ = S9 V (Proc.devRef .tc main_v33) := keep10 V main_v33 (by decide)
    _ = S8 V (Proc.devRef .tc main_v33) := keep9 V main_v33 (by decide)
    _ = S7 V (Proc.devRef .tc main_v33) := keep8 V main_v33 (by decide)
    _ = S6 V (Proc.devRef .tc main_v33) := keep7 V main_v33 (by decide)
    _ = S5 V (Proc.devRef .tc main_v33) := keep6 V main_v33 (by decide)
    _ = S4 V (Proc.devRef .tc main_v33) := keep5 V main_v33 (by decide)
    _ = S3 V (Proc.devRef .tc main_v33) := keep4 V main_v33 (by decide)
    _ = S2 V (Proc.devRef .tc main_v33) := keep3 V main_v33 (by decide)
    _ = S1 V (Proc.devRef .tc main_v33) := keep2 V main_v33 (by decide)

theorem S10_v36 (V : Valuation τ sig (Elt F)) : S10 V (Proc.devRef .tc main_v36) = S2 V (Proc.devRef .tc main_v36) :=
  calc S10 V (Proc.devRef .tc main_v36)
    _ = S9 V (Proc.devRef .tc main_v36) := keep10 V main_v36 (by decide)
    _ = S8 V (Proc.devRef .tc main_v36) := keep9 V main_v36 (by decide)
    _ = S7 V (Proc.devRef .tc main_v36) := keep8 V main_v36 (by decide)
    _ = S6 V (Proc.devRef .tc main_v36) := keep7 V main_v36 (by decide)
    _ = S5 V (Proc.devRef .tc main_v36) := keep6 V main_v36 (by decide)
    _ = S4 V (Proc.devRef .tc main_v36) := keep5 V main_v36 (by decide)
    _ = S3 V (Proc.devRef .tc main_v36) := keep4 V main_v36 (by decide)
    _ = S2 V (Proc.devRef .tc main_v36) := keep3 V main_v36 (by decide)

theorem S10_v48 (V : Valuation τ sig (Elt F)) : S10 V (Proc.devRef .tc main_v48) = S3 V (Proc.devRef .tc main_v48) :=
  calc S10 V (Proc.devRef .tc main_v48)
    _ = S9 V (Proc.devRef .tc main_v48) := keep10 V main_v48 (by decide)
    _ = S8 V (Proc.devRef .tc main_v48) := keep9 V main_v48 (by decide)
    _ = S7 V (Proc.devRef .tc main_v48) := keep8 V main_v48 (by decide)
    _ = S6 V (Proc.devRef .tc main_v48) := keep7 V main_v48 (by decide)
    _ = S5 V (Proc.devRef .tc main_v48) := keep6 V main_v48 (by decide)
    _ = S4 V (Proc.devRef .tc main_v48) := keep5 V main_v48 (by decide)
    _ = S3 V (Proc.devRef .tc main_v48) := keep4 V main_v48 (by decide)

theorem S10_v82 (V : Valuation τ sig (Elt F)) : S10 V (Proc.devRef .tc main_v82) = S4 V (Proc.devRef .tc main_v82) :=
  calc S10 V (Proc.devRef .tc main_v82)
    _ = S9 V (Proc.devRef .tc main_v82) := keep10 V main_v82 (by decide)
    _ = S8 V (Proc.devRef .tc main_v82) := keep9 V main_v82 (by decide)
    _ = S7 V (Proc.devRef .tc main_v82) := keep8 V main_v82 (by decide)
    _ = S6 V (Proc.devRef .tc main_v82) := keep7 V main_v82 (by decide)
    _ = S5 V (Proc.devRef .tc main_v82) := keep6 V main_v82 (by decide)
    _ = S4 V (Proc.devRef .tc main_v82) := keep5 V main_v82 (by decide)

theorem S10_v85 (V : Valuation τ sig (Elt F)) : S10 V (Proc.devRef .tc main_v85) = S5 V (Proc.devRef .tc main_v85) :=
  calc S10 V (Proc.devRef .tc main_v85)
    _ = S9 V (Proc.devRef .tc main_v85) := keep10 V main_v85 (by decide)
    _ = S8 V (Proc.devRef .tc main_v85) := keep9 V main_v85 (by decide)
    _ = S7 V (Proc.devRef .tc main_v85) := keep8 V main_v85 (by decide)
    _ = S6 V (Proc.devRef .tc main_v85) := keep7 V main_v85 (by decide)
    _ = S5 V (Proc.devRef .tc main_v85) := keep6 V main_v85 (by decide)

theorem S10_v97 (V : Valuation τ sig (Elt F)) : S10 V (Proc.devRef .tc main_v97) = S6 V (Proc.devRef .tc main_v97) :=
  calc S10 V (Proc.devRef .tc main_v97)
    _ = S9 V (Proc.devRef .tc main_v97) := keep10 V main_v97 (by decide)
    _ = S8 V (Proc.devRef .tc main_v97) := keep9 V main_v97 (by decide)
    _ = S7 V (Proc.devRef .tc main_v97) := keep8 V main_v97 (by decide)
    _ = S6 V (Proc.devRef .tc main_v97) := keep7 V main_v97 (by decide)

theorem S10_v132 (V : Valuation τ sig (Elt F)) : S10 V (Proc.devRef .tc main_v132) = S7 V (Proc.devRef .tc main_v132) :=
  calc S10 V (Proc.devRef .tc main_v132)
    _ = S9 V (Proc.devRef .tc main_v132) := keep10 V main_v132 (by decide)
    _ = S8 V (Proc.devRef .tc main_v132) := keep9 V main_v132 (by decide)
    _ = S7 V (Proc.devRef .tc main_v132) := keep8 V main_v132 (by decide)

theorem S10_v135 (V : Valuation τ sig (Elt F)) : S10 V (Proc.devRef .tc main_v135) = S8 V (Proc.devRef .tc main_v135) :=
  calc S10 V (Proc.devRef .tc main_v135)
    _ = S9 V (Proc.devRef .tc main_v135) := keep10 V main_v135 (by decide)
    _ = S8 V (Proc.devRef .tc main_v135) := keep9 V main_v135 (by decide)

theorem S10_v147 (V : Valuation τ sig (Elt F)) : S10 V (Proc.devRef .tc main_v147) = S9 V (Proc.devRef .tc main_v147) :=
  calc S10 V (Proc.devRef .tc main_v147)
    _ = S9 V (Proc.devRef .tc main_v147) := keep10 V main_v147 (by decide)

theorem S0_arg0 (V : Valuation τ sig (Elt F)) : S0 V (Proc.devRef .tc main_arg0) = V (Proc.devRef .tc main_arg0) :=
  calc S0 V (Proc.devRef .tc main_arg0)
    _ = V (Proc.devRef .tc main_arg0) := keep0 V main_arg0 (by decide)

theorem S0_arg2 (V : Valuation τ sig (Elt F)) : S0 V (Proc.devRef .tc main_arg2) = V (Proc.devRef .tc main_arg2) :=
  calc S0 V (Proc.devRef .tc main_arg2)
    _ = V (Proc.devRef .tc main_arg2) := keep0 V main_arg2 (by decide)

theorem S0_arg3 (V : Valuation τ sig (Elt F)) : S0 V (Proc.devRef .tc main_arg3) = V (Proc.devRef .tc main_arg3) :=
  calc S0 V (Proc.devRef .tc main_arg3)
    _ = V (Proc.devRef .tc main_arg3) := keep0 V main_arg3 (by decide)

theorem S1_arg4 (V : Valuation τ sig (Elt F)) : S1 V (Proc.devRef .tc main_arg4) = V (Proc.devRef .tc main_arg4) :=
  calc S1 V (Proc.devRef .tc main_arg4)
    _ = S0 V (Proc.devRef .tc main_arg4) := keep1 V main_arg4 (by decide)
    _ = V (Proc.devRef .tc main_arg4) := keep0 V main_arg4 (by decide)

theorem S4_arg4 (V : Valuation τ sig (Elt F)) : S4 V (Proc.devRef .tc main_arg4) = V (Proc.devRef .tc main_arg4) :=
  calc S4 V (Proc.devRef .tc main_arg4)
    _ = S3 V (Proc.devRef .tc main_arg4) := keep4 V main_arg4 (by decide)
    _ = S2 V (Proc.devRef .tc main_arg4) := keep3 V main_arg4 (by decide)
    _ = S1 V (Proc.devRef .tc main_arg4) := keep2 V main_arg4 (by decide)
    _ = S0 V (Proc.devRef .tc main_arg4) := keep1 V main_arg4 (by decide)
    _ = V (Proc.devRef .tc main_arg4) := keep0 V main_arg4 (by decide)

theorem S7_arg4 (V : Valuation τ sig (Elt F)) : S7 V (Proc.devRef .tc main_arg4) = V (Proc.devRef .tc main_arg4) :=
  calc S7 V (Proc.devRef .tc main_arg4)
    _ = S6 V (Proc.devRef .tc main_arg4) := keep7 V main_arg4 (by decide)
    _ = S5 V (Proc.devRef .tc main_arg4) := keep6 V main_arg4 (by decide)
    _ = S4 V (Proc.devRef .tc main_arg4) := keep5 V main_arg4 (by decide)
    _ = S3 V (Proc.devRef .tc main_arg4) := keep4 V main_arg4 (by decide)
    _ = S2 V (Proc.devRef .tc main_arg4) := keep3 V main_arg4 (by decide)
    _ = S1 V (Proc.devRef .tc main_arg4) := keep2 V main_arg4 (by decide)
    _ = S0 V (Proc.devRef .tc main_arg4) := keep1 V main_arg4 (by decide)
    _ = V (Proc.devRef .tc main_arg4) := keep0 V main_arg4 (by decide)

theorem S2_v3 (V : Valuation τ sig (Elt F)) : S2 V (Proc.devRef .tc main_v3) = S0 V (Proc.devRef .tc main_v3) :=
  calc S2 V (Proc.devRef .tc main_v3)
    _ = S1 V (Proc.devRef .tc main_v3) := keep2 V main_v3 (by decide)
    _ = S0 V (Proc.devRef .tc main_v3) := keep1 V main_v3 (by decide)

theorem S5_v3 (V : Valuation τ sig (Elt F)) : S5 V (Proc.devRef .tc main_v3) = S0 V (Proc.devRef .tc main_v3) :=
  calc S5 V (Proc.devRef .tc main_v3)
    _ = S4 V (Proc.devRef .tc main_v3) := keep5 V main_v3 (by decide)
    _ = S3 V (Proc.devRef .tc main_v3) := keep4 V main_v3 (by decide)
    _ = S2 V (Proc.devRef .tc main_v3) := keep3 V main_v3 (by decide)
    _ = S1 V (Proc.devRef .tc main_v3) := keep2 V main_v3 (by decide)
    _ = S0 V (Proc.devRef .tc main_v3) := keep1 V main_v3 (by decide)

theorem S8_v3 (V : Valuation τ sig (Elt F)) : S8 V (Proc.devRef .tc main_v3) = S0 V (Proc.devRef .tc main_v3) :=
  calc S8 V (Proc.devRef .tc main_v3)
    _ = S7 V (Proc.devRef .tc main_v3) := keep8 V main_v3 (by decide)
    _ = S6 V (Proc.devRef .tc main_v3) := keep7 V main_v3 (by decide)
    _ = S5 V (Proc.devRef .tc main_v3) := keep6 V main_v3 (by decide)
    _ = S4 V (Proc.devRef .tc main_v3) := keep5 V main_v3 (by decide)
    _ = S3 V (Proc.devRef .tc main_v3) := keep4 V main_v3 (by decide)
    _ = S2 V (Proc.devRef .tc main_v3) := keep3 V main_v3 (by decide)
    _ = S1 V (Proc.devRef .tc main_v3) := keep2 V main_v3 (by decide)
    _ = S0 V (Proc.devRef .tc main_v3) := keep1 V main_v3 (by decide)

theorem S2_v6 (V : Valuation τ sig (Elt F)) : S2 V (Proc.devRef .tc main_v6) = S0 V (Proc.devRef .tc main_v6) :=
  calc S2 V (Proc.devRef .tc main_v6)
    _ = S1 V (Proc.devRef .tc main_v6) := keep2 V main_v6 (by decide)
    _ = S0 V (Proc.devRef .tc main_v6) := keep1 V main_v6 (by decide)

theorem S5_v6 (V : Valuation τ sig (Elt F)) : S5 V (Proc.devRef .tc main_v6) = S0 V (Proc.devRef .tc main_v6) :=
  calc S5 V (Proc.devRef .tc main_v6)
    _ = S4 V (Proc.devRef .tc main_v6) := keep5 V main_v6 (by decide)
    _ = S3 V (Proc.devRef .tc main_v6) := keep4 V main_v6 (by decide)
    _ = S2 V (Proc.devRef .tc main_v6) := keep3 V main_v6 (by decide)
    _ = S1 V (Proc.devRef .tc main_v6) := keep2 V main_v6 (by decide)
    _ = S0 V (Proc.devRef .tc main_v6) := keep1 V main_v6 (by decide)

theorem S8_v6 (V : Valuation τ sig (Elt F)) : S8 V (Proc.devRef .tc main_v6) = S0 V (Proc.devRef .tc main_v6) :=
  calc S8 V (Proc.devRef .tc main_v6)
    _ = S7 V (Proc.devRef .tc main_v6) := keep8 V main_v6 (by decide)
    _ = S6 V (Proc.devRef .tc main_v6) := keep7 V main_v6 (by decide)
    _ = S5 V (Proc.devRef .tc main_v6) := keep6 V main_v6 (by decide)
    _ = S4 V (Proc.devRef .tc main_v6) := keep5 V main_v6 (by decide)
    _ = S3 V (Proc.devRef .tc main_v6) := keep4 V main_v6 (by decide)
    _ = S2 V (Proc.devRef .tc main_v6) := keep3 V main_v6 (by decide)
    _ = S1 V (Proc.devRef .tc main_v6) := keep2 V main_v6 (by decide)
    _ = S0 V (Proc.devRef .tc main_v6) := keep1 V main_v6 (by decide)

theorem S2_v29 (V : Valuation τ sig (Elt F)) : S2 V (Proc.devRef .tc main_v29) = S0 V (Proc.devRef .tc main_v29) :=
  calc S2 V (Proc.devRef .tc main_v29)
    _ = S1 V (Proc.devRef .tc main_v29) := keep2 V main_v29 (by decide)
    _ = S0 V (Proc.devRef .tc main_v29) := keep1 V main_v29 (by decide)

theorem S5_v29 (V : Valuation τ sig (Elt F)) : S5 V (Proc.devRef .tc main_v29) = S0 V (Proc.devRef .tc main_v29) :=
  calc S5 V (Proc.devRef .tc main_v29)
    _ = S4 V (Proc.devRef .tc main_v29) := keep5 V main_v29 (by decide)
    _ = S3 V (Proc.devRef .tc main_v29) := keep4 V main_v29 (by decide)
    _ = S2 V (Proc.devRef .tc main_v29) := keep3 V main_v29 (by decide)
    _ = S1 V (Proc.devRef .tc main_v29) := keep2 V main_v29 (by decide)
    _ = S0 V (Proc.devRef .tc main_v29) := keep1 V main_v29 (by decide)

theorem S8_v29 (V : Valuation τ sig (Elt F)) : S8 V (Proc.devRef .tc main_v29) = S0 V (Proc.devRef .tc main_v29) :=
  calc S8 V (Proc.devRef .tc main_v29)
    _ = S7 V (Proc.devRef .tc main_v29) := keep8 V main_v29 (by decide)
    _ = S6 V (Proc.devRef .tc main_v29) := keep7 V main_v29 (by decide)
    _ = S5 V (Proc.devRef .tc main_v29) := keep6 V main_v29 (by decide)
    _ = S4 V (Proc.devRef .tc main_v29) := keep5 V main_v29 (by decide)
    _ = S3 V (Proc.devRef .tc main_v29) := keep4 V main_v29 (by decide)
    _ = S2 V (Proc.devRef .tc main_v29) := keep3 V main_v29 (by decide)
    _ = S1 V (Proc.devRef .tc main_v29) := keep2 V main_v29 (by decide)
    _ = S0 V (Proc.devRef .tc main_v29) := keep1 V main_v29 (by decide)

theorem S3_arg5 (V : Valuation τ sig (Elt F)) : S3 V (Proc.devRef .tc main_arg5) = V (Proc.devRef .tc main_arg5) :=
  calc S3 V (Proc.devRef .tc main_arg5)
    _ = S2 V (Proc.devRef .tc main_arg5) := keep3 V main_arg5 (by decide)
    _ = S1 V (Proc.devRef .tc main_arg5) := keep2 V main_arg5 (by decide)
    _ = S0 V (Proc.devRef .tc main_arg5) := keep1 V main_arg5 (by decide)
    _ = V (Proc.devRef .tc main_arg5) := keep0 V main_arg5 (by decide)

theorem S6_arg5 (V : Valuation τ sig (Elt F)) : S6 V (Proc.devRef .tc main_arg5) = V (Proc.devRef .tc main_arg5) :=
  calc S6 V (Proc.devRef .tc main_arg5)
    _ = S5 V (Proc.devRef .tc main_arg5) := keep6 V main_arg5 (by decide)
    _ = S4 V (Proc.devRef .tc main_arg5) := keep5 V main_arg5 (by decide)
    _ = S3 V (Proc.devRef .tc main_arg5) := keep4 V main_arg5 (by decide)
    _ = S2 V (Proc.devRef .tc main_arg5) := keep3 V main_arg5 (by decide)
    _ = S1 V (Proc.devRef .tc main_arg5) := keep2 V main_arg5 (by decide)
    _ = S0 V (Proc.devRef .tc main_arg5) := keep1 V main_arg5 (by decide)
    _ = V (Proc.devRef .tc main_arg5) := keep0 V main_arg5 (by decide)

theorem S9_arg5 (V : Valuation τ sig (Elt F)) : S9 V (Proc.devRef .tc main_arg5) = V (Proc.devRef .tc main_arg5) :=
  calc S9 V (Proc.devRef .tc main_arg5)
    _ = S8 V (Proc.devRef .tc main_arg5) := keep9 V main_arg5 (by decide)
    _ = S7 V (Proc.devRef .tc main_arg5) := keep8 V main_arg5 (by decide)
    _ = S6 V (Proc.devRef .tc main_arg5) := keep7 V main_arg5 (by decide)
    _ = S5 V (Proc.devRef .tc main_arg5) := keep6 V main_arg5 (by decide)
    _ = S4 V (Proc.devRef .tc main_arg5) := keep5 V main_arg5 (by decide)
    _ = S3 V (Proc.devRef .tc main_arg5) := keep4 V main_arg5 (by decide)
    _ = S2 V (Proc.devRef .tc main_arg5) := keep3 V main_arg5 (by decide)
    _ = S1 V (Proc.devRef .tc main_arg5) := keep2 V main_arg5 (by decide)
    _ = S0 V (Proc.devRef .tc main_arg5) := keep1 V main_arg5 (by decide)
    _ = V (Proc.devRef .tc main_arg5) := keep0 V main_arg5 (by decide)

theorem S3_arg6 (V : Valuation τ sig (Elt F)) : S3 V (Proc.devRef .tc main_arg6) = V (Proc.devRef .tc main_arg6) :=
  calc S3 V (Proc.devRef .tc main_arg6)
    _ = S2 V (Proc.devRef .tc main_arg6) := keep3 V main_arg6 (by decide)
    _ = S1 V (Proc.devRef .tc main_arg6) := keep2 V main_arg6 (by decide)
    _ = S0 V (Proc.devRef .tc main_arg6) := keep1 V main_arg6 (by decide)
    _ = V (Proc.devRef .tc main_arg6) := keep0 V main_arg6 (by decide)

theorem S6_arg6 (V : Valuation τ sig (Elt F)) : S6 V (Proc.devRef .tc main_arg6) = V (Proc.devRef .tc main_arg6) :=
  calc S6 V (Proc.devRef .tc main_arg6)
    _ = S5 V (Proc.devRef .tc main_arg6) := keep6 V main_arg6 (by decide)
    _ = S4 V (Proc.devRef .tc main_arg6) := keep5 V main_arg6 (by decide)
    _ = S3 V (Proc.devRef .tc main_arg6) := keep4 V main_arg6 (by decide)
    _ = S2 V (Proc.devRef .tc main_arg6) := keep3 V main_arg6 (by decide)
    _ = S1 V (Proc.devRef .tc main_arg6) := keep2 V main_arg6 (by decide)
    _ = S0 V (Proc.devRef .tc main_arg6) := keep1 V main_arg6 (by decide)
    _ = V (Proc.devRef .tc main_arg6) := keep0 V main_arg6 (by decide)

theorem S9_arg6 (V : Valuation τ sig (Elt F)) : S9 V (Proc.devRef .tc main_arg6) = V (Proc.devRef .tc main_arg6) :=
  calc S9 V (Proc.devRef .tc main_arg6)
    _ = S8 V (Proc.devRef .tc main_arg6) := keep9 V main_arg6 (by decide)
    _ = S7 V (Proc.devRef .tc main_arg6) := keep8 V main_arg6 (by decide)
    _ = S6 V (Proc.devRef .tc main_arg6) := keep7 V main_arg6 (by decide)
    _ = S5 V (Proc.devRef .tc main_arg6) := keep6 V main_arg6 (by decide)
    _ = S4 V (Proc.devRef .tc main_arg6) := keep5 V main_arg6 (by decide)
    _ = S3 V (Proc.devRef .tc main_arg6) := keep4 V main_arg6 (by decide)
    _ = S2 V (Proc.devRef .tc main_arg6) := keep3 V main_arg6 (by decide)
    _ = S1 V (Proc.devRef .tc main_arg6) := keep2 V main_arg6 (by decide)
    _ = S0 V (Proc.devRef .tc main_arg6) := keep1 V main_arg6 (by decide)
    _ = V (Proc.devRef .tc main_arg6) := keep0 V main_arg6 (by decide)

theorem S3_arg7 (V : Valuation τ sig (Elt F)) : S3 V (Proc.devRef .tc main_arg7) = V (Proc.devRef .tc main_arg7) :=
  calc S3 V (Proc.devRef .tc main_arg7)
    _ = S2 V (Proc.devRef .tc main_arg7) := keep3 V main_arg7 (by decide)
    _ = S1 V (Proc.devRef .tc main_arg7) := keep2 V main_arg7 (by decide)
    _ = S0 V (Proc.devRef .tc main_arg7) := keep1 V main_arg7 (by decide)
    _ = V (Proc.devRef .tc main_arg7) := keep0 V main_arg7 (by decide)

theorem S6_arg7 (V : Valuation τ sig (Elt F)) : S6 V (Proc.devRef .tc main_arg7) = V (Proc.devRef .tc main_arg7) :=
  calc S6 V (Proc.devRef .tc main_arg7)
    _ = S5 V (Proc.devRef .tc main_arg7) := keep6 V main_arg7 (by decide)
    _ = S4 V (Proc.devRef .tc main_arg7) := keep5 V main_arg7 (by decide)
    _ = S3 V (Proc.devRef .tc main_arg7) := keep4 V main_arg7 (by decide)
    _ = S2 V (Proc.devRef .tc main_arg7) := keep3 V main_arg7 (by decide)
    _ = S1 V (Proc.devRef .tc main_arg7) := keep2 V main_arg7 (by decide)
    _ = S0 V (Proc.devRef .tc main_arg7) := keep1 V main_arg7 (by decide)
    _ = V (Proc.devRef .tc main_arg7) := keep0 V main_arg7 (by decide)

theorem S9_arg7 (V : Valuation τ sig (Elt F)) : S9 V (Proc.devRef .tc main_arg7) = V (Proc.devRef .tc main_arg7) :=
  calc S9 V (Proc.devRef .tc main_arg7)
    _ = S8 V (Proc.devRef .tc main_arg7) := keep9 V main_arg7 (by decide)
    _ = S7 V (Proc.devRef .tc main_arg7) := keep8 V main_arg7 (by decide)
    _ = S6 V (Proc.devRef .tc main_arg7) := keep7 V main_arg7 (by decide)
    _ = S5 V (Proc.devRef .tc main_arg7) := keep6 V main_arg7 (by decide)
    _ = S4 V (Proc.devRef .tc main_arg7) := keep5 V main_arg7 (by decide)
    _ = S3 V (Proc.devRef .tc main_arg7) := keep4 V main_arg7 (by decide)
    _ = S2 V (Proc.devRef .tc main_arg7) := keep3 V main_arg7 (by decide)
    _ = S1 V (Proc.devRef .tc main_arg7) := keep2 V main_arg7 (by decide)
    _ = S0 V (Proc.devRef .tc main_arg7) := keep1 V main_arg7 (by decide)
    _ = V (Proc.devRef .tc main_arg7) := keep0 V main_arg7 (by decide)

theorem S6_v82 (V : Valuation τ sig (Elt F)) : S6 V (Proc.devRef .tc main_v82) = S4 V (Proc.devRef .tc main_v82) :=
  calc S6 V (Proc.devRef .tc main_v82)
    _ = S5 V (Proc.devRef .tc main_v82) := keep6 V main_v82 (by decide)
    _ = S4 V (Proc.devRef .tc main_v82) := keep5 V main_v82 (by decide)

theorem S9_v132 (V : Valuation τ sig (Elt F)) : S9 V (Proc.devRef .tc main_v132) = S7 V (Proc.devRef .tc main_v132) :=
  calc S9 V (Proc.devRef .tc main_v132)
    _ = S8 V (Proc.devRef .tc main_v132) := keep9 V main_v132 (by decide)
    _ = S7 V (Proc.devRef .tc main_v132) := keep8 V main_v132 (by decide)

end Cert.ReferenceIdeal.RefStages

end
-- ==== Proof.RefNorm.lean ====
/- The normalising layer as the reference computes it, array by array, is the row function applied to each biased row.

   The reference adds the bias row to every row of its input, takes each row's mean as a column (the row sum from the
   zero word, divided by the word for 128), subtracts it, takes the mean of the squares of the differences the same way,
   adds the word for ε, takes the inverse square root, and multiplies the centred rows by it; then it scales by γ, shifts
   by β and takes the maximum with the zero word. On the extended reals every one of these array operations is entrywise
   or a row sum, the sum from the zero word is the plain sum, and a column or a row repeated along an axis reads its own
   entry: so entry (P, q) of the result is the row function of LayerSpec at q on the row k ↦ A(P, k) + b(k). The later
   layers add the previous layer's array entrywise. -/
import proofs.«158225_j51247549776507_1_alg».proof.Proof.Gen.ReferenceIdeal
import proofs.«158225_j51247549776507_1_alg».proof.Proof.ArraySpec
import proofs.«158225_j51247549776507_1_alg».proof.Proof.LibColumn
import proofs.«158225_j51247549776507_1_alg».proof.Proof.LibRowReduce
import Idealize.ShloMosaic.Lib.IdealHost
import Idealize.ShloMosaic.PureOps.Ideal.Laws

noncomputable section

open scoped BigOperators

namespace Cert.ReferenceIdeal.RefNorm

open Cert.ReferenceIdeal Cert.ReferenceIdeal.Gen Idealize.ShloMosaic Idealize.ShloMosaic.ValueIdx

/-- The reduction along the second axis, as the shape fact that names the dropped coordinate. -/
theorem hred : S100000x128.Reduces [(1 : Fin 2)] S100000 := by decide

variable (A Z H : FVec Ideal S100000x128 .f32) (b g be : FVec Ideal S128 .f32)

/-- A 128-vector repeated down the rows. -/
def rows (v : FVec Ideal S128 .f32) : FVec Ideal S100000x128 .f32 :=
  broadcastInDim S100000x128 ![0, 1] bcast_S1x128_S100000x128_0_1 (broadcastInDim S1x128 ![1] bcast_S128_S1x128_1 v)

/-- A column repeated along the rows. -/
def cols (v : FVec Ideal S100000x1 .f32) : FVec Ideal S100000x128 .f32 :=
  broadcastInDim S100000x128 ![0, 1] bcast_S100000x1_S100000x128_0_1 v

/-- A word as a column. -/
def wordCol (w : BitVec 32) : FVec Ideal S100000x1 .f32 :=
  broadcastInDim S100000x1 ![] bcast_S_S100000x1 (constant (F := Ideal) S_ .f32 w)

/-- Each row's sum from the zero word, divided by the word for 128, as a column. -/
def meanCol : FVec Ideal S100000x1 .f32 :=
  Host.divf (broadcastInDim S100000x1 ![0] bcast_S100000_S100000x1_0
      (Host.reduceAdd Z (constant (F := Ideal) S_ .f32 0x00000000#32) reducesTo_S100000x128_S100000_d1 h_S_))
    (wordCol 0x43000000#32)

/-- The rows less their means. -/
def centred : FVec Ideal S100000x128 .f32 := subf Z (cols (meanCol Z))

/-- Each row's variance about its mean, as a column. -/
def varCol : FVec Ideal S100000x1 .f32 := meanCol (mulf (centred Z) (centred Z))

/-- The reference's normalising layer with the rectifier, on whole arrays. -/
def hostNorm : FVec Ideal S100000x128 .f32 :=
  maximumf
    (addf (mulf (mulf (centred (addf A (rows b))) (cols (Host.rsqrt (addf (varCol (addf A (rows b))) (wordCol 0x3727C5AC#32))))) (rows g))
      (rows be))
    (broadcastInDim S100000x128 ![] bcast_S_S100000x128 (constant (F := Ideal) S_ .f32 0x00000000#32))

/-- … followed by the residual sum. -/
def hostNormRes : FVec Ideal S100000x128 .f32 := addf (hostNorm A b g be) H

theorem rows_apply (v : FVec Ideal S128 .f32) (P : Fin 100000) (k : Fin 128) : rows v (ix2 P k) = v (ix1 k) := by
  unfold rows
  rw [Cert.LibColumn.bcastInDim_1b_ab_apply, Cert.LibColumn.bcastInDim_b_1b_apply]

theorem cols_apply (v : FVec Ideal S100000x1 .f32) (P : Fin 100000) (k : Fin 128) : cols v (ix2 P k) = v (ix2 P (0 : Fin 1)) := by
  unfold cols
  rw [Cert.LibColumn.bcastInDim_a1_ab_apply]

theorem wordCol_apply (w : BitVec 32) (P : Fin 100000) (u : Fin 1) : wordCol w (ix2 P u) = Ideal.ofBits .f32 w := by
  unfold wordCol
  rw [broadcastInDim_scalar_apply, constant_apply]

/-- The mean column at row P is the mean of row P. -/
theorem meanCol_apply (P : Fin 100000) (u : Fin 1) : meanCol Z (ix2 P u) = Cert.LayerSpec.mean (fun k => Z (ix2 P k)) := by
  unfold meanCol
  rw [hostDivf_apply, wordCol_apply, Cert.LibColumn.bcastInDim_a_a1_apply, hostReduceAdd_apply,
    Ideal.hostReduceAdd_single _ hred, constant_apply, Ideal.ofBits_zero_f32, zero_add]
  exact congrArg (fun s => Ideal.div s (Ideal.ofBits .f32 0x43000000#32))
    (Finset.sum_congr rfl fun k _ => congrArg Z (Cert.LibRowReduce.lift_row hred P k))

theorem centred_apply (P : Fin 100000) (k : Fin 128) :
    centred Z (ix2 P k) = Z (ix2 P k) - Cert.LayerSpec.mean (fun k => Z (ix2 P k)) := by
  unfold centred
  rw [subf_apply, cols_apply, meanCol_apply]

theorem varCol_apply (P : Fin 100000) (u : Fin 1) : varCol Z (ix2 P u) = Cert.LayerSpec.var (fun k => Z (ix2 P k)) := by
  unfold varCol
  rw [meanCol_apply]
  simp only [mulf_apply, centred_apply]
  rfl

/-- The reference's normalising layer is the row function on each biased row. -/
theorem hostNorm_eq : hostNorm A b g be = Cert.ArraySpec.norm A b g be := by
  funext i
  obtain ⟨P, q, rfl⟩ : ∃ (P : Fin 100000) (q : Fin 128), i = ix2 P q := ⟨i 0, i 1, eq_ix2 i⟩
  rw [Cert.ArraySpec.norm_apply]
  unfold hostNorm
  rw [maximumf_apply, addf_apply, mulf_apply, mulf_apply, centred_apply, cols_apply, rows_apply, rows_apply,
    broadcastInDim_scalar_apply, constant_apply]
  simp only [addf_apply, rows_apply]
  show max ((_ - _) * FloatOps.hostUnary (F := Ideal) .rsqrt (varCol (addf A (rows b)) (ix2 P 0) + wordCol 0x3727C5AC#32 (ix2 P 0)) * _ + _) _ = _
  rw [varCol_apply, wordCol_apply]
  simp only [addf_apply, rows_apply]
  rfl

/-- … and with the residual sum, the later layers' array function. -/
theorem hostNormRes_eq : hostNormRes A H b g be = Cert.ArraySpec.normRes A b g be H := by
  funext i
  unfold hostNormRes
  rw [addf_apply, hostNorm_eq]
  rfl

end Cert.ReferenceIdeal.RefNorm

end
-- ==== Proof.LibPlainDot.lean ====
/-
  A plain matrix product read at an index.

  The dimension numbers of the product of an `[R, K]` array with a `[K, C]` array into `[R, C]` — contract the
  left operand's axis 1 with the right operand's axis 0, no batch axes — are the record `plainDot` below, whose
  side condition is a parameter: any record with the same lists is one of them by unfolding. On the extended reals
  the product into a zero accumulator, read at `(p, q)`, is the sum over `k` of `lhs (p, k) * rhs (k, q)`.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibPlainDot

open Idealize.ShloMosaic Idealize.ShloMosaic.ValueIdx

/-- The dimension numbers of a plain `[R, K] × [K, C] → [R, C]` product. -/
abbrev plainDot (R K C : Nat)
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ where
  lhsContracting := [1]
  rhsContracting := [0]
  lhsNonContracting := [0]
  rhsNonContracting := [1]
  lhsBatch := []
  rhsBatch := []
  wf := wf

section
variable {R K C : Nat} (wf : DotDims.WF ⟨2, ![R, K]⟩ ⟨2, ![K, C]⟩ ⟨2, ![R, C]⟩ [1] [0] [0] [1] [] [])

/-- The left operand's index for output `(p, q)` and contraction coordinate `k` is `(p, k)`. -/
theorem plainDot_lhsIdx (p : Fin R) (q : Fin C) (k : Fin K) :
    (plainDot R K C wf).lhsIdx (ix2 p q) ((contrEquiv1 (plainDot R K C wf) K rfl rfl).symm k) = ix2 p k := by
  have hk := contrEquiv1_symm_val (plainDot R K C wf) K rfl rfl k
  funext a
  refine Fin.ext ?_
  match a with
  | ⟨0, _⟩ =>
    show ((plainDot R K C wf).lhsIdx (ix2 p q) ((contrEquiv1 (plainDot R K C wf) K rfl rfl).symm k) 0).val = p.val
    unfold DotDims.lhsIdx
    rw [dif_neg (show ¬(0 : Fin 2) ∈ (plainDot R K C wf).lhsBatch from List.not_mem_nil),
      dif_pos (show (0 : Fin 2) ∈ (plainDot R K C wf).lhsNonContracting from List.mem_singleton.mpr rfl)]
    rfl
  | ⟨1, _⟩ =>
    exact ((plainDot R K C wf).lhsIdx_val_of_single (cl := (1 : Fin 2)) rfl (ix2 p q) _).trans hk

/-- The right operand's index for output `(p, q)` and contraction coordinate `k` is `(k, q)`. -/
theorem plainDot_rhsIdx (p : Fin R) (q : Fin C) (k : Fin K) :
    (plainDot R K C wf).rhsIdx (ix2 p q) ((contrEquiv1 (plainDot R K C wf) K rfl rfl).symm k) = ix2 k q := by
  have hk := contrEquiv1_symm_val (plainDot R K C wf) K rfl rfl k
  funext a
  refine Fin.ext ?_
  match a with
  | ⟨0, _⟩ =>
    exact ((plainDot R K C wf).rhsIdx_val_of_single (cr := (0 : Fin 2)) rfl (ix2 p q) _).trans hk
  | ⟨1, _⟩ =>
    show ((plainDot R K C wf).rhsIdx (ix2 p q) ((contrEquiv1 (plainDot R K C wf) K rfl rfl).symm k) 1).val = q.val
    unfold DotDims.rhsIdx
    rw [dif_neg (show ¬(1 : Fin 2) ∈ (plainDot R K C wf).rhsBatch from List.not_mem_nil),
      dif_pos (show (1 : Fin 2) ∈ (plainDot R K C wf).rhsNonContracting from List.mem_singleton.mpr rfl)]
    rfl

/-- THE PLAIN PRODUCT INTO A ZERO ACCUMULATOR AT `(p, q)`: the sum over `k` of `lhs (p, k) * rhs (k, q)`. -/
theorem matmul_zero_apply {φ₁ φ₂ : FTy} (prec : Option ContractPrecision)
    (lhs : FVec Ideal ⟨2, ![R, K]⟩ φ₁) (rhs : FVec Ideal ⟨2, ![K, C]⟩ φ₂) (p : Fin R) (q : Fin C) :
    FloatOps.matmul (plainDot R K C wf) prec lhs rhs (constant ⟨2, ![R, C]⟩ .f32 0x00000000#32) (ix2 p q)
      = ∑ k : Fin K, lhs (ix2 p k) * rhs (ix2 k q) := by
  rw [Ideal.matmul_constant_zero_apply, ← Equiv.sum_comp (contrEquiv1 (plainDot R K C wf) K rfl rfl).symm]
  refine Finset.sum_congr rfl fun k _ => ?_
  rw [plainDot_lhsIdx wf p q k, plainDot_rhsIdx wf p q k]

end

end Cert.LibPlainDot

end
-- ==== Proof.LibHostDot.lean ====
/-
  The host's matrix product read at an index.

  For the dimension numbers of a plain `[R, K] × [K, C] → [R, C]` product (contract the left operand's axis 1 with
  the right operand's axis 0, no batch axes), the host's `dot_general` on the extended reals, read at `(p, q)`, is
  the sum over `k` of `lhs (p, k) * rhs (k, q)`: the same sum a product into a zero accumulator gives, whatever
  the number of rows. So a product computed row block by row block is the whole product.
-/
import proofs.«158225_j51247549776507_1_alg».proof.Proof.LibPlainDot
import Idealize.ShloMosaic.PureOps.Ideal
import Idealize.ShloMosaic.PureOps.Ideal.Laws
import Idealize.ShloMosaic.Lib.ValueIdx

noncomputable section

open scoped BigOperators

namespace Cert.LibHostDot

open Idealize.ShloMosaic Idealize.ShloMosaic.ValueIdx Cert.LibPlainDot

variable {R K C : Nat} (wf : DotDims.WF ⟨2, ![R, K]⟩ ⟨2, ![K, C]⟩ ⟨2, ![R, C]⟩ [1] [0] [0] [1] [] [])

/-- THE HOST'S PLAIN PRODUCT AT `(p, q)`: the sum over `k` of `lhs (p, k) * rhs (k, q)`. -/
theorem hostDot_apply {φ₁ φ₂ : FTy} (prec : Option ContractPrecision)
    (lhs : FVec Ideal ⟨2, ![R, K]⟩ φ₁) (rhs : FVec Ideal ⟨2, ![K, C]⟩ φ₂) (p : Fin R) (q : Fin C) :
    Host.dotGeneral (F := Ideal) (plainDot R K C wf) prec lhs rhs (ix2 p q)
      = ∑ k : Fin K, lhs (ix2 p k) * rhs (ix2 k q) := by
  simp only [Host.dotGeneral]
  rw [Ideal.dotGeneral_apply, ← Equiv.sum_comp (contrEquiv1 (plainDot R K C wf) K rfl rfl).symm]
  refine Finset.sum_congr rfl fun k _ => ?_
  rw [plainDot_lhsIdx wf p q k, plainDot_rhsIdx wf p q k]

end Cert.LibHostDot

end
-- ==== Proof.LibLayer.lean ====
/-
  One dense layer computed on a block of rows is the host's layer at those rows.

  A graph-convolution layer sends a node-feature array X [N, K] and an aggregated-message array M [N, K] to
  M · Wrel + X · Wroot + b (a bias row repeated down the rows), optionally followed by the rectifier max(·, 0). A
  tiled kernel computes it on a block of R rows at a time, with the two weight matrices and the bias row whole.
  On the extended reals the entry (p, q) of the block's result is the entry (P, q) of the host's layer on the whole
  arrays whenever row p of each block operand is row P of the whole operand: each product is the sum over the same K
  terms, and addition, the bias and the maximum with zero are entrywise. The same for a plain linear layer
  X · W + b. A change of float format is the identity on the extended reals, so the operands' formats are free.
-/
import proofs.«158225_j51247549776507_1_alg».proof.Proof.LibMatmulAt
import proofs.«158225_j51247549776507_1_alg».proof.Proof.LibHostDot
import proofs.«158225_j51247549776507_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.LibLayer

open Idealize.ShloMosaic Idealize.ShloMosaic.ValueIdx Cert.LibPlainDot

/-- The host's plain product [R, K] × [K, C], for any record of dimension numbers with the six lists of such a
    product, read at (p, q): the sum over k of the left operand at (p, k) times the right at (k, q). -/
theorem hostDot_record_apply {R K C : ℕ} {φ₁ φ₂ : FTy} (D : DotDims ⟨2, ![R, K]⟩ ⟨2, ![K, C]⟩ ⟨2, ![R, C]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![R, K]⟩ φ₁) (r : FVec Ideal ⟨2, ![K, C]⟩ φ₂)
    (p : Fin R) (q : Fin C) :
    Host.dotGeneral (F := Ideal) D prec l r (ix2 p q) = ∑ k : Fin K, l (ix2 p k) * r (ix2 k q) := by
  obtain ⟨lc, rc, ln, rn, lb, rb, wf⟩ := D
  dsimp only at hlc hrc hln hrn hlb hrb
  subst hlc hrc hln hrn hlb hrb
  exact Cert.LibHostDot.hostDot_apply wf prec l r p q

section
variable {R K C N : ℕ}
  (Dk : DotDims ⟨2, ![R, K]⟩ ⟨2, ![K, C]⟩ ⟨2, ![R, C]⟩)
  (klc : Dk.lhsContracting = [1]) (krc : Dk.rhsContracting = [0]) (kln : Dk.lhsNonContracting = [0])
  (krn : Dk.rhsNonContracting = [1]) (klb : Dk.lhsBatch = []) (krb : Dk.rhsBatch = [])
  (Dh : DotDims ⟨2, ![N, K]⟩ ⟨2, ![K, C]⟩ ⟨2, ![N, C]⟩)
  (hlc : Dh.lhsContracting = [1]) (hrc : Dh.rhsContracting = [0]) (hln : Dh.lhsNonContracting = [0])
  (hrn : Dh.rhsNonContracting = [1]) (hlb : Dh.lhsBatch = []) (hrb : Dh.rhsBatch = [])
include klc krc kln krn klb krb hlc hrc hln hrn hlb hrb

/-- A row block's product into the zero accumulator at (p, q) is the host's whole product at (P, q), when the
    block's row p is the array's row P and the right operands agree down column q. -/
theorem block_dot_apply {φ₁ φ₂ ψ₁ ψ₂ : FTy} (prec prec' : Option ContractPrecision)
    (a : FVec Ideal ⟨2, ![R, K]⟩ φ₁) (w : FVec Ideal ⟨2, ![K, C]⟩ φ₂)
    (A : FVec Ideal ⟨2, ![N, K]⟩ ψ₁) (W : FVec Ideal ⟨2, ![K, C]⟩ ψ₂)
    (p : Fin R) (P : Fin N) (q : Fin C)
    (ha : ∀ k : Fin K, (a (ix2 p k) : EReal) = A (ix2 P k))
    (hw : ∀ k : Fin K, (w (ix2 k q) : EReal) = W (ix2 k q)) :
    matmul Dk prec a w (constant (F := Ideal) ⟨2, ![R, C]⟩ .f32 0x00000000#32) (ix2 p q)
      = Host.dotGeneral (F := Ideal) Dh prec' A W (ix2 P q) := by
  rw [Cert.LibMatmulAt.matmul_zero_apply Dk klc krc kln krn klb krb,
    hostDot_record_apply Dh hlc hrc hln hrn hlb hrb]
  exact Finset.sum_congr rfl fun k _ => by rw [ha k, hw k]

/-- The layer M · Wrel + X · Wroot + b on a row block, at (p, q), is the host's layer on the whole arrays at (P, q). -/
theorem gconv_block_apply {φ₁ φ₂ φ₃ φ₄ : FTy}
    (a1 : FVec Ideal ⟨2, ![R, K]⟩ φ₁) (w1 : FVec Ideal ⟨2, ![K, C]⟩ φ₂)
    (a2 : FVec Ideal ⟨2, ![R, K]⟩ φ₃) (w2 : FVec Ideal ⟨2, ![K, C]⟩ φ₄)
    (brow : FVec Ideal ⟨2, ![1, C]⟩ .f32) (hbc : (⟨2, ![1, C]⟩ : Shape).Broadcasts ⟨2, ![R, C]⟩)
    (A1 A2 : FVec Ideal ⟨2, ![N, K]⟩ .f32) (W1 W2 : FVec Ideal ⟨2, ![K, C]⟩ .f32)
    (Brow : FVec Ideal ⟨2, ![1, C]⟩ .f32)
    (hbi : (⟨2, ![1, C]⟩ : Shape).BroadcastsInDim ⟨2, ![N, C]⟩ ![0, 1])
    (p : Fin R) (P : Fin N) (q : Fin C)
    (h1 : ∀ k : Fin K, (a1 (ix2 p k) : EReal) = A1 (ix2 P k))
    (hw1 : ∀ k : Fin K, (w1 (ix2 k q) : EReal) = W1 (ix2 k q))
    (h2 : ∀ k : Fin K, (a2 (ix2 p k) : EReal) = A2 (ix2 P k))
    (hw2 : ∀ k : Fin K, (w2 (ix2 k q) : EReal) = W2 (ix2 k q))
    (hb : brow (ix2 (0 : Fin 1) q) = Brow (ix2 (0 : Fin 1) q)) :
    addf (addf (matmul Dk none a1 w1 (constant (F := Ideal) ⟨2, ![R, C]⟩ .f32 0x00000000#32))
        (matmul Dk none a2 w2 (constant (F := Ideal) ⟨2, ![R, C]⟩ .f32 0x00000000#32)))
      (broadcastTo ⟨2, ![R, C]⟩ brow hbc) (ix2 p q)
    = addf (addf (Host.dotGeneral (F := Ideal) Dh none A1 W1) (Host.dotGeneral (F := Ideal) Dh none A2 W2))
        (broadcastInDim ⟨2, ![N, C]⟩ ![0, 1] hbi Brow) (ix2 P q) := by
  rw [addf_apply, addf_apply, addf_apply, addf_apply,
    block_dot_apply Dk klc krc kln krn klb krb Dh hlc hrc hln hrn hlb hrb none none a1 w1 A1 W1 p P q h1 hw1,
    block_dot_apply Dk klc krc kln krn klb krb Dh hlc hrc hln hrn hlb hrb none none a2 w2 A2 W2 p P q h2 hw2,
    broadcastTo_1b_ab_apply, Cert.LibColumn.bcastInDim_1b_ab_apply, hb]

/-- The same layer followed by the rectifier: the maximum with zero is entrywise, and the kernel's splat of the zero
    word and the host's broadcast of the zero constant both read zero everywhere. -/
theorem gconv_relu_block_apply {φ₁ φ₂ φ₃ φ₄ : FTy}
    (a1 : FVec Ideal ⟨2, ![R, K]⟩ φ₁) (w1 : FVec Ideal ⟨2, ![K, C]⟩ φ₂)
    (a2 : FVec Ideal ⟨2, ![R, K]⟩ φ₃) (w2 : FVec Ideal ⟨2, ![K, C]⟩ φ₄)
    (brow : FVec Ideal ⟨2, ![1, C]⟩ .f32) (hbc : (⟨2, ![1, C]⟩ : Shape).Broadcasts ⟨2, ![R, C]⟩)
    (A1 A2 : FVec Ideal ⟨2, ![N, K]⟩ .f32) (W1 W2 : FVec Ideal ⟨2, ![K, C]⟩ .f32)
    (Brow : FVec Ideal ⟨2, ![1, C]⟩ .f32)
    (hbi : (⟨2, ![1, C]⟩ : Shape).BroadcastsInDim ⟨2, ![N, C]⟩ ![0, 1])
    (hbs : (⟨0, ![]⟩ : Shape).BroadcastsInDim ⟨2, ![N, C]⟩ (![] : Fin 0 → Fin 2))
    (p : Fin R) (P : Fin N) (q : Fin C)
    (h1 : ∀ k : Fin K, (a1 (ix2 p k) : EReal) = A1 (ix2 P k))
    (hw1 : ∀ k : Fin K, (w1 (ix2 k q) : EReal) = W1 (ix2 k q))
    (h2 : ∀ k : Fin K, (a2 (ix2 p k) : EReal) = A2 (ix2 P k))
    (hw2 : ∀ k : Fin K, (w2 (ix2 k q) : EReal) = W2 (ix2 k q))
    (hb : brow (ix2 (0 : Fin 1) q) = Brow (ix2 (0 : Fin 1) q)) :
    maximumf (addf (addf (matmul Dk none a1 w1 (constant (F := Ideal) ⟨2, ![R, C]⟩ .f32 0x00000000#32))
        (matmul Dk none a2 w2 (constant (F := Ideal) ⟨2, ![R, C]⟩ .f32 0x00000000#32)))
      (broadcastTo ⟨2, ![R, C]⟩ brow hbc))
      (broadcast ⟨2, ![R, C]⟩ (Scalar.ofBits (F := Ideal) .f32 0x00000000#32)) (ix2 p q)
    = maximumf (addf (addf (Host.dotGeneral (F := Ideal) Dh none A1 W1) (Host.dotGeneral (F := Ideal) Dh none A2 W2))
        (broadcastInDim ⟨2, ![N, C]⟩ ![0, 1] hbi Brow))
        (broadcastInDim ⟨2, ![N, C]⟩ ![] hbs (constant (F := Ideal) ⟨0, ![]⟩ .f32 0x00000000#32)) (ix2 P q) := by
  rw [maximumf_apply, maximumf_apply,
    gconv_block_apply Dk klc krc kln krn klb krb Dh hlc hrc hln hrn hlb hrb a1 w1 a2 w2 brow hbc A1 A2 W1 W2 Brow hbi
      p P q h1 hw1 h2 hw2 hb,
    broadcast_apply, Cert.LibColumn.bcastInDim_scalar_apply _ _ _ (fun d => d.elim0)]
  rfl

/-- A linear layer X · W + b on a row block, at (p, q), is the host's layer on the whole arrays at (P, q). -/
theorem linear_block_apply {φ₁ φ₂ : FTy}
    (a : FVec Ideal ⟨2, ![R, K]⟩ φ₁) (w : FVec Ideal ⟨2, ![K, C]⟩ φ₂)
    (brow : FVec Ideal ⟨2, ![1, C]⟩ .f32) (hbc : (⟨2, ![1, C]⟩ : Shape).Broadcasts ⟨2, ![R, C]⟩)
    (A : FVec Ideal ⟨2, ![N, K]⟩ .f32) (W : FVec Ideal ⟨2, ![K, C]⟩ .f32)
    (Brow : FVec Ideal ⟨2, ![1, C]⟩ .f32)
    (hbi : (⟨2, ![1, C]⟩ : Shape).BroadcastsInDim ⟨2, ![N, C]⟩ ![0, 1])
    (p : Fin R) (P : Fin N) (q : Fin C)
    (ha : ∀ k : Fin K, (a (ix2 p k) : EReal) = A (ix2 P k))
    (hw : ∀ k : Fin K, (w (ix2 k q) : EReal) = W (ix2 k q))
    (hb : brow (ix2 (0 : Fin 1) q) = Brow (ix2 (0 : Fin 1) q)) :
    addf (matmul Dk none a w (constant (F := Ideal) ⟨2, ![R, C]⟩ .f32 0x00000000#32))
      (broadcastTo ⟨2, ![R, C]⟩ brow hbc) (ix2 p q)
    = addf (Host.dotGeneral (F := Ideal) Dh none A W) (broadcastInDim ⟨2, ![N, C]⟩ ![0, 1] hbi Brow) (ix2 P q) := by
  rw [addf_apply, addf_apply,
    block_dot_apply Dk klc krc kln krn klb krb Dh hlc hrc hln hrn hlb hrb none none a w A W p P q ha hw,
    broadcastTo_1b_ab_apply, Cert.LibColumn.bcastInDim_1b_ab_apply, hb]

end

end Cert.LibLayer

end
-- ==== Proof.RefLin.lean ====
/- The reference's dense maps, array by array.

   The host's matrix product read at (P, q) is the sum over k of the left operand at (P, k) times the right at (k, q), and a
   128-vector set up as a row and repeated down the rows reads its own entry: so the input layer's array is the dense layer
   of ArraySpec, and a product with a square weight matrix is the dense map without bias. -/
import proofs.«158225_j51247549776507_1_alg».proof.Proof.Gen.ReferenceIdeal
import proofs.«158225_j51247549776507_1_alg».proof.Proof.Stages
import proofs.«158225_j51247549776507_1_alg».proof.Proof.LibLayer
import proofs.«158225_j51247549776507_1_alg».proof.Proof.LibColumn

noncomputable section

open scoped BigOperators

namespace Cert.ReferenceIdeal.RefLin

open Cert.ReferenceIdeal Cert.ReferenceIdeal.Gen Idealize.ShloMosaic Idealize.ShloMosaic.ValueIdx

/-- The input layer as the reference computes it: the product plus the bias row repeated down the rows. -/
def hostLin (a0 : FVec Ideal S100000x16 .f32) (a2 : FVec Ideal S16x128 .f32) (a3 : FVec Ideal S128 .f32) : FVec Ideal S100000x128 .f32 :=
  addf (Host.dotGeneral (F := Ideal) dot_S100000x16_S16x128_S100000x128_1_0_0_1_n_n none a0 a2)
    (broadcastInDim S100000x128 ![0, 1] bcast_S1x128_S100000x128_0_1 (broadcastInDim S1x128 ![1] bcast_S128_S1x128_1 a3))

/-- It is the dense layer, entry by entry. -/
theorem hostLin_eq (a0 : FVec Ideal S100000x16 .f32) (a2 : FVec Ideal S16x128 .f32) (a3 : FVec Ideal S128 .f32) :
    hostLin a0 a2 a3 = Cert.Stages.h0 a0 a2 a3 := by
  funext i
  obtain ⟨P, q, rfl⟩ : ∃ (P : Fin 100000) (q : Fin 128), i = ix2 P q := ⟨i 0, i 1, eq_ix2 i⟩
  show _ = Cert.ArraySpec.lin a0 a2 a3 (ix2 P q)
  rw [Cert.ArraySpec.lin_apply]
  unfold hostLin
  rw [addf_apply, Cert.LibLayer.hostDot_record_apply _ rfl rfl rfl rfl rfl rfl,
    Cert.LibColumn.bcastInDim_1b_ab_apply, Cert.LibColumn.bcastInDim_b_1b_apply]

/-- The product with a square weight matrix is the dense map without bias, entry by entry. -/
theorem hostMm_eq (X : FVec Ideal S100000x128 .f32) (Wt : FVec Ideal S128x128 .f32) :
    Host.dotGeneral (F := Ideal) dot_S100000x128_S128x128_S100000x128_1_0_0_1_n_n none X Wt = Cert.Stages.mm X Wt := by
  funext i
  obtain ⟨P, q, rfl⟩ : ∃ (P : Fin 100000) (q : Fin 128), i = ix2 P q := ⟨i 0, i 1, eq_ix2 i⟩
  rw [Cert.LibLayer.hostDot_record_apply _ rfl rfl rfl rfl rfl rfl]
  rfl

end Cert.ReferenceIdeal.RefLin

end
-- ==== Proof.RefValue.lean ====
/- The reference's result as the network function of its arguments.

   The fold of the reference's operations is read stretch by stretch. Over any contents at a stretch's start, the
   stretch's result buffer is a named function of the buffers the stretch reads: the graph's arrays of the edge list; the
   dense layer; the dense map without bias; the propagation step; the normalising layer, with the residual sum in the
   later layers. Each buffer a stretch reads is written by one earlier stretch (or is an argument) and by nothing after,
   so the final contents satisfy the same equations among themselves, and chaining them gives the result buffer as the
   network function of the argument arrays; no operation writes an argument. -/
import proofs.«158225_j51247549776507_1_alg».proof.Proof.RefStages
import proofs.«158225_j51247549776507_1_alg».proof.Proof.RefNorm
import proofs.«158225_j51247549776507_1_alg».proof.Proof.RefLin
import proofs.«158225_j51247549776507_1_alg».proof.Proof.Stages

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.RefStages

/-! ## Each stretch's result, over any contents at its start -/

section Stretch
variable (W : Valuation τ sig (Elt Ideal))

set_option maxRecDepth 8192 in
theorem t0_v3 : after (T0 (F := Ideal)) W (Proc.devRef .tc main_v3)
    = Cert.Stages.src (W (Proc.devRef .tc main_arg1)) := by
  after_results_simp
  rfl

set_option maxRecDepth 8192 in
theorem t0_v6 : after (T0 (F := Ideal)) W (Proc.devRef .tc main_v6)
    = Cert.Stages.dst (W (Proc.devRef .tc main_arg1)) := by
  after_results_simp
  rfl

set_option maxRecDepth 8192 in
theorem t0_v29 : after (T0 (F := Ideal)) W (Proc.devRef .tc main_v29)
    = Cert.Stages.coef (W (Proc.devRef .tc main_arg1)) := by
  after_results_simp
  rfl

set_option maxRecDepth 8192 in
theorem t1_v33 : after (T1 (F := Ideal)) W (Proc.devRef .tc main_v33)
    = Cert.Stages.h0 (W (Proc.devRef .tc main_arg0)) (W (Proc.devRef .tc main_arg2)) (W (Proc.devRef .tc main_arg3)) := by
  after_results_simp
  exact Cert.ReferenceIdeal.RefLin.hostLin_eq _ _ _

set_option maxRecDepth 8192 in
theorem t2_v36 : after (T2 (F := Ideal)) W (Proc.devRef .tc main_v36)
    = Cert.Stages.mm (W (Proc.devRef .tc main_v33)) (Cert.Stages.plane0 (W (Proc.devRef .tc main_arg4))) := by
  after_results_simp
  exact Cert.ReferenceIdeal.RefLin.hostMm_eq _ _

set_option maxRecDepth 8192 in
theorem t3_v48 : after (T3 (F := Ideal)) W (Proc.devRef .tc main_v48)
    = Cert.Stages.prop (W (Proc.devRef .tc main_v3)) (W (Proc.devRef .tc main_v6)) (W (Proc.devRef .tc main_v29)) (W (Proc.devRef .tc main_v36)) := by
  after_results_simp
  rfl

set_option maxRecDepth 8192 in
theorem t4_v82 : after (T4 (F := Ideal)) W (Proc.devRef .tc main_v82)
    = Cert.ArraySpec.norm (W (Proc.devRef .tc main_v48)) (Cert.Stages.row0 (W (Proc.devRef .tc main_arg5))) (Cert.Stages.row0 (W (Proc.devRef .tc main_arg6))) (Cert.Stages.row0 (W (Proc.devRef .tc main_arg7))) := by
  after_results_simp
  exact Cert.ReferenceIdeal.RefNorm.hostNorm_eq _ _ _ _

set_option maxRecDepth 8192 in
theorem t5_v85 : after (T5 (F := Ideal)) W (Proc.devRef .tc main_v85)
    = Cert.Stages.mm (W (Proc.devRef .tc main_v82)) (Cert.Stages.plane1 (W (Proc.devRef .tc main_arg4))) := by
  after_results_simp
  exact Cert.ReferenceIdeal.RefLin.hostMm_eq _ _

set_option maxRecDepth 8192 in
theorem t6_v97 : after (T6 (F := Ideal)) W (Proc.devRef .tc main_v97)
    = Cert.Stages.prop (W (Proc.devRef .tc main_v3)) (W (Proc.devRef .tc main_v6)) (W (Proc.devRef .tc main_v29)) (W (Proc.devRef .tc main_v85)) := by
  after_results_simp
  rfl

set_option maxRecDepth 8192 in
theorem t7_v132 : after (T7 (F := Ideal)) W (Proc.devRef .tc main_v132)
    = Cert.ArraySpec.normRes (W (Proc.devRef .tc main_v97)) (Cert.Stages.row1 (W (Proc.devRef .tc main_arg5))) (Cert.Stages.row1 (W (Proc.devRef .tc main_arg6))) (Cert.Stages.row1 (W (Proc.devRef .tc main_arg7))) (W (Proc.devRef .tc main_v82)) := by
  after_results_simp
  exact Cert.ReferenceIdeal.RefNorm.hostNormRes_eq _ _ _ _ _

set_option maxRecDepth 8192 in
theorem t8_v135 : after (T8 (F := Ideal)) W (Proc.devRef .tc main_v135)
    = Cert.Stages.mm (W (Proc.devRef .tc main_v132)) (Cert.Stages.plane2 (W (Proc.devRef .tc main_arg4))) := by
  after_results_simp
  exact Cert.ReferenceIdeal.RefLin.hostMm_eq _ _

set_option maxRecDepth 8192 in
theorem t9_v147 : after (T9 (F := Ideal)) W (Proc.devRef .tc main_v147)
    = Cert.Stages.prop (W (Proc.devRef .tc main_v3)) (W (Proc.devRef .tc main_v6)) (W (Proc.devRef .tc main_v29)) (W (Proc.devRef .tc main_v135)) := by
  after_results_simp
  rfl

set_option maxRecDepth 8192 in
theorem t10_v182 : after (T10 (F := Ideal)) W (Proc.devRef .tc main_v182)
    = Cert.ArraySpec.normRes (W (Proc.devRef .tc main_v147)) (Cert.Stages.row2 (W (Proc.devRef .tc main_arg5))) (Cert.Stages.row2 (W (Proc.devRef .tc main_arg6))) (Cert.Stages.row2 (W (Proc.devRef .tc main_arg7))) (W (Proc.devRef .tc main_v132)) := by
  after_results_simp
  exact Cert.ReferenceIdeal.RefNorm.hostNormRes_eq _ _ _ _ _

end Stretch

/-! ## The final contents, buffer by buffer -/

section Final
variable (m : (ℓ : Loc nD τ sig) → Buf (Elt Ideal) ℓ) (d : Dev nD)

/-- What buffer `b` of device `d` holds when @main returns: the fold of all the operations over the launch contents. -/
def X (b : Ref sig .tc) := after (RefRun.ops (F := Ideal)) (launchContents m d) (Proc.devRef .tc b)

theorem X_eq (b : Ref sig .tc) : X m d b = S10 (launchContents m d) (Proc.devRef .tc b) :=
  congrFun (after_ops (launchContents m d)) (Proc.devRef .tc b)

/-- No operation writes `main_arg0`. -/
theorem X_arg0 : X m d main_arg0 = m ((d.tc : Thread nD τ).loc main_arg0) := by
  rw [X_eq, S10_arg0]
/-- No operation writes `main_arg1`. -/
theorem X_arg1 : X m d main_arg1 = m ((d.tc : Thread nD τ).loc main_arg1) := by
  rw [X_eq, S10_arg1]
/-- No operation writes `main_arg2`. -/
theorem X_arg2 : X m d main_arg2 = m ((d.tc : Thread nD τ).loc main_arg2) := by
  rw [X_eq, S10_arg2]
/-- No operation writes `main_arg3`. -/
theorem X_arg3 : X m d main_arg3 = m ((d.tc : Thread nD τ).loc main_arg3) := by
  rw [X_eq, S10_arg3]
/-- No operation writes `main_arg4`. -/
theorem X_arg4 : X m d main_arg4 = m ((d.tc : Thread nD τ).loc main_arg4) := by
  rw [X_eq, S10_arg4]
/-- No operation writes `main_arg5`. -/
theorem X_arg5 : X m d main_arg5 = m ((d.tc : Thread nD τ).loc main_arg5) := by
  rw [X_eq, S10_arg5]
/-- No operation writes `main_arg6`. -/
theorem X_arg6 : X m d main_arg6 = m ((d.tc : Thread nD τ).loc main_arg6) := by
  rw [X_eq, S10_arg6]
/-- No operation writes `main_arg7`. -/
theorem X_arg7 : X m d main_arg7 = m ((d.tc : Thread nD τ).loc main_arg7) := by
  rw [X_eq, S10_arg7]

theorem X_v3 : X m d main_v3
    = Cert.Stages.src (m ((d.tc : Thread nD τ).loc main_arg1)) := by
  rw [X_eq m d main_v3, S10_v3, S0_eq, t0_v3] <;> rfl

theorem X_v6 : X m d main_v6
    = Cert.Stages.dst (m ((d.tc : Thread nD τ).loc main_arg1)) := by
  rw [X_eq m d main_v6, S10_v6, S0_eq, t0_v6] <;> rfl

theorem X_v29 : X m d main_v29
    = Cert.Stages.coef (m ((d.tc : Thread nD τ).loc main_arg1)) := by
  rw [X_eq m d main_v29, S10_v29, S0_eq, t0_v29] <;> rfl

theorem X_v33 : X m d main_v33
    = Cert.Stages.h0 (m ((d.tc : Thread nD τ).loc main_arg0)) (m ((d.tc : Thread nD τ).loc main_arg2)) (m ((d.tc : Thread nD τ).loc main_arg3)) := by
  rw [X_eq m d main_v33, S10_v33, S1_eq, t1_v33, S0_arg0, S0_arg2, S0_arg3] <;> rfl

theorem X_v36 : X m d main_v36
    = Cert.Stages.mm (X m d main_v33) (Cert.Stages.plane0 (m ((d.tc : Thread nD τ).loc main_arg4))) := by
  rw [X_eq m d main_v36, S10_v36, X_eq m d main_v33, S10_v33, S2_eq, t2_v36, S1_arg4] <;> rfl

theorem X_v48 : X m d main_v48
    = Cert.Stages.prop (X m d main_v3) (X m d main_v6) (X m d main_v29) (X m d main_v36) := by
  rw [X_eq m d main_v48, S10_v48, X_eq m d main_v3, S10_v3, X_eq m d main_v6, S10_v6, X_eq m d main_v29, S10_v29, X_eq m d main_v36, S10_v36, S3_eq, t3_v48, S2_v3, S2_v6, S2_v29] <;> rfl

theorem X_v82 : X m d main_v82
    = Cert.ArraySpec.norm (X m d main_v48) (Cert.Stages.row0 (m ((d.tc : Thread nD τ).loc main_arg5))) (Cert.Stages.row0 (m ((d.tc : Thread nD τ).loc main_arg6))) (Cert.Stages.row0 (m ((d.tc : Thread nD τ).loc main_arg7))) := by
  rw [X_eq m d main_v82, S10_v82, X_eq m d main_v48, S10_v48, S4_eq, t4_v82, S3_arg5, S3_arg6, S3_arg7] <;> rfl

theorem X_v85 : X m d main_v85
    = Cert.Stages.mm (X m d main_v82) (Cert.Stages.plane1 (m ((d.tc : Thread nD τ).loc main_arg4))) := by
  rw [X_eq m d main_v85, S10_v85, X_eq m d main_v82, S10_v82, S5_eq, t5_v85, S4_arg4] <;> rfl

theorem X_v97 : X m d main_v97
    = Cert.Stages.prop (X m d main_v3) (X m d main_v6) (X m d main_v29) (X m d main_v85) := by
  rw [X_eq m d main_v97, S10_v97, X_eq m d main_v3, S10_v3, X_eq m d main_v6, S10_v6, X_eq m d main_v29, S10_v29, X_eq m d main_v85, S10_v85, S6_eq, t6_v97, S5_v3, S5_v6, S5_v29] <;> rfl

theorem X_v132 : X m d main_v132
    = Cert.ArraySpec.normRes (X m d main_v97) (Cert.Stages.row1 (m ((d.tc : Thread nD τ).loc main_arg5))) (Cert.Stages.row1 (m ((d.tc : Thread nD τ).loc main_arg6))) (Cert.Stages.row1 (m ((d.tc : Thread nD τ).loc main_arg7))) (X m d main_v82) := by
  rw [X_eq m d main_v132, S10_v132, X_eq m d main_v97, S10_v97, X_eq m d main_v82, S10_v82, S7_eq, t7_v132, S6_arg5, S6_arg6, S6_arg7, S6_v82] <;> rfl

theorem X_v135 : X m d main_v135
    = Cert.Stages.mm (X m d main_v132) (Cert.Stages.plane2 (m ((d.tc : Thread nD τ).loc main_arg4))) := by
  rw [X_eq m d main_v135, S10_v135, X_eq m d main_v132, S10_v132, S8_eq, t8_v135, S7_arg4] <;> rfl

theorem X_v147 : X m d main_v147
    = Cert.Stages.prop (X m d main_v3) (X m d main_v6) (X m d main_v29) (X m d main_v135) := by
  rw [X_eq m d main_v147, S10_v147, X_eq m d main_v3, S10_v3, X_eq m d main_v6, S10_v6, X_eq m d main_v29, S10_v29, X_eq m d main_v135, S10_v135, S9_eq, t9_v147, S8_v3, S8_v6, S8_v29] <;> rfl

theorem X_v182 : X m d main_v182
    = Cert.ArraySpec.normRes (X m d main_v147) (Cert.Stages.row2 (m ((d.tc : Thread nD τ).loc main_arg5))) (Cert.Stages.row2 (m ((d.tc : Thread nD τ).loc main_arg6))) (Cert.Stages.row2 (m ((d.tc : Thread nD τ).loc main_arg7))) (X m d main_v132) := by
  rw [X_eq m d main_v182, X_eq m d main_v147, S10_v147, X_eq m d main_v132, S10_v132, S10_eq, t10_v182, S9_arg5, S9_arg6, S9_arg7, S9_v132] <;> rfl

/-! ## The layers' outputs as the network's functions of the arguments -/

theorem X_h1 : X m d main_v82 = Cert.Stages.h1 (Cert.Stages.src (m ((d.tc : Thread nD τ).loc main_arg1))) (Cert.Stages.dst (m ((d.tc : Thread nD τ).loc main_arg1))) (Cert.Stages.coef (m ((d.tc : Thread nD τ).loc main_arg1))) (m ((d.tc : Thread nD τ).loc main_arg0)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) := by
  rw [X_v82, X_v48, X_v36, X_v33, X_v3, X_v6, X_v29] <;> rfl

theorem X_h2 : X m d main_v132 = Cert.Stages.h2 (Cert.Stages.src (m ((d.tc : Thread nD τ).loc main_arg1))) (Cert.Stages.dst (m ((d.tc : Thread nD τ).loc main_arg1))) (Cert.Stages.coef (m ((d.tc : Thread nD τ).loc main_arg1))) (m ((d.tc : Thread nD τ).loc main_arg0)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) := by
  rw [X_v132, X_v97, X_v85, X_h1, X_v3, X_v6, X_v29] <;> rfl

theorem X_h3 : X m d main_v182 = Cert.Stages.h3 (Cert.Stages.src (m ((d.tc : Thread nD τ).loc main_arg1))) (Cert.Stages.dst (m ((d.tc : Thread nD τ).loc main_arg1))) (Cert.Stages.coef (m ((d.tc : Thread nD τ).loc main_arg1))) (m ((d.tc : Thread nD τ).loc main_arg0)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) := by
  rw [X_v182, X_v147, X_v135, X_h2, X_v3, X_v6, X_v29] <;> rfl

end Final

/-! ## The reference's run -/

/-- At the ideal values, on every device, from any memory with zero counters: every weakly fair execution of the
    reference's @main terminates with the result buffer at the network function of the argument arrays and the
    arguments unchanged. -/
theorem ref_value (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ fun r => ∀ c : Dev nD,
      r.2.mem ((c.tc : Thread nD τ).loc main_v182) = Cert.Stages.h3 (Cert.Stages.src (m ((c.tc : Thread nD τ).loc main_arg1))) (Cert.Stages.dst (m ((c.tc : Thread nD τ).loc main_arg1))) (Cert.Stages.coef (m ((c.tc : Thread nD τ).loc main_arg1))) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v182).trans (X_h3 m c),
      (h c main_arg0).trans (X_arg0 m c),
      (h c main_arg1).trans (X_arg1 m c),
      (h c main_arg2).trans (X_arg2 m c),
      (h c main_arg3).trans (X_arg3 m c),
      (h c main_arg4).trans (X_arg4 m c),
      (h c main_arg5).trans (X_arg5 m c),
      (h c main_arg6).trans (X_arg6 m c),
      (h c main_arg7).trans (X_arg7 m c)⟩)
    (Cert.ReferenceIdeal.RefRun.run_after m ρ)

end Cert.ReferenceIdeal.RefValue

end
-- ==== Proof.lean ====
/-
  The certificate: a three-layer graph-convolution network, tiled kernels against the plain host program.

  Both programs compute, from node features X, an edge list, and the parameters, the same network on the extended reals
  (Stages.h3): a dense input layer; then three times a dense map, a propagation step along the edges (gather at the
  sources, scale by the edge's coefficient, sum at the destinations), a bias, a normalisation of each 128-entry row with
  scale and shift, the rectifier, and from the second layer on a residual sum. The kernel program runs the dense maps
  and the normalising layers as tiled kernels over blocks of 5000 rows and leaves the propagation to host operations;
  the reference is host operations throughout. Row by row the kernels compute what the host operations compute: a
  block's row is the array's row, a matrix product into a zero accumulator is the host's product, a lane sum is the
  host's sum, a bias of zeros adds nothing, and the changes of float format are the identity on the extended reals.
  No law beyond x + 0 = x and 0 + x = x is used, so the precondition is not opened.
  The three frames are the generated ones (the reference's is its run with the result dropped); the idealization
  rewrote nothing, so the preservation claim is trivial.
-/
import proofs.«158225_j51247549776507_1_alg».proof.Defs
import proofs.«158225_j51247549776507_1_alg».proof.Proof.Gen.Kernel
import proofs.«158225_j51247549776507_1_alg».proof.Proof.Gen.Kernel.Frame
import proofs.«158225_j51247549776507_1_alg».proof.Proof.Gen.KernelIdeal
import proofs.«158225_j51247549776507_1_alg».proof.Proof.Gen.KernelIdeal.Frame
import proofs.«158225_j51247549776507_1_alg».proof.Proof.Gen.ReferenceIdeal
import proofs.«158225_j51247549776507_1_alg».proof.Proof.Gen.Pre_finite_inputs
import proofs.«158225_j51247549776507_1_alg».proof.Proof.KernelRun
import proofs.«158225_j51247549776507_1_alg».proof.Proof.KStages
import proofs.«158225_j51247549776507_1_alg».proof.Proof.KernelPay
import proofs.«158225_j51247549776507_1_alg».proof.Proof.RefValue
import Idealize.ShloMosaic.Adequacy
import Idealize.ShloMosaic.Init

noncomputable section

namespace Cert.Proof

open Idealize.ShloMosaic Idealize.SL.Sem

/-- The seven kernel bodies' values. -/
theorem payFacts : Cert.KernelIdeal.PayFacts :=
  ⟨Cert.KernelIdeal.Pay.pay_lin0, Cert.KernelIdeal.Pay.pay_lin1, Cert.KernelIdeal.Pay.pay_lin3, Cert.KernelIdeal.Pay.pay_lin5,
    Cert.KernelIdeal.Pay.pay_norm2, Cert.KernelIdeal.Pay.pay_norm4, Cert.KernelIdeal.Pay.pay_norm6⟩

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefValue.ref_value m ρ)

theorem preserves : Cert.preserves_Kernel_KernelIdeal := trivial

/-- Both programs end with the network's result of the (agreeing) arguments. -/
theorem algebraic : Cert.algebraic_KernelIdeal_ReferenceIdeal := by
  intro m ρ m' ρ' _ hagree
  refine ⟨fun c => Cert.Stages.h3 (Cert.Stages.src (m ((c.tc : Thread Cert.KernelIdeal.nD Cert.KernelIdeal.τ).loc Cert.KernelIdeal.main_arg1)))
      (Cert.Stages.dst (m ((c.tc : Thread Cert.KernelIdeal.nD Cert.KernelIdeal.τ).loc Cert.KernelIdeal.main_arg1)))
      (Cert.Stages.coef (m ((c.tc : Thread Cert.KernelIdeal.nD Cert.KernelIdeal.τ).loc Cert.KernelIdeal.main_arg1)))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.KStages.v99 payFacts m ρ c), (h c).2⟩)
      (Cert.KernelIdeal.Run.run_main m ρ)
  · refine (θ_run Cert.ReferenceIdeal.defs _ _).mono (fun r h c => ⟨(h c).1.trans ?_, (h c).2⟩)
      (Cert.ReferenceIdeal.RefValue.ref_value m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
